-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v196) = v0 c
          ∧ r.2.mem ((c.tc : Thread Cert.ReferenceIdeal.nD Cert.ReferenceIdeal.τ).loc Cert.ReferenceIdeal.main_v184) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S524288x65 : Shape := ⟨2, ![524288, 65]⟩
abbrev S_ : Shape := ⟨0, ![]⟩

class Facts : Prop where
  bcast_S_S524288x65 : S_.BroadcastsInDim S524288x65 (![] : Fin 0 → Fin S524288x65.rank)
  reducesTo_S524288x65_S_d0_1 : S524288x65.ReducesTo [0, 1] S_
  h_S_ : 0 < S_.numel

variable [Facts]

def fn {F : FTy → Type} [FloatOps F] (main_arg0 : FVec F S524288x65 .f32) : IVec S_ 1 :=
  let main_v0 : FVec F S524288x65 .f32 := Host.absf main_arg0
  let main_cst : FVec F S_ .f32 := constant S_ .f32 0x7F800000#32
  let main_v1 : FVec F S524288x65 .f32 := broadcastInDim S524288x65 ![] bcast_S_S524288x65 main_cst
  let main_v2 : IVec S524288x65 1 := cmpf .olt main_v0 main_v1
  let main_c : IVec S_ 1 := constantI S_ 1 1#1
  let main_v3 : IVec S_ 1 := (fun x v => Host.reduce IntOp.andi x v reducesTo_S524288x65_S_d0_1 h_S_) main_v2 main_c
  main_v3
-- ==== Kernel.lean ====
abbrev S524288x65 : Shape := ⟨2, ![524288, 65]⟩
abbrev S524288x76 : Shape := ⟨2, ![524288, 76]⟩
abbrev S4096x65 : Shape := ⟨2, ![4096, 65]⟩
abbrev S4096x76 : Shape := ⟨2, ![4096, 76]⟩
abbrev S4096x7 : Shape := ⟨2, ![4096, 7]⟩
abbrev S4096 : Shape := ⟨1, ![4096]⟩
abbrev S4096x1 : Shape := ⟨2, ![4096, 1]⟩
abbrev S4096x23 : Shape := ⟨2, ![4096, 23]⟩
abbrev S4096x18 : Shape := ⟨2, ![4096, 18]⟩
abbrev S4096x5 : Shape := ⟨2, ![4096, 5]⟩
abbrev S4096x3 : Shape := ⟨2, ![4096, 3]⟩
abbrev S4096x8 : Shape := ⟨2, ![4096, 8]⟩
abbrev S4096x53 : Shape := ⟨2, ![4096, 53]⟩
abbrev S4096x12 : Shape := ⟨2, ![4096, 12]⟩
abbrev S4096x2 : Shape := ⟨2, ![4096, 2]⟩
abbrev S4096x4 : Shape := ⟨2, ![4096, 4]⟩

abbrev nBuf : Space → Nat
  | .hbm => 3
  | .vmem => 6
  | .smem => 0
  | _ => 0

abbrev bufTy : (tb : Table) → Fin (tcTables nBuf tb) → BufTy
  | .hbm, ⟨0, _⟩ => ⟨S524288x65, .f32⟩
  | .hbm, ⟨1, _⟩ => ⟨S524288x65, .f32⟩
  | .hbm, ⟨2, _⟩ => ⟨S524288x76, .f32⟩
  | .local _ .vmem, ⟨0, _⟩ => ⟨S4096x65, .f32⟩
  | .local _ .vmem, ⟨1, _⟩ => ⟨S4096x65, .f32⟩
  | .local _ .vmem, ⟨2, _⟩ => ⟨S4096x65, .f32⟩
  | .local _ .vmem, ⟨3, _⟩ => ⟨S4096x65, .f32⟩
  | .local _ .vmem, ⟨4, _⟩ => ⟨S4096x76, .f32⟩
  | .local _ .vmem, ⟨5, _⟩ => ⟨S4096x76, .f32⟩
  | _, _ => ⟨S524288x65, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x65 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x65 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x76 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S4096x65_S4096x65_0_0 : ∀ a, (![0, 0] : Fin 2 → Nat) a + S4096x65.size a ≤ S4096x65.size a
  h_S4096x65 : 0 < S4096x65.numel
  slices_S4096x65_o0_0_S4096x7 : S4096x65.Slices ![0, 0] S4096x7
  reduces_S4096x7_S4096 : S4096x7.Reduces [1] S4096
  shapeCasts_S4096_S4096x1 : S4096.ShapeCasts S4096x1
  broadcasts_S4096x1_S4096x7 : S4096x1.Broadcasts S4096x7
  slices_S4096x65_o0_7_S4096x23 : S4096x65.Slices ![0, 7] S4096x23
  reduces_S4096x23_S4096 : S4096x23.Reduces [1] S4096
  broadcasts_S4096x1_S4096x23 : S4096x1.Broadcasts S4096x23
  slices_S4096x65_o0_30_S4096x18 : S4096x65.Slices ![0, 30] S4096x18
  reduces_S4096x18_S4096 : S4096x18.Reduces [1] S4096
  broadcasts_S4096x1_S4096x18 : S4096x1.Broadcasts S4096x18
  slices_S4096x65_o0_48_S4096x5 : S4096x65.Slices ![0, 48] S4096x5
  reduces_S4096x5_S4096 : S4096x5.Reduces [1] S4096
  broadcasts_S4096x1_S4096x5 : S4096x1.Broadcasts S4096x5
  slices_S4096x65_o0_53_S4096x5 : S4096x65.Slices ![0, 53] S4096x5
  slices_S4096x65_o0_58_S4096x1 : S4096x65.Slices ![0, 58] S4096x1
  reduces_S4096x1_S4096 : S4096x1.Reduces [1] S4096
  slices_S4096x65_o0_59_S4096x3 : S4096x65.Slices ![0, 59] S4096x3
  reduces_S4096x3_S4096 : S4096x3.Reduces [1] S4096
  broadcasts_S4096x1_S4096x3 : S4096x1.Broadcasts S4096x3
  slices_S4096x65_o0_62_S4096x3 : S4096x65.Slices ![0, 62] S4096x3
  concatenates_S4096x7_S4096x23_S4096x18_S4096x5_S4096x5_S4096x1_S4096x3_S4096x3_S4096x65_d1 : Shape.Concatenates [S4096x7, S4096x23, S4096x18, S4096x5, S4096x5, S4096x1, S4096x3, S4096x3] S4096x65 1
  concatenates_S4096x1_S4096x1_S4096x1_S4096x1_S4096x1_S4096x1_S4096x1_S4096x1_S4096x8_d1 : Shape.Concatenates [S4096x1, S4096x1, S4096x1, S4096x1, S4096x1, S4096x1, S4096x1, S4096x1] S4096x8 1
  slices_S4096x65_o0_0_S4096x53 : S4096x65.Slices ![0, 0] S4096x53
  reduces_S4096x53_S4096 : S4096x53.Reduces [1] S4096
  slices_S4096x65_o0_53_S4096x12 : S4096x65.Slices ![0, 53] S4096x12
  reduces_S4096x12_S4096 : S4096x12.Reduces [1] S4096
  concatenates_S4096x1_S4096x1_S4096x2_d1 : Shape.Concatenates [S4096x1, S4096x1] S4096x2 1
  reduces_S4096x2_S4096 : S4096x2.Reduces [1] S4096
  broadcasts_S4096x1_S4096x2 : S4096x1.Broadcasts S4096x2
  slices_S4096x8_o0_0_S4096x4 : S4096x8.Slices ![0, 0] S4096x4
  reduces_S4096x4_S4096 : S4096x4.Reduces [1] S4096
  broadcasts_S4096x1_S4096x4 : S4096x1.Broadcasts S4096x4
  slices_S4096x8_o0_4_S4096x4 : S4096x8.Slices ![0, 4] S4096x4
  concatenates_S4096x4_S4096x4_S4096x8_d1 : Shape.Concatenates [S4096x4, S4096x4] S4096x8 1
  concatenates_S4096x65_S4096x8_S4096x2_S4096x1_S4096x76_d1 : Shape.Concatenates [S4096x65, S4096x8, S4096x2, S4096x1] S4096x76 1
  slices_S4096x8_o0_0_S4096x1 : S4096x8.Slices ![0, 0] S4096x1
  shapeCasts_S4096x1_S4096x1 : S4096x1.ShapeCasts S4096x1
  slices_S4096x8_o0_1_S4096x1 : S4096x8.Slices ![0, 1] S4096x1
  slices_S4096x8_o0_2_S4096x1 : S4096x8.Slices ![0, 2] S4096x1
  slices_S4096x8_o0_3_S4096x1 : S4096x8.Slices ![0, 3] S4096x1
  slices_S4096x8_o0_4_S4096x1 : S4096x8.Slices ![0, 4] S4096x1
  slices_S4096x8_o0_5_S4096x1 : S4096x8.Slices ![0, 5] S4096x1
  slices_S4096x8_o0_6_S4096x1 : S4096x8.Slices ![0, 6] S4096x1
  slices_S4096x8_o0_7_S4096x1 : S4096x8.Slices ![0, 7] S4096x1
  slices_S4096x2_o0_0_S4096x1 : S4096x2.Slices ![0, 0] S4096x1
  broadcasts_S4096x1_S4096x53 : S4096x1.Broadcasts S4096x53
  slices_S4096x2_o0_1_S4096x1 : S4096x2.Slices ![0, 1] S4096x1
  broadcasts_S4096x1_S4096x12 : S4096x1.Broadcasts S4096x12
  concatenates_S4096x53_S4096x12_S4096x65_d1 : Shape.Concatenates [S4096x53, S4096x12] S4096x65 1
  inb_S4096x76_S4096x76_0_0 : ∀ a, (![0, 0] : Fin 2 → Nat) a + S4096x76.size a ≤ S4096x76.size a
  h_S4096x76 : 0 < S4096x76.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x65.size a ≤ S524288x65.size a
  hwx0_0 : ∀ i : grid0.Coords, EltTy.bits .f32 = 32 ∨ (Rect.block (s := S524288x65) S4096x65.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x65.size a ≤ S524288x65.size a
  hwx0_1 : ∀ i : grid0.Coords, EltTy.bits .f32 = 32 ∨ (Rect.block (s := S524288x65) S4096x65.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x76.size a ≤ S524288x76.size a
  hwx0_2 : ∀ i : grid0.Coords, EltTy.bits .f32 = 32 ∨ (Rect.block (s := S524288x76) S4096x76.size (cc0_transform_2 i) (hinb0_2 i)).WholeWords (EltTy.packing .f32)

variable [Facts₀]

abbrev win0_0 : Pipeline.Window sig grid0 :=
  Pipeline.Window.ofSpec (Memref.whole main_arg0) S4096x65.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S4096x65.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S4096x76.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S524288x65 : Shape := ⟨2, ![524288, 65]⟩
abbrev S65 : Shape := ⟨1, ![65]⟩
abbrev S524288x7 : Shape := ⟨2, ![524288, 7]⟩
abbrev S_ : Shape := ⟨0, ![]⟩
abbrev S524288 : Shape := ⟨1, ![524288]⟩
abbrev S524288x1 : Shape := ⟨2, ![524288, 1]⟩
abbrev S524288x23 : Shape := ⟨2, ![524288, 23]⟩
abbrev S524288x18 : Shape := ⟨2, ![524288, 18]⟩
abbrev S524288x5 : Shape := ⟨2, ![524288, 5]⟩
abbrev S524288x3 : Shape := ⟨2, ![524288, 3]⟩
abbrev S524288x8 : Shape := ⟨2, ![524288, 8]⟩
abbrev S524288x53 : Shape := ⟨2, ![524288, 53]⟩
abbrev S524288x12 : Shape := ⟨2, ![524288, 12]⟩
abbrev S524288x2 : Shape := ⟨2, ![524288, 2]⟩
abbrev S524288x4 : Shape := ⟨2, ![524288, 4]⟩
abbrev S524288x76 : Shape := ⟨2, ![524288, 76]⟩
abbrev S65x1 : Shape := ⟨2, ![65, 1]⟩

abbrev nBuf : Space → Nat
  | .hbm => 258
  | .vmem => 0
  | .smem => 0
  | _ => 0

abbrev hbmTy0_0 (i : Nat) : BufTy := match i % 128 with
  | 0 => ⟨S524288x65, .f32⟩
  | 1 => ⟨S65, .i32⟩
  | 2 => ⟨S65, .i1⟩
  | 3 => ⟨S65, .i32⟩
  | 4 => ⟨S65, .i1⟩
  | 5 => ⟨S524288x7, .f32⟩
  | 6 => ⟨S_, .f32⟩
  | 7 => ⟨S524288, .f32⟩
  | 8 => ⟨S_, .f32⟩
  | 9 => ⟨S524288, .f32⟩
  | 10 => ⟨S524288, .f32⟩
  | 11 => ⟨S524288x1, .f32⟩
  | 12 => ⟨S524288x7, .f32⟩
  | 13 => ⟨S524288x7, .f32⟩
  | 14 => ⟨S524288x7, .f32⟩
  | 15 => ⟨S_, .f32⟩
  | 16 => ⟨S524288, .f32⟩
  | 17 => ⟨S524288x1, .f32⟩
  | 18 => ⟨S524288x7, .f32⟩
  | 19 => ⟨S524288x7, .f32⟩
  | 20 => ⟨S524288x23, .f32⟩
  | 21 => ⟨S_, .f32⟩
  | 22 => ⟨S524288, .f32⟩
  | 23 => ⟨S_, .f32⟩
  | 24 => ⟨S524288, .f32⟩
  | 25 => ⟨S524288, .f32⟩
  | 26 => ⟨S524288x1, .f32⟩
  | 27 => ⟨S524288x23, .f32⟩
  | 28 => ⟨S524288x23, .f32⟩
  | 29 => ⟨S524288x23, .f32⟩
  | 30 => ⟨S_, .f32⟩
  | 31 => ⟨S524288, .f32⟩
  | 32 => ⟨S524288x1, .f32⟩
  | 33 => ⟨S524288x23, .f32⟩
  | 34 => ⟨S524288x23, .f32⟩
  | 35 => ⟨S524288x18, .f32⟩
  | 36 => ⟨S_, .f32⟩
  | 37 => ⟨S524288, .f32⟩
  | 38 => ⟨S_, .f32⟩
  | 39 => ⟨S524288, .f32⟩
  | 40 => ⟨S524288, .f32⟩
  | 41 => ⟨S524288x1, .f32⟩
  | 42 => ⟨S524288x18, .f32⟩
  | 43 => ⟨S524288x18, .f32⟩
  | 44 => ⟨S524288x18, .f32⟩
  | 45 => ⟨S_, .f32⟩
  | 46 => ⟨S524288, .f32⟩
  | 47 => ⟨S524288x1, .f32⟩
  | 48 => ⟨S524288x18, .f32⟩
  | 49 => ⟨S524288x18, .f32⟩
  | 50 => ⟨S524288x5, .f32⟩
  | 51 => ⟨S_, .f32⟩
  | 52 => ⟨S524288, .f32⟩
  | 53 => ⟨S_, .f32⟩
  | 54 => ⟨S524288, .f32⟩
  | 55 => ⟨S524288, .f32⟩
  | 56 => ⟨S524288x1, .f32⟩
  | 57 => ⟨S524288x5, .f32⟩
  | 58 => ⟨S524288x5, .f32⟩
  | 59 => ⟨S524288x5, .f32⟩
  | 60 => ⟨S_, .f32⟩
  | 61 => ⟨S524288, .f32⟩
  | 62 => ⟨S524288x1, .f32⟩
  | 63 => ⟨S524288x5, .f32⟩
  | 64 => ⟨S524288x5, .f32⟩
  | 65 => ⟨S524288x5, .f32⟩
  | 66 => ⟨S_, .f32⟩
  | 67 => ⟨S524288, .f32⟩
  | 68 => ⟨S_, .f32⟩
  | 69 => ⟨S524288, .f32⟩
  | 70 => ⟨S524288, .f32⟩
  | 71 => ⟨S524288x1, .f32⟩
  | 72 => ⟨S524288x5, .f32⟩
  | 73 => ⟨S524288x5, .f32⟩
  | 74 => ⟨S524288x5, .f32⟩
  | 75 => ⟨S_, .f32⟩
  | 76 => ⟨S524288, .f32⟩
  | 77 => ⟨S524288x1, .f32⟩
  | 78 => ⟨S524288x5, .f32⟩
  | 79 => ⟨S524288x5, .f32⟩
  | 80 => ⟨S524288x1, .f32⟩
  | 81 => ⟨S_, .f32⟩
  | 82 => ⟨S524288, .f32⟩
  | 83 => ⟨S_, .f32⟩
  | 84 => ⟨S524288, .f32⟩
  | 85 => ⟨S524288, .f32⟩
  | 86 => ⟨S524288x1, .f32⟩
  | 87 => ⟨S524288x1, .f32⟩
  | 88 => ⟨S524288x1, .f32⟩
  | 89 => ⟨S_, .f32⟩
  | 90 => ⟨S524288, .f32⟩
  | 91 => ⟨S524288x1, .f32⟩
  | 92 => ⟨S524288x1, .f32⟩
  | 93 => ⟨S524288x3, .f32⟩
  | 94 => ⟨S_, .f32⟩
  | 95 => ⟨S524288, .f32⟩
  | 96 => ⟨S_, .f32⟩
  | 97 => ⟨S524288, .f32⟩
  | 98 => ⟨S524288, .f32⟩
  | 99 => ⟨S524288x1, .f32⟩
  | 100 => ⟨S524288x3, .f32⟩
  | 101 => ⟨S524288x3, .f32⟩
  | 102 => ⟨S524288x3, .f32⟩
  | 103 => ⟨S_, .f32⟩
  | 104 => ⟨S524288, .f32⟩
  | 105 => ⟨S524288x1, .f32⟩
  | 106 => ⟨S524288x3, .f32⟩
  | 107 => ⟨S524288x3, .f32⟩
  | 108 => ⟨S524288x3, .f32⟩
  | 109 => ⟨S_, .f32⟩
  | 110 => ⟨S524288, .f32⟩
  | 111 => ⟨S_, .f32⟩
  | 112 => ⟨S524288, .f32⟩
  | 113 => ⟨S524288, .f32⟩
  | 114 => ⟨S524288x1, .f32⟩
  | 115 => ⟨S524288x3, .f32⟩
  | 116 => ⟨S524288x3, .f32⟩
  | 117 => ⟨S524288x3, .f32⟩
  | 118 => ⟨S_, .f32⟩
  | 119 => ⟨S524288, .f32⟩
  | 120 => ⟨S524288x1, .f32⟩
  | 121 => ⟨S524288x3, .f32⟩
  | 122 => ⟨S524288x3, .f32⟩
  | 123 => ⟨S524288x65, .f32⟩
  | 124 => ⟨S524288x7, .f32⟩
  | 125 => ⟨S_, .f32⟩
  | 126 => ⟨S524288, .f32⟩
  | 127 => ⟨S_, .f32⟩
  | _ => ⟨S524288x65, .f32⟩

abbrev hbmTy0_1 (i : Nat) : BufTy := match i % 128 with
  | 0 => ⟨S524288, .f32⟩
  | 1 => ⟨S524288, .f32⟩
  | 2 => ⟨S524288x23, .f32⟩
  | 3 => ⟨S_, .f32⟩
  | 4 => ⟨S524288, .f32⟩
  | 5 => ⟨S_, .f32⟩
  | 6 => ⟨S524288, .f32⟩
  | 7 => ⟨S524288, .f32⟩
  | 8 => ⟨S524288x18, .f32⟩
  | 9 => ⟨S_, .f32⟩
  | 10 => ⟨S524288, .f32⟩
  | 11 => ⟨S_, .f32⟩
  | 12 => ⟨S524288, .f32⟩
  | 13 => ⟨S524288, .f32⟩
  | 14 => ⟨S524288x5, .f32⟩
  | 15 => ⟨S_, .f32⟩
  | 16 => ⟨S524288, .f32⟩
  | 17 => ⟨S_, .f32⟩
  | 18 => ⟨S524288, .f32⟩
  | 19 => ⟨S524288, .f32⟩
  | 20 => ⟨S524288x5, .f32⟩
  | 21 => ⟨S_, .f32⟩
  | 22 => ⟨S524288, .f32⟩
  | 23 => ⟨S_, .f32⟩
  | 24 => ⟨S524288, .f32⟩
  | 25 => ⟨S524288, .f32⟩
  | 26 => ⟨S524288x1, .f32⟩
  | 27 => ⟨S_, .f32⟩
  | 28 => ⟨S524288, .f32⟩
  | 29 => ⟨S_, .f32⟩
  | 30 => ⟨S524288, .f32⟩
  | 31 => ⟨S524288, .f32⟩
  | 32 => ⟨S524288x3, .f32⟩
  | 33 => ⟨S_, .f32⟩
  | 34 => ⟨S524288, .f32⟩
  | 35 => ⟨S_, .f32⟩
  | 36 => ⟨S524288, .f32⟩
  | 37 => ⟨S524288, .f32⟩
  | 38 => ⟨S524288x3, .f32⟩
  | 39 => ⟨S_, .f32⟩
  | 40 => ⟨S524288, .f32⟩
  | 41 => ⟨S_, .f32⟩
  | 42 => ⟨S524288, .f32⟩
  | 43 => ⟨S524288, .f32⟩
  | 44 => ⟨S524288x1, .f32⟩
  | 45 => ⟨S524288x1, .f32⟩
  | 46 => ⟨S524288x1, .f32⟩
  | 47 => ⟨S524288x1, .f32⟩
  | 48 => ⟨S524288x1, .f32⟩
  | 49 => ⟨S524288x1, .f32⟩
  | 50 => ⟨S524288x1, .f32⟩
  | 51 => ⟨S524288x1, .f32⟩
  | 52 => ⟨S524288x8, .f32⟩
  | 53 => ⟨S524288x53, .f32⟩
  | 54 => ⟨S_, .f32⟩
  | 55 => ⟨S524288, .f32⟩
  | 56 => ⟨S_, .f32⟩
  | 57 => ⟨S524288, .f32⟩
  | 58 => ⟨S524288, .f32⟩
  | 59 => ⟨S524288x12, .f32⟩
  | 60 => ⟨S_, .f32⟩
  | 61 => ⟨S524288, .f32⟩
  | 62 => ⟨S_, .f32⟩
  | 63 => ⟨S524288, .f32⟩
  | 64 => ⟨S524288, .f32⟩
  | 65 => ⟨S524288x1, .f32⟩
  | 66 => ⟨S524288x1, .f32⟩
  | 67 => ⟨S524288x2, .f32⟩
  | 68 => ⟨S_, .f32⟩
  | 69 => ⟨S524288, .f32⟩
  | 70 => ⟨S_, .f32⟩
  | 71 => ⟨S524288, .f32⟩
  | 72 => ⟨S524288, .f32⟩
  | 73 => ⟨S524288x1, .f32⟩
  | 74 => ⟨S524288x2, .f32⟩
  | 75 => ⟨S524288x2, .f32⟩
  | 76 => ⟨S524288x2, .f32⟩
  | 77 => ⟨S_, .f32⟩
  | 78 => ⟨S524288, .f32⟩
  | 79 => ⟨S524288x1, .f32⟩
  | 80 => ⟨S524288x2, .f32⟩
  | 81 => ⟨S524288x2, .f32⟩
  | 82 => ⟨S524288x4, .f32⟩
  | 83 => ⟨S_, .f32⟩
  | 84 => ⟨S524288, .f32⟩
  | 85 => ⟨S_, .f32⟩
  | 86 => ⟨S524288, .f32⟩
  | 87 => ⟨S524288, .f32⟩
  | 88 => ⟨S524288x1, .f32⟩
  | 89 => ⟨S524288x4, .f32⟩
  | 90 => ⟨S524288x4, .f32⟩
  | 91 => ⟨S524288x4, .f32⟩
  | 92 => ⟨S_, .f32⟩
  | 93 => ⟨S524288, .f32⟩
  | 94 => ⟨S524288x1, .f32⟩
  | 95 => ⟨S524288x4, .f32⟩
  | 96 => ⟨S524288x4, .f32⟩
  | 97 => ⟨S524288x4, .f32⟩
  | 98 => ⟨S_, .f32⟩
  | 99 => ⟨S524288, .f32⟩
  | 100 => ⟨S_, .f32⟩
  | 101 => ⟨S524288, .f32⟩
  | 102 => ⟨S524288, .f32⟩
  | 103 => ⟨S524288x1, .f32⟩
  | 104 => ⟨S524288x4, .f32⟩
  | 105 => ⟨S524288x4, .f32⟩
  | 106 => ⟨S524288x4, .f32⟩
  | 107 => ⟨S_, .f32⟩
  | 108 => ⟨S524288, .f32⟩
  | 109 => ⟨S524288x1, .f32⟩
  | 110 => ⟨S524288x4, .f32⟩
  | 111 => ⟨S524288x4, .f32⟩
  | 112 => ⟨S524288x8, .f32⟩
  | 113 => ⟨S_, .f32⟩
  | 114 => ⟨S524288x1, .f32⟩
  | 115 => ⟨S524288x76, .f32⟩
  | 116 => ⟨S_, .i32⟩
  | 117 => ⟨S65, .i32⟩
  | 118 => ⟨S65, .i32⟩
  | 119 => ⟨S65, .i32⟩
  | 120 => ⟨S65x1, .i32⟩
  | 121 => ⟨S524288x65, .f32⟩
  | 122 => ⟨S524288x65, .f32⟩
  | 123 => ⟨S_, .i32⟩
  | 124 => ⟨S65, .i32⟩
  | 125 => ⟨S65, .i32⟩
  | 126 => ⟨S65, .i32⟩
  | 127 => ⟨S65x1, .i32⟩
  | _ => ⟨S524288x65, .f32⟩

abbrev hbmTy0_2 (i : Nat) : BufTy := match i % 128 with
  | 0 => ⟨S524288x65, .f32⟩
  | 1 => ⟨S524288x65, .f32⟩
  | _ => ⟨S524288x65, .f32⟩

abbrev hbmTy (i : Nat) : BufTy := match i / 128 with
  | 0 => hbmTy0_0 i
  | 1 => hbmTy0_1 i
  | 2 => hbmTy0_2 i
  | _ => ⟨S524288x65, .f32⟩

abbrev bufTy : (tb : Table) → Fin (tcTables nBuf tb) → BufTy
  | .hbm, ⟨i, _⟩ => hbmTy i
  | _, _ => ⟨S524288x65, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_c_1 : Ref sig .tc := ⟨.hbm, 3, rfl⟩
abbrev main_c_2 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_cst_3 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_4 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_5 : Ref sig .tc := ⟨.hbm, 21, rfl⟩
abbrev main_v13 : Ref sig .tc := ⟨.hbm, 22, rfl⟩
abbrev main_cst_6 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_7 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_8 : Ref sig .tc := ⟨.hbm, 36, rfl⟩
abbrev main_v25 : Ref sig .tc := ⟨.hbm, 37, rfl⟩
abbrev main_cst_9 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_10 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_11 : Ref sig .tc := ⟨.hbm, 51, rfl⟩
abbrev main_v37 : Ref sig .tc := ⟨.hbm, 52, rfl⟩
abbrev main_cst_12 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_13 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_14 : Ref sig .tc := ⟨.hbm, 66, rfl⟩
abbrev main_v49 : Ref sig .tc := ⟨.hbm, 67, rfl⟩
abbrev main_cst_15 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_16 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_17 : Ref sig .tc := ⟨.hbm, 81, rfl⟩
abbrev main_v61 : Ref sig .tc := ⟨.hbm, 82, rfl⟩
abbrev main_cst_18 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_cst_19 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_cst_20 : Ref sig .tc := ⟨.hbm, 94, rfl⟩
abbrev main_v71 : Ref sig .tc := ⟨.hbm, 95, rfl⟩
abbrev main_cst_21 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_cst_22 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_cst_23 : Ref sig .tc := ⟨.hbm, 109, rfl⟩
abbrev main_v83 : Ref sig .tc := ⟨.hbm, 110, rfl⟩
abbrev main_cst_24 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_cst_25 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_cst_26 : Ref sig .tc := ⟨.hbm, 125, rfl⟩
abbrev main_v96 : Ref sig .tc := ⟨.hbm, 126, rfl⟩
abbrev main_cst_27 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_cst_28 : Ref sig .tc := ⟨.hbm, 131, rfl⟩
abbrev main_v100 : Ref sig .tc := ⟨.hbm, 132, rfl⟩
abbrev main_cst_29 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_cst_30 : Ref sig .tc := ⟨.hbm, 137, rfl⟩
abbrev main_v104 : Ref sig .tc := ⟨.hbm, 138, rfl⟩
abbrev main_cst_31 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_cst_32 : Ref sig .tc := ⟨.hbm, 143, rfl⟩
abbrev main_v108 : Ref sig .tc := ⟨.hbm, 144, rfl⟩
abbrev main_cst_33 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_cst_34 : Ref sig .tc := ⟨.hbm, 149, rfl⟩
abbrev main_v112 : Ref sig .tc := ⟨.hbm, 150, rfl⟩
abbrev main_cst_35 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_cst_36 : Ref sig .tc := ⟨.hbm, 155, rfl⟩
abbrev main_v116 : Ref sig .tc := ⟨.hbm, 156, rfl⟩
abbrev main_cst_37 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_cst_38 : Ref sig .tc := ⟨.hbm, 161, rfl⟩
abbrev main_v120 : Ref sig .tc := ⟨.hbm, 162, rfl⟩
abbrev main_cst_39 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_cst_40 : Ref sig .tc := ⟨.hbm, 167, rfl⟩
abbrev main_v124 : Ref sig .tc := ⟨.hbm, 168, rfl⟩
abbrev main_cst_41 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_cst_42 : Ref sig .tc := ⟨.hbm, 182, rfl⟩
abbrev main_v137 : Ref sig .tc := ⟨.hbm, 183, rfl⟩
abbrev main_cst_43 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_cst_44 : Ref sig .tc := ⟨.hbm, 188, rfl⟩
abbrev main_v141 : Ref sig .tc := ⟨.hbm, 189, rfl⟩
abbrev main_cst_45 : Ref sig .tc := ⟨.hbm, 190, rfl⟩
abbrev main_v142 : Ref sig .tc := ⟨.hbm, 191, rfl⟩
abbrev main_v143 : Ref sig .tc := ⟨.hbm, 192, rfl⟩
abbrev main_v144 : Ref sig .tc := ⟨.hbm, 193, rfl⟩
abbrev main_v145 : Ref sig .tc := ⟨.hbm, 194, rfl⟩
abbrev main_v146 : Ref sig .tc := ⟨.hbm, 195, rfl⟩
abbrev main_cst_46 : Ref sig .tc := ⟨.hbm, 196, rfl⟩
abbrev main_v147 : Ref sig .tc := ⟨.hbm, 197, rfl⟩
abbrev main_cst_47 : Ref sig .tc := ⟨.hbm, 198, rfl⟩
abbrev main_v148 : Ref sig .tc := ⟨.hbm, 199, rfl⟩
abbrev main_v149 : Ref sig .tc := ⟨.hbm, 200, rfl⟩
abbrev main_v150 : Ref sig .tc := ⟨.hbm, 201, rfl⟩
abbrev main_v151 : Ref sig .tc := ⟨.hbm, 202, rfl⟩
abbrev main_v152 : Ref sig .tc := ⟨.hbm, 203, rfl⟩
abbrev main_v153 : Ref sig .tc := ⟨.hbm, 204, rfl⟩
abbrev main_cst_48 : Ref sig .tc := ⟨.hbm, 205, rfl⟩
abbrev main_v154 : Ref sig .tc := ⟨.hbm, 206, rfl⟩
abbrev main_v155 : Ref sig .tc := ⟨.hbm, 207, rfl⟩
abbrev main_v156 : Ref sig .tc := ⟨.hbm, 208, rfl⟩
abbrev main_v157 : Ref sig .tc := ⟨.hbm, 209, rfl⟩
abbrev main_v158 : Ref sig .tc := ⟨.hbm, 210, rfl⟩
abbrev main_cst_49 : Ref sig .tc := ⟨.hbm, 211, rfl⟩
abbrev main_v159 : Ref sig .tc := ⟨.hbm, 212, rfl⟩
abbrev main_cst_50 : Ref sig .tc := ⟨.hbm, 213, rfl⟩
abbrev main_v160 : Ref sig .tc := ⟨.hbm, 214, rfl⟩
abbrev main_v161 : Ref sig .tc := ⟨.hbm, 215, rfl⟩
abbrev main_v162 : Ref sig .tc := ⟨.hbm, 216, rfl⟩
abbrev main_v163 : Ref sig .tc := ⟨.hbm, 217, rfl⟩
abbrev main_v164 : Ref sig .tc := ⟨.hbm, 218, rfl⟩
abbrev main_v165 : Ref sig .tc := ⟨.hbm, 219, rfl⟩
abbrev main_cst_51 : Ref sig .tc := ⟨.hbm, 220, rfl⟩
abbrev main_v166 : Ref sig .tc := ⟨.hbm, 221, rfl⟩
abbrev main_v167 : Ref sig .tc := ⟨.hbm, 222, rfl⟩
abbrev main_v168 : Ref sig .tc := ⟨.hbm, 223, rfl⟩
abbrev main_v169 : Ref sig .tc := ⟨.hbm, 224, rfl⟩
abbrev main_v170 : Ref sig .tc := ⟨.hbm, 225, rfl⟩
abbrev main_cst_52 : Ref sig .tc := ⟨.hbm, 226, rfl⟩
abbrev main_v171 : Ref sig .tc := ⟨.hbm, 227, rfl⟩
abbrev main_cst_53 : Ref sig .tc := ⟨.hbm, 228, rfl⟩
abbrev main_v172 : Ref sig .tc := ⟨.hbm, 229, rfl⟩
abbrev main_v173 : Ref sig .tc := ⟨.hbm, 230, rfl⟩
abbrev main_v174 : Ref sig .tc := ⟨.hbm, 231, rfl⟩
abbrev main_v175 : Ref sig .tc := ⟨.hbm, 232, rfl⟩
abbrev main_v176 : Ref sig .tc := ⟨.hbm, 233, rfl⟩
abbrev main_v177 : Ref sig .tc := ⟨.hbm, 234, rfl⟩
abbrev main_cst_54 : Ref sig .tc := ⟨.hbm, 235, rfl⟩
abbrev main_v178 : Ref sig .tc := ⟨.hbm, 236, rfl⟩
abbrev main_v179 : Ref sig .tc := ⟨.hbm, 237, rfl⟩
abbrev main_v180 : Ref sig .tc := ⟨.hbm, 238, rfl⟩
abbrev main_v181 : Ref sig .tc := ⟨.hbm, 239, rfl⟩
abbrev main_v182 : Ref sig .tc := ⟨.hbm, 240, rfl⟩
abbrev main_cst_55 : Ref sig .tc := ⟨.hbm, 241, rfl⟩
abbrev main_v183 : Ref sig .tc := ⟨.hbm, 242, rfl⟩
abbrev main_v184 : Ref sig .tc := ⟨.hbm, 243, rfl⟩
abbrev main_c_56 : Ref sig .tc := ⟨.hbm, 244, rfl⟩
abbrev main_v185 : Ref sig .tc := ⟨.hbm, 245, rfl⟩
abbrev main_v186 : Ref sig .tc := ⟨.hbm, 246, rfl⟩
abbrev main_v187 : Ref sig .tc := ⟨.hbm, 247, rfl⟩
abbrev main_v188 : Ref sig .tc := ⟨.hbm, 248, rfl⟩
abbrev main_v189 : Ref sig .tc := ⟨.hbm, 249, rfl⟩
abbrev main_v190 : Ref sig .tc := ⟨.hbm, 250, rfl⟩
abbrev main_c_57 : Ref sig .tc := ⟨.hbm, 251, rfl⟩
abbrev main_v191 : Ref sig .tc := ⟨.hbm, 252, rfl⟩
abbrev main_v192 : Ref sig .tc := ⟨.hbm, 253, rfl⟩
abbrev main_v193 : Ref sig .tc := ⟨.hbm, 254, rfl⟩
abbrev main_v194 : Ref sig .tc := ⟨.hbm, 255, rfl⟩
abbrev main_v195 : Ref sig .tc := ⟨.hbm, 256, rfl⟩
abbrev main_v196 : Ref sig .tc := ⟨.hbm, 257, rfl⟩

abbrev nD : Nat := 1
abbrev τ : Topo := Topo.v7x

variable {F : FTy → Type} [FloatOps F]

class Facts₀ : Prop where
  slices_S524288x65_S524288x7_0_0 : S524288x65.Slices ![0, 0] S524288x7
  reducesTo_S524288x7_S524288_d1 : S524288x7.ReducesTo [1] S524288
  h_S_ : 0 < S_.numel
  bcast_S_S524288 : S_.BroadcastsInDim S524288 (![] : Fin 0 → Fin S524288.rank)
  bcast_S524288_S524288x1_0 : S524288.BroadcastsInDim S524288x1 (![0] : Fin 1 → Fin S524288x1.rank)
  bcast_S524288x1_S524288x7_0_1 : S524288x1.BroadcastsInDim S524288x7 (![0, 1] : Fin 2 → Fin S524288x7.rank)
  slices_S524288x65_S524288x23_0_7 : S524288x65.Slices ![0, 7] S524288x23
  reducesTo_S524288x23_S524288_d1 : S524288x23.ReducesTo [1] S524288
  bcast_S524288x1_S524288x23_0_1 : S524288x1.BroadcastsInDim S524288x23 (![0, 1] : Fin 2 → Fin S524288x23.rank)
  slices_S524288x65_S524288x18_0_30 : S524288x65.Slices ![0, 30] S524288x18
  reducesTo_S524288x18_S524288_d1 : S524288x18.ReducesTo [1] S524288
  bcast_S524288x1_S524288x18_0_1 : S524288x1.BroadcastsInDim S524288x18 (![0, 1] : Fin 2 → Fin S524288x18.rank)
  slices_S524288x65_S524288x5_0_48 : S524288x65.Slices ![0, 48] S524288x5
  reducesTo_S524288x5_S524288_d1 : S524288x5.ReducesTo [1] S524288
  bcast_S524288x1_S524288x5_0_1 : S524288x1.BroadcastsInDim S524288x5 (![0, 1] : Fin 2 → Fin S524288x5.rank)
  slices_S524288x65_S524288x5_0_53 : S524288x65.Slices ![0, 53] S524288x5
  slices_S524288x65_S524288x1_0_58 : S524288x65.Slices ![0, 58] S524288x1
  reducesTo_S524288x1_S524288_d1 : S524288x1.ReducesTo [1] S524288
  slices_S524288x65_S524288x3_0_59 : S524288x65.Slices ![0, 59] S524288x3
  reducesTo_S524288x3_S524288_d1 : S524288x3.ReducesTo [1] S524288
  bcast_S524288x1_S524288x3_0_1 : S524288x1.BroadcastsInDim S524288x3 (![0, 1] : Fin 2 → Fin S524288x3.rank)
  slices_S524288x65_S524288x3_0_62 : S524288x65.Slices ![0, 62] S524288x3
  concatenates_S524288x7_S524288x23_S524288x18_S524288x5_S524288x5_S524288x1_S524288x3_S524288x3_S524288x65_d1 : Shape.Concatenates [S524288x7, S524288x23, S524288x18, S524288x5, S524288x5, S524288x1, S524288x3, S524288x3] S524288x65 1
  concatenates_S524288x1_S524288x1_S524288x1_S524288x1_S524288x1_S524288x1_S524288x1_S524288x1_S524288x8_d1 : Shape.Concatenates [S524288x1, S524288x1, S524288x1, S524288x1, S524288x1, S524288x1, S524288x1, S524288x1] S524288x8 1
  slices_S524288x65_S524288x53_0_0 : S524288x65.Slices ![0, 0] S524288x53
  reducesTo_S524288x53_S524288_d1 : S524288x53.ReducesTo [1] S524288
  slices_S524288x65_S524288x12_0_53 : S524288x65.Slices ![0, 53] S524288x12
  reducesTo_S524288x12_S524288_d1 : S524288x12.ReducesTo [1] S524288
  concatenates_S524288x1_S524288x1_S524288x2_d1 : Shape.Concatenates [S524288x1, S524288x1] S524288x2 1
  reducesTo_S524288x2_S524288_d1 : S524288x2.ReducesTo [1] S524288
  bcast_S524288x1_S524288x2_0_1 : S524288x1.BroadcastsInDim S524288x2 (![0, 1] : Fin 2 → Fin S524288x2.rank)
  slices_S524288x8_S524288x4_0_0 : S524288x8.Slices ![0, 0] S524288x4
  reducesTo_S524288x4_S524288_d1 : S524288x4.ReducesTo [1] S524288
  bcast_S524288x1_S524288x4_0_1 : S524288x1.BroadcastsInDim S524288x4 (![0, 1] : Fin 2 → Fin S524288x4.rank)
  slices_S524288x8_S524288x4_0_4 : S524288x8.Slices ![0, 4] S524288x4
  concatenates_S524288x4_S524288x4_S524288x8_d1 : Shape.Concatenates [S524288x4, S524288x4] S524288x8 1
  bcast_S_S524288x1 : S_.BroadcastsInDim S524288x1 (![] : Fin 0 → Fin S524288x1.rank)
  concatenates_S524288x65_S524288x8_S524288x2_S524288x1_S524288x76_d1 : Shape.Concatenates [S524288x65, S524288x8, S524288x2, S524288x1] S524288x76 1
  bcast_S_S65 : S_.BroadcastsInDim S65 (![] : Fin 0 → Fin S65.rank)
  bcast_S65_S65x1_0 : S65.BroadcastsInDim S65x1 (![0] : Fin 1 → Fin S65x1.rank)
  gather_S524288x8_S65x1_S524288x65_0_1_n_n_1_1_5242881_wf : GatherDims.WF S524288x8 S65x1 S524288x65 [0] [1] [] [1] [] 1 ![524288, 1]
  gather_S524288x2_S65x1_S524288x65_0_1_n_n_1_1_5242881_wf : GatherDims.WF S524288x2 S65x1 S524288x65 [0] [1] [] [1] [] 1 ![524288, 1]

variable [Facts₀]

def gather_S524288x8_S65x1_S524288x65_0_1_n_n_1_1_5242881 : GatherDims S524288x8 S65x1 S524288x65 where
  offsetDims := [0]
  collapsedSliceDims := [1]
  operandBatchingDims := []
  startIndicesBatchingDims := []
  startIndexMap := [1]
  indexVectorDim := 1
  sliceSizes := ![524288, 1]
  wf := gather_S524288x8_S65x1_S524288x65_0_1_n_n_1_1_5242881_wf
def gather_S524288x2_S65x1_S524288x65_0_1_n_n_1_1_5242881 : GatherDims S524288x2 S65x1 S524288x65 where
  offsetDims := [0]
  collapsedSliceDims := [1]
  operandBatchingDims := []
  startIndicesBatchingDims := []
  startIndexMap := [1]
  indexVectorDim := 1
  sliceSizes := ![524288, 1]
  wf := gather_S524288x2_S65x1_S524288x65_0_1_n_n_1_1_5242881_wf

class Facts : Prop extends Facts₀ where

variable [Facts]
-- ==== Proof.Spec.lean ====
/-
  The hierarchical softmax of one row of 65 leaf logits, as functions of the row.

  The 65 leaves fall into eight sibling groups of 7, 23, 18, 5, 5, 1, 3 and 3 consecutive columns; groups 0 to 3
  (columns 0 to 52) hang under one top node and groups 4 to 7 (columns 53 to 64) under the other. Within a group the
  leaf probabilities are the softmax of the group's logits; a group's own logit is the mean of its leaves' logits, a top
  node's logit the mean of all the leaves beneath it; the groups' probabilities are the softmax of the group logits
  among the four siblings under one top node, and the two top probabilities the softmax of the two top logits. A row of
  the node table is the 65 leaf probabilities, the 8 group probabilities, the 2 top probabilities and the root's 1; a
  leaf's path probability is the product of its own, its group's and its top node's.

  Everything is over the extended reals, with the operations exactly as both programs spell them: a maximum taken from
  the word of minus infinity and met with that word once more, a sum of exponentials, a quotient; a mean as a sum
  divided by the count's word. Columns are laid end to end by `rcons`.
-/
import Idealize.ShloMosaic.PureOps.Ideal
import Idealize.ShloMosaic.Lib.ValueIdx
import Mathlib.Algebra.BigOperators.Group.Finset.Basic

noncomputable section

open scoped BigOperators

namespace Cert.Spec

open Idealize.ShloMosaic

/-- Columns laid end to end: the first `c` positions read `f`, the later ones `rest` shifted by `c`. -/
def rcons {α : Type} (c : Nat) (f : Fin c → α) (rest : Nat → α) : Nat → α :=
  fun k => if h : k < c then f ⟨k, h⟩ else rest (k - c)

/-- Past the last piece nothing is read; the value there is never used. -/
def rnil : Nat → EReal := fun _ => 0

theorem rcons_lt {α : Type} {c : Nat} (f : Fin c → α) (rest : Nat → α) {k : Nat} (h : k < c) :
    rcons c f rest k = f ⟨k, h⟩ := dif_pos h

theorem rcons_ge {α : Type} {c : Nat} (f : Fin c → α) (rest : Nat → α) {k : Nat} (h : c ≤ k) :
    rcons c f rest k = rest (k - c) := dif_neg (Nat.not_lt.2 h)

/-- The word of minus infinity, as both programs write it. -/
abbrev NEG : EReal := Ideal.ofBits .f32 0xFF800000#32

/-- The largest entry of a row, as a softmax takes it: folded from minus infinity, then met with minus infinity. -/
def rmax {c : Nat} (v : Fin c → EReal) : EReal := max NEG ((Finset.univ : Finset (Fin c)).fold max NEG v)

/-- The sum of a row. -/
def rsum {c : Nat} (v : Fin c → EReal) : EReal := ∑ q : Fin c, v q

/-- The softmax of a row: each entry's exponential, shifted by the row's maximum, over the sum of them all. -/
def soft {c : Nat} (v : Fin c → EReal) : Fin c → EReal :=
  fun k => Ideal.div (Ideal.exp (v k - rmax v)) (rsum fun q => Ideal.exp (v q - rmax v))

/-- The mean of a row: its sum over the word `w` of the number of its entries. -/
def mean {c : Nat} (w : BitVec 32) (v : Fin c → EReal) : EReal := Ideal.div (rsum v) (Ideal.ofBits .f32 w)

/-- The `c` columns of a row of 65 from column `o` on. -/
def seg (o c : Nat) (h : o + c ≤ 65) (x : Fin 65 → EReal) : Fin c → EReal := fun j => x ⟨o + j.val, by omega⟩

variable (x : Fin 65 → EReal)

/-- The 65 leaf probabilities: each group's softmax, the groups end to end. -/
def leafProbs : Nat → EReal :=
  rcons 7 (soft (seg 0 7 (by omega) x)) (rcons 23 (soft (seg 7 23 (by omega) x)) (rcons 18 (soft (seg 30 18 (by omega) x))
    (rcons 5 (soft (seg 48 5 (by omega) x)) (rcons 5 (soft (seg 53 5 (by omega) x)) (rcons 1 (soft (seg 58 1 (by omega) x))
      (rcons 3 (soft (seg 59 3 (by omega) x)) (rcons 3 (soft (seg 62 3 (by omega) x)) rnil)))))))

/-- The eight group logits: each group's mean. -/
def means : Nat → EReal :=
  rcons 1 (fun _ => mean 0x40E00000#32 (seg 0 7 (by omega) x)) (rcons 1 (fun _ => mean 0x41B80000#32 (seg 7 23 (by omega) x))
    (rcons 1 (fun _ => mean 0x41900000#32 (seg 30 18 (by omega) x)) (rcons 1 (fun _ => mean 0x40A00000#32 (seg 48 5 (by omega) x))
      (rcons 1 (fun _ => mean 0x40A00000#32 (seg 53 5 (by omega) x)) (rcons 1 (fun _ => mean 0x3F800000#32 (seg 58 1 (by omega) x))
        (rcons 1 (fun _ => mean 0x40400000#32 (seg 59 3 (by omega) x)) (rcons 1 (fun _ => mean 0x40400000#32 (seg 62 3 (by omega) x)) rnil)))))))

/-- The two top logits: the mean of the first 53 leaves and of the last 12. -/
def tops : Nat → EReal :=
  rcons 1 (fun _ => mean 0x42540000#32 (seg 0 53 (by omega) x)) (rcons 1 (fun _ => mean 0x41400000#32 (seg 53 12 (by omega) x)) rnil)

/-- The two top probabilities. -/
def ptop : Fin 2 → EReal := soft fun j : Fin 2 => tops x j.val

/-- The eight group probabilities: the softmax among the first four groups, then among the last four. -/
def lvl2 : Nat → EReal :=
  rcons 4 (soft fun j : Fin 4 => means x j.val) (rcons 4 (soft fun j : Fin 4 => means x (4 + j.val)) rnil)

/-- A row of the node table: leaves, groups, tops, root. -/
def node : Nat → EReal :=
  rcons 65 (fun j => leafProbs x j.val) (rcons 8 (fun j => lvl2 x j.val) (rcons 2 (ptop x) (rcons 1 (fun _ => Ideal.ofBits .f32 0x3F800000#32) rnil)))

/-- Each leaf's group probability: group `g`'s, repeated over the group's columns. -/
def lvl2Leaf : Nat → EReal :=
  rcons 7 (fun _ => lvl2 x 0) (rcons 23 (fun _ => lvl2 x 1) (rcons 18 (fun _ => lvl2 x 2) (rcons 5 (fun _ => lvl2 x 3)
    (rcons 5 (fun _ => lvl2 x 4) (rcons 1 (fun _ => lvl2 x 5) (rcons 3 (fun _ => lvl2 x 6) (rcons 3 (fun _ => lvl2 x 7) rnil)))))))

/-- Each leaf's top probability: the first over columns 0 to 52, the second over columns 53 to 64. -/
def topLeaf : Nat → EReal :=
  rcons 53 (fun _ => ptop x 0) (rcons 12 (fun _ => ptop x 1) rnil)

/-- A leaf's path probability: its own, times its group's, times its top node's. -/
def leaf (k : Nat) : EReal := leafProbs x k * lvl2Leaf x k * topLeaf x k

/-! ## Whole arrays: every row on its own -/

open Idealize.ShloMosaic.ValueIdx

/-- Row `p` of a matrix, as a function of the column. -/
def rowOf {N c : Nat} (X : (⟨2, ![N, c]⟩ : Shape).Idx → EReal) (p : Fin N) : Fin c → EReal := fun j => X (ix2 p j)

/-- The table of path probabilities of an [N, 65] array of logits: entry (p, k) is leaf k's path probability in row p. -/
def leafArr {N : Nat} (X : (⟨2, ![N, 65]⟩ : Shape).Idx → EReal) : (⟨2, ![N, 65]⟩ : Shape).Idx → EReal :=
  fun i => leaf (rowOf X (i 0)) (i 1).val

/-- The node table of an [N, 65] array of logits: entry (p, k) is node k's probability in row p. -/
def nodeArr {N : Nat} (X : (⟨2, ![N, 65]⟩ : Shape).Idx → EReal) : (⟨2, ![N, 76]⟩ : Shape).Idx → EReal :=
  fun i => node (rowOf X (i 0)) (i 1).val

theorem leafArr_apply {N : Nat} (X : (⟨2, ![N, 65]⟩ : Shape).Idx → EReal) (p : Fin N) (k : Fin 65) :
    leafArr X (ix2 p k) = leaf (rowOf X p) k.val := rfl

theorem nodeArr_apply {N : Nat} (X : (⟨2, ![N, 65]⟩ : Shape).Idx → EReal) (p : Fin N) (k : Fin 76) :
    nodeArr X (ix2 p k) = node (rowOf X p) k.val := rfl

end Cert.Spec

end
-- ==== Proof.LibRowMax.lean ====
/-
  The largest entry of each row of a matrix, read at a row.

  A kernel takes the maximum over the last axis of an [a, c] matrix by a lane reduction from an accumulator word; the
  host takes it by a reduce whose body is the maximum, from an initial value held in a rank-0 array. Over the extended
  reals both are, at row p, the fold of `max` from the starting value over the c entries (p, q) of that row, in any
  order. Generic in a and c; the host form takes the witness that names the inserted coordinate as an argument.
-/
import Idealize.ShloMosaic.PureOps.Ideal.Laws
import Idealize.ShloMosaic.Lib.ValueIdx

noncomputable section

namespace Cert.LibRowMax

open Idealize.ShloMosaic Idealize.ShloMosaic.ValueIdx

/-- The index of row `p` with the column `q` put back is `(p, q)`. -/
theorem lift_last {a c : Nat} (h : (⟨2, ![a, c]⟩ : Shape).Reduces [1] ⟨1, ![a]⟩) (p : Fin a) (q : Fin c) :
    h.lift (ix1 p) q = ix2 p q :=
  funext fun ax => Fin.ext (by
    match ax with
    | ⟨0, _⟩ => rfl
    | ⟨1, _⟩ => rfl)

/-- A lane maximum over the last axis of [a, c], from the accumulator word `acc`, at row `p`. -/
theorem lane_max_last_apply {a c : Nat} (src : FVec Ideal ⟨2, ![a, c]⟩ .f32) (acc : BitVec 32)
    (h : (⟨2, ![a, c]⟩ : Shape).Reduces [1] ⟨1, ![a]⟩) (hφ : FKind.Formats .f32)
    (hacc : acc = FKind.maximumf.neutral .f32 hφ) (p : Fin a) :
    multiReduction .maximumf [1] ⟨1, ![a]⟩ src acc h hφ hacc (ix1 p)
      = (Finset.univ : Finset (Fin c)).fold max (Ideal.ofBits .f32 acc) (fun q => src (ix2 p q)) := by
  refine (Ideal.multiReduction_maximumf_single src acc h hφ hacc (ix1 p)).trans ?_
  exact Finset.fold_congr fun q _ => congrArg src (lift_last h p q)

/-- The host's reduce with the maximum as its body over the last axis of [a, c], from the initial value `init`, at
    row `p`. -/
theorem host_max_last_apply {a c : Nat} {u : Shape} (x : FVec Ideal ⟨2, ![a, c]⟩ .f32) (init : FVec Ideal u .f32)
    (h' : (⟨2, ![a, c]⟩ : Shape).ReducesTo [1] ⟨1, ![a]⟩) (h : (⟨2, ![a, c]⟩ : Shape).Reduces [1] ⟨1, ![a]⟩)
    (hu : 0 < u.numel) (p : Fin a) :
    Host.reduce (FloatOps.maximumf (F := Ideal) (φ := .f32)) x init h' hu (ix1 p)
      = (Finset.univ : Finset (Fin c)).fold max (init (Shape.Idx.first hu)) (fun q => x (ix2 p q)) := by
  refine (Host.reduce_eq_fold_single (FloatOps.maximumf (F := Ideal) (φ := .f32)) x init h' h hu (ix1 p)).trans ?_
  exact Finset.fold_congr fun q _ => congrArg x (lift_last h p q)

end Cert.LibRowMax

end
-- ==== Proof.LibRows.lean ====
/-
  Layout operations and lane sums read at an index written by coordinates.

  * A three-axis array [a, b, c] taken as the matrix [a·b, c] whose row p·b + k is the array's row (p, k), and back.
  * A matrix [a, c] given a middle unit axis and repeated b times along it: entry (p, k, q) is the matrix's (p, q).
  * A matrix [a, b] given a trailing unit axis and repeated c times along it: entry (p, k, q) is the matrix's (p, k).
  * A vector [a] given a trailing unit axis, and a column [a, 1] repeated c times along it: entry (p, q) is the vector's p.
  * Over the extended reals, a sum over the middle axis of [a, b, c] at (p, q) is Σ_k of the array at (p, k, q), and a sum
    over the last axis of [a, c] at p is Σ_q of the matrix at (p, q); both from the zero accumulator.
  Every statement is generic in the extents; the row number of the flattened matrix is passed with its equation.
-/
import Idealize.ShloMosaic.Lib.Pipeline.Value
import Idealize.ShloMosaic.Lib.ValueIdx
import Idealize.ShloMosaic.PureOps.Ideal.Laws

noncomputable section

open scoped BigOperators

namespace Cert.LibRows

open Idealize.ShloMosaic Idealize.ShloMosaic.ValueIdx

variable {α : Type}

/-- [a, b, c] as the matrix [n, c], n = a·b: the matrix's row r = p·b + k is the array's row (p, k). -/
theorem flatten_rows_apply {a b c n : Nat} (x : (⟨3, ![a, b, c]⟩ : Shape).Idx → α)
    (h : (⟨3, ![a, b, c]⟩ : Shape).ShapeCasts ⟨2, ![n, c]⟩) (p : Fin a) (k : Fin b) (q : Fin c) (r : Fin n)
    (hr : r.val = p.val * b + k.val) :
    shapeCast ⟨2, ![n, c]⟩ x h (ix2 r q) = x (ix3 p k q) :=
  shapeCast_apply x h _ _ (by
    rw [Shape.rowMajor_val_three, Shape.rowMajor_val_two]
    show (p.val * b + k.val) * c + q.val = r.val * c + q.val
    rw [hr])

/-- The matrix [n, c], n = a·b, as [a, b, c]: entry (p, k, q) is the matrix's row r = p·b + k at column q. -/
theorem unflatten_rows_apply {a b c n : Nat} (x : (⟨2, ![n, c]⟩ : Shape).Idx → α)
    (h : (⟨2, ![n, c]⟩ : Shape).ShapeCasts ⟨3, ![a, b, c]⟩) (p : Fin a) (k : Fin b) (q : Fin c) (r : Fin n)
    (hr : r.val = p.val * b + k.val) :
    shapeCast ⟨3, ![a, b, c]⟩ x h (ix3 p k q) = x (ix2 r q) :=
  shapeCast_apply x h _ _ (by
    rw [Shape.rowMajor_val_two, Shape.rowMajor_val_three]
    show r.val * c + q.val = (p.val * b + k.val) * c + q.val
    rw [hr])

/-- [a, c] given a middle unit axis. -/
theorem insert_mid_apply {a c : Nat} (x : (⟨2, ![a, c]⟩ : Shape).Idx → α)
    (h : (⟨2, ![a, c]⟩ : Shape).ShapeCasts ⟨3, ![a, 1, c]⟩) (p : Fin a) (u : Fin 1) (q : Fin c) :
    shapeCast ⟨3, ![a, 1, c]⟩ x h (ix3 p u q) = x (ix2 p q) :=
  shapeCast_apply x h _ _ (by
    have hu : u.val = 0 := by omega
    rw [Shape.rowMajor_val_two, Shape.rowMajor_val_three]
    show p.val * c + q.val = (p.val * 1 + u.val) * c + q.val
    rw [hu, Nat.mul_one, Nat.add_zero])

/-- [a, 1, c] repeated along its middle axis. -/
theorem bcast_mid_apply {a b c : Nat} (x : (⟨3, ![a, 1, c]⟩ : Shape).Idx → α)
    (h : (⟨3, ![a, 1, c]⟩ : Shape).Broadcasts ⟨3, ![a, b, c]⟩) (p : Fin a) (k : Fin b) (q : Fin c) :
    broadcastTo ⟨3, ![a, b, c]⟩ x h (ix3 p k q) = x (ix3 p (0 : Fin 1) q) :=
  broadcastTo_apply x h _ _ (fun ax => match ax with
    | ⟨0, _⟩ => by
        show p.val = if a = 1 then 0 else p.val
        have := p.isLt
        split_ifs <;> omega
    | ⟨1, _⟩ => by show 0 = if (1 : Nat) = 1 then 0 else k.val; rw [if_pos rfl]
    | ⟨2, _⟩ => by
        show q.val = if c = 1 then 0 else q.val
        have := q.isLt
        split_ifs <;> omega)

/-- [a, b] given a trailing unit axis. -/
theorem append_unit_apply {a b : Nat} (x : (⟨2, ![a, b]⟩ : Shape).Idx → α)
    (h : (⟨2, ![a, b]⟩ : Shape).ShapeCasts ⟨3, ![a, b, 1]⟩) (p : Fin a) (k : Fin b) (u : Fin 1) :
    shapeCast ⟨3, ![a, b, 1]⟩ x h (ix3 p k u) = x (ix2 p k) :=
  shapeCast_apply x h _ _ (by
    have hu : u.val = 0 := by omega
    rw [Shape.rowMajor_val_two, Shape.rowMajor_val_three]
    show p.val * b + k.val = (p.val * b + k.val) * 1 + u.val
    rw [hu, Nat.mul_one, Nat.add_zero])

/-- [a, b, 1] repeated along its last axis. -/
theorem bcast_last_apply {a b c : Nat} (x : (⟨3, ![a, b, 1]⟩ : Shape).Idx → α)
    (h : (⟨3, ![a, b, 1]⟩ : Shape).Broadcasts ⟨3, ![a, b, c]⟩) (p : Fin a) (k : Fin b) (q : Fin c) :
    broadcastTo ⟨3, ![a, b, c]⟩ x h (ix3 p k q) = x (ix3 p k (0 : Fin 1)) :=
  broadcastTo_apply x h _ _ (fun ax => match ax with
    | ⟨0, _⟩ => by
        show p.val = if a = 1 then 0 else p.val
        have := p.isLt
        split_ifs <;> omega
    | ⟨1, _⟩ => by
        show k.val = if b = 1 then 0 else k.val
        have := k.isLt
        split_ifs <;> omega
    | ⟨2, _⟩ => by show 0 = if (1 : Nat) = 1 then 0 else q.val; rw [if_pos rfl])

/-- A vector [a] as the column [a, 1]. -/
theorem col_cast_apply {a : Nat} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_one, Shape.rowMajor_val_two]
    show p.val = p.val * 1 + u.val
    rw [hu, Nat.mul_one, Nat.add_zero])

/-- A column [a, 1] repeated along its unit axis. -/
theorem bcast_col_apply {a c : Nat} (x : (⟨2, ![a, 1]⟩ : Shape).Idx → α)
    (h : (⟨2, ![a, 1]⟩ : Shape).Broadcasts ⟨2, ![a, c]⟩) (p : Fin a) (q : Fin c) :
    broadcastTo ⟨2, ![a, c]⟩ x h (ix2 p q) = x (ix2 p (0 : Fin 1)) :=
  broadcastTo_apply x h _ _ (fun ax => match ax with
    | ⟨0, _⟩ => by
        show p.val = if a = 1 then 0 else p.val
        have := p.isLt
        split_ifs <;> omega
    | ⟨1, _⟩ => by show 0 = if (1 : Nat) = 1 then 0 else q.val; rw [if_pos rfl])

/-- The sum over the middle axis of [a, b, c], from the zero accumulator, at (p, q). -/
theorem lane_sum_mid_apply {a b c : Nat} (src : FVec Ideal ⟨3, ![a, b, c]⟩ .f32)
    (h : (⟨3, ![a, b, c]⟩ : Shape).Reduces [1] ⟨2, ![a, c]⟩) (hφ : FKind.Formats .f32)
    (hacc : (0x00000000#32 : BitVec 32) = FKind.add.neutral .f32 hφ) (p : Fin a) (q : Fin c) :
    multiReduction .add [1] ⟨2, ![a, c]⟩ src 0x00000000#32 h hφ hacc (ix2 p q) = ∑ k : Fin b, src (ix3 p k q) := by
  refine (Ideal.multiReduction_add_single src 0x00000000#32 h hφ hacc (ix2 p q)).trans ?_
  exact Finset.sum_congr rfl fun k _ => congrArg src (funext fun ax => Fin.ext (by
    match ax with
    | ⟨0, _⟩ => rfl
    | ⟨1, _⟩ => rfl
    | ⟨2, _⟩ => rfl))

/-- The sum over the last axis of [a, c], from the zero accumulator, at p. -/
theorem lane_sum_last_apply {a c : Nat} (src : FVec Ideal ⟨2, ![a, c]⟩ .f32)
    (h : (⟨2, ![a, c]⟩ : Shape).Reduces [1] ⟨1, ![a]⟩) (hφ : FKind.Formats .f32)
    (hacc : (0x00000000#32 : BitVec 32) = FKind.add.neutral .f32 hφ) (p : Fin a) :
    multiReduction .add [1] ⟨1, ![a]⟩ src 0x00000000#32 h hφ hacc (ix1 p) = ∑ q : Fin c, src (ix2 p q) := by
  refine (Ideal.multiReduction_add_single src 0x00000000#32 h hφ hacc (ix1 p)).trans ?_
  exact Finset.sum_congr rfl fun q _ => congrArg src (funext fun ax => Fin.ext (by
    match ax with
    | ⟨0, _⟩ => rfl
    | ⟨1, _⟩ => rfl))

end Cert.LibRows

end
-- ==== Proof.KernelSoft.lean ====
/-
  A softmax and a mean along the rows of a matrix, as a kernel spells them, read at an index.

  A kernel's softmax of the rows of an [N, c] matrix s takes each row's maximum by a lane reduction from the word of
  minus infinity, meets it with that word once more, lays it back over the row (a column [N, 1] repeated c times),
  subtracts, exponentiates, sums the exponentials along the row by a lane reduction from the zero word, lays the sum
  back over the row and divides. At (p, k) this is the softmax of row p at k: exp (s p k - m p) over Σ_q exp (s p q - m p)
  with m p the row's maximum so taken. When c = 1 the column is not repeated. A kernel's mean of the rows is the lane
  sum, as a column, divided by the column of the count's word. Generic in N and c.
-/
import proofs.«152243_j47253230191392_2_alg».proof.Proof.Spec
import proofs.«152243_j47253230191392_2_alg».proof.Proof.LibRowMax
import proofs.«152243_j47253230191392_2_alg».proof.Proof.LibRows

noncomputable section

open scoped BigOperators

namespace Cert.KernelRow

open Idealize.ShloMosaic Idealize.ShloMosaic.ValueIdx

/-- The row maximum as a softmax takes it, as a vector [N], at row p. -/
theorem kern_rmax_apply {N c : Nat} (s : FVec Ideal ⟨2, ![N, c]⟩ .f32)
    (hred : (⟨2, ![N, c]⟩ : Shape).Reduces [1] ⟨1, ![N]⟩) (hφ : FKind.Formats .f32)
    (hmax : (0xFF800000#32 : BitVec 32) = FKind.maximumf.neutral .f32 hφ) (p : Fin N) :
    maximumf (broadcast ⟨1, ![N]⟩ (Scalar.ofBits (F := Ideal) .f32 0xFF800000#32))
        (multiReduction .maximumf [1] ⟨1, ![N]⟩ s 0xFF800000#32 hred hφ hmax) (ix1 p)
      = Spec.rmax (fun j => s (ix2 p j)) :=
  congrArg (max (Ideal.ofBits .f32 0xFF800000#32)) (Cert.LibRowMax.lane_max_last_apply s 0xFF800000#32 hred hφ hmax p)

/-- The row maximum laid back over a row of any width c'. -/
theorem kern_rmax_bcast_apply {N c c' : Nat} (s : FVec Ideal ⟨2, ![N, c]⟩ .f32)
    (hred : (⟨2, ![N, c]⟩ : Shape).Reduces [1] ⟨1, ![N]⟩) (hφ : FKind.Formats .f32)
    (hmax : (0xFF800000#32 : BitVec 32) = FKind.maximumf.neutral .f32 hφ)
    (hcast : (⟨1, ![N]⟩ : Shape).ShapeCasts ⟨2, ![N, 1]⟩) (hb : (⟨2, ![N, 1]⟩ : Shape).Broadcasts ⟨2, ![N, c']⟩)
    (p : Fin N) (k : Fin c') :
    broadcastTo ⟨2, ![N, c']⟩ (shapeCast ⟨2, ![N, 1]⟩
        (maximumf (broadcast ⟨1, ![N]⟩ (Scalar.ofBits (F := Ideal) .f32 0xFF800000#32))
          (multiReduction .maximumf [1] ⟨1, ![N]⟩ s 0xFF800000#32 hred hφ hmax)) hcast) hb (ix2 p k)
      = Spec.rmax (fun j => s (ix2 p j)) :=
  (Cert.LibRows.bcast_col_apply _ hb p k).trans
    ((Cert.LibRows.col_cast_apply _ hcast p 0).trans (kern_rmax_apply s hred hφ hmax p))

/-- A kernel's softmax of the rows of an [N, c] matrix, at (p, k). -/
theorem kern_soft {N c : Nat} (s : FVec Ideal ⟨2, ![N, c]⟩ .f32)
    (hred : (⟨2, ![N, c]⟩ : Shape).Reduces [1] ⟨1, ![N]⟩) (hφ : FKind.Formats .f32)
    (hmax : (0xFF800000#32 : BitVec 32) = FKind.maximumf.neutral .f32 hφ)
    (hadd : (0x00000000#32 : BitVec 32) = FKind.add.neutral .f32 hφ)
    (hcast : (⟨1, ![N]⟩ : Shape).ShapeCasts ⟨2, ![N, 1]⟩) (hb : (⟨2, ![N, 1]⟩ : Shape).Broadcasts ⟨2, ![N, c]⟩)
    (p : Fin N) (k : Fin c) :
    divf
        (exp (subf s (broadcastTo ⟨2, ![N, c]⟩ (shapeCast ⟨2, ![N, 1]⟩
          (maximumf (broadcast ⟨1, ![N]⟩ (Scalar.ofBits (F := Ideal) .f32 0xFF800000#32))
            (multiReduction .maximumf [1] ⟨1, ![N]⟩ s 0xFF800000#32 hred hφ hmax)) hcast) hb)))
        (broadcastTo ⟨2, ![N, c]⟩ (shapeCast ⟨2, ![N, 1]⟩
          (multiReduction .add [1] ⟨1, ![N]⟩
            (exp (subf s (broadcastTo ⟨2, ![N, c]⟩ (shapeCast ⟨2, ![N, 1]⟩
              (maximumf (broadcast ⟨1, ![N]⟩ (Scalar.ofBits (F := Ideal) .f32 0xFF800000#32))
                (multiReduction .maximumf [1] ⟨1, ![N]⟩ s 0xFF800000#32 hred hφ hmax)) hcast) hb)))
            0x00000000#32 hred hφ hadd) hcast) hb)
        (ix2 p k)
      = Spec.soft (fun j => s (ix2 p j)) k := by
  have hm : ∀ q : Fin c, broadcastTo ⟨2, ![N, c]⟩ (shapeCast ⟨2, ![N, 1]⟩
        (maximumf (broadcast ⟨1, ![N]⟩ (Scalar.ofBits (F := Ideal) .f32 0xFF800000#32))
          (multiReduction .maximumf [1] ⟨1, ![N]⟩ s 0xFF800000#32 hred hφ hmax)) hcast) hb (ix2 p q)
      = Spec.rmax (fun j => s (ix2 p j)) := fun q => kern_rmax_bcast_apply s hred hφ hmax hcast hb p q
  generalize broadcastTo ⟨2, ![N, c]⟩ (shapeCast ⟨2, ![N, 1]⟩
        (maximumf (broadcast ⟨1, ![N]⟩ (Scalar.ofBits (F := Ideal) .f32 0xFF800000#32))
          (multiReduction .maximumf [1] ⟨1, ![N]⟩ s 0xFF800000#32 hred hφ hmax)) hcast) hb = M at hm ⊢
  show Ideal.div (Ideal.exp (s (ix2 p k) - M (ix2 p k))) _ = _
  unfold Spec.soft Spec.rsum
  rw [hm k]
  refine congrArg (Ideal.div _) ?_
  refine (Cert.LibRows.bcast_col_apply _ hb p k).trans ((Cert.LibRows.col_cast_apply _ hcast p 0).trans ?_)
  refine (Cert.LibRows.lane_sum_last_apply _ hred hφ hadd p).trans ?_
  exact Finset.sum_congr rfl fun q _ => congrArg (fun m => Ideal.exp (s (ix2 p q) - m)) (hm q)

/-- A kernel's softmax of the rows of a one-column matrix: the column of maxima and of sums are not repeated. -/
theorem kern_soft1 {N : Nat} (s : FVec Ideal ⟨2, ![N, 1]⟩ .f32)
    (hred : (⟨2, ![N, 1]⟩ : Shape).Reduces [1] ⟨1, ![N]⟩) (hφ : FKind.Formats .f32)
    (hmax : (0xFF800000#32 : BitVec 32) = FKind.maximumf.neutral .f32 hφ)
    (hadd : (0x00000000#32 : BitVec 32) = FKind.add.neutral .f32 hφ)
    (hcast : (⟨1, ![N]⟩ : Shape).ShapeCasts ⟨2, ![N, 1]⟩)
    (p : Fin N) (k : Fin 1) :
    divf
        (exp (subf s (shapeCast ⟨2, ![N, 1]⟩
          (maximumf (broadcast ⟨1, ![N]⟩ (Scalar.ofBits (F := Ideal) .f32 0xFF800000#32))
            (multiReduction .maximumf [1] ⟨1, ![N]⟩ s 0xFF800000#32 hred hφ hmax)) hcast)))
        (shapeCast ⟨2, ![N, 1]⟩
          (multiReduction .add [1] ⟨1, ![N]⟩
            (exp (subf s (shapeCast ⟨2, ![N, 1]⟩
              (maximumf (broadcast ⟨1, ![N]⟩ (Scalar.ofBits (F := Ideal) .f32 0xFF800000#32))
                (multiReduction .maximumf [1] ⟨1, ![N]⟩ s 0xFF800000#32 hred hφ hmax)) hcast)))
            0x00000000#32 hred hφ hadd) hcast)
        (ix2 p k)
      = Spec.soft (fun j => s (ix2 p j)) k := by
  have hm : ∀ q : Fin 1, shapeCast ⟨2, ![N, 1]⟩
        (maximumf (broadcast ⟨1, ![N]⟩ (Scalar.ofBits (F := Ideal) .f32 0xFF800000#32))
          (multiReduction .maximumf [1] ⟨1, ![N]⟩ s 0xFF800000#32 hred hφ hmax)) hcast (ix2 p q)
      = Spec.rmax (fun j => s (ix2 p j)) :=
    fun q => (Cert.LibRows.col_cast_apply _ hcast p q).trans (kern_rmax_apply s hred hφ hmax p)
  generalize shapeCast ⟨2, ![N, 1]⟩
        (maximumf (broadcast ⟨1, ![N]⟩ (Scalar.ofBits (F := Ideal) .f32 0xFF800000#32))
          (multiReduction .maximumf [1] ⟨1, ![N]⟩ s 0xFF800000#32 hred hφ hmax)) hcast = M at hm ⊢
  show Ideal.div (Ideal.exp (s (ix2 p k) - M (ix2 p k))) _ = _
  unfold Spec.soft Spec.rsum
  rw [hm k]
  refine congrArg (Ideal.div _) ?_
  refine (Cert.LibRows.col_cast_apply _ hcast p k).trans ?_
  refine (Cert.LibRows.lane_sum_last_apply _ hred hφ hadd p).trans ?_
  exact Finset.sum_congr rfl fun q _ => congrArg (fun m => Ideal.exp (s (ix2 p q) - m)) (hm q)

/-- A kernel's mean of the rows of an [N, c] matrix over the count's word w, at (p, u). -/
theorem kern_mean {N c : Nat} (w : BitVec 32) (s : FVec Ideal ⟨2, ![N, c]⟩ .f32)
    (hred : (⟨2, ![N, c]⟩ : Shape).Reduces [1] ⟨1, ![N]⟩) (hφ : FKind.Formats .f32)
    (hadd : (0x00000000#32 : BitVec 32) = FKind.add.neutral .f32 hφ)
    (hcast : (⟨1, ![N]⟩ : Shape).ShapeCasts ⟨2, ![N, 1]⟩) (p : Fin N) (u : Fin 1) :
    divf (shapeCast ⟨2, ![N, 1]⟩ (multiReduction .add [1] ⟨1, ![N]⟩ s 0x00000000#32 hred hφ hadd) hcast)
        (broadcast ⟨2, ![N, 1]⟩ (Scalar.ofBits (F := Ideal) .f32 w)) (ix2 p u)
      = Spec.mean w (fun j => s (ix2 p j)) := by
  show Ideal.div _ (Ideal.ofBits .f32 w) = _
  unfold Spec.mean Spec.rsum
  refine congrArg (fun a => Ideal.div a (Ideal.ofBits .f32 w)) ?_
  exact (Cert.LibRows.col_cast_apply _ hcast p u).trans (Cert.LibRows.lane_sum_last_apply _ hred hφ hadd p)

end Cert.KernelRow

end
-- ==== Proof.LibCatCols.lean ====
/-
  Matrices with the same rows laid side by side, and a band of a matrix's columns, read at an entry.

  A concatenation along the columns of matrices [N, c₀], [N, c₁], … is the matrix [N, c₀ + c₁ + …] whose row p is the
  pieces' rows p laid end to end: entry (p, k) is piece i's entry (p, k less the widths before it), for the piece whose
  span holds k. The columns o, o + 1, … of a matrix, taken as a matrix of their own, have at (p, j) the entry (p, o + j).
  Generic in the number of rows, the widths and the element type; stated for two, four and eight pieces, with the row of
  the result written by `Spec.rcons`.
-/
import Idealize.ShloMosaic.Lib.Pipeline.Value
import Idealize.ShloMosaic.Lib.ValueIdx
import proofs.«152243_j47253230191392_2_alg».proof.Proof.Spec

namespace Cert.LibCatCols

open Idealize.ShloMosaic Idealize.ShloMosaic.ValueIdx Cert.Spec

variable {α : Type}

/-- The band of `c'` columns from column `o` on, at (p, j): the matrix at (p, o + j). -/
theorem slice_cols_apply {N c c' : Nat} (o : Nat) (x : (⟨2, ![N, c]⟩ : Shape).Idx → α)
    (h : (⟨2, ![N, c]⟩ : Shape).Slices ![0, o] ⟨2, ![N, c']⟩) (p : Fin N) (j : Fin c') (hj : o + j.val < c) :
    extractStridedSlice ⟨2, ![N, c']⟩ ![0, o] x h (ix2 p j) = x (ix2 p ⟨o + j.val, hj⟩) :=
  extractStridedSlice_apply _ x h (ix2 p j) (ix2 p ⟨o + j.val, hj⟩) (fun a => by
    match a with
    | ⟨0, _⟩ => exact (Nat.zero_add _).symm
    | ⟨1, _⟩ => rfl)

/-- Piece `n` of a concatenation along the columns, an [N, cn] matrix that starts at column `pre` (the widths of the
    pieces before it), read at a column `k = pre + j` of its span: the piece at (p, j). -/
theorem cat_cols_piece {N c : Nat} (xs : List ((s : Shape) × (s.Idx → α)))
    (h : Shape.Concatenates (xs.map (·.1)) ⟨2, ![N, c]⟩ (1 : Fin 2)) (p : Fin N) (k : Fin c)
    (n : Nat) (hn : n < xs.length) (cn : Nat) (xn : (⟨2, ![N, cn]⟩ : Shape).Idx → α) (hx : xs[n] = ⟨⟨2, ![N, cn]⟩, xn⟩)
    (pre : Nat)
    (hpre : (((xs.take n).map (·.1)).map fun s =>
      if h : s.rank = (⟨2, ![N, c]⟩ : Shape).rank then s.size ((1 : Fin 2).cast h.symm) else 0).sum = pre)
    (j : Fin cn) (hj : pre + j.val = k.val) :
    concatenate ⟨2, ![N, c]⟩ (1 : Fin 2) xs h (ix2 p k) = xn (ix2 p j) :=
  concatenate_apply_piece (t := ⟨2, ![N, c]⟩) (1 : Fin 2) xs h (ix2 p k) n hn ⟨2, ![N, cn]⟩ xn hx rfl pre hpre (ix2 p j)
    (by
      intro b hb
      match b with
      | ⟨0, _⟩ => rfl
      | ⟨1, _⟩ => exact absurd rfl hb)
    (by exact hj)

/-- Two matrices with the same rows laid side by side, read at (p, k): the pieces' rows laid end to end, at k. What follows the
    last piece is never read. -/
theorem cat2_row {N c0 c1 c : Nat} (x0 : (⟨2, ![N, c0]⟩ : Shape).Idx → α) (x1 : (⟨2, ![N, c1]⟩ : Shape).Idx → α)
    (h : Shape.Concatenates [⟨2, ![N, c0]⟩, ⟨2, ![N, c1]⟩] ⟨2, ![N, c]⟩ (1 : Fin 2)) (rest : Nat → α) (p : Fin N) (k : Fin c) :
    concatenate ⟨2, ![N, c]⟩ (1 : Fin 2) [⟨⟨2, ![N, c0]⟩, x0⟩, ⟨⟨2, ![N, c1]⟩, x1⟩] h (ix2 p k)
      = rcons c0 (fun j => x0 (ix2 p j)) (rcons c1 (fun j => x1 (ix2 p j)) rest) k.val := by
  have hc : c0 + (c1 + 0) = c := h.2.2
  have hk := k.isLt
  by_cases h0 : k.val < c0
  · rw [rcons_lt _ _ h0]
    exact cat_cols_piece [⟨⟨2, ![N, c0]⟩, x0⟩, ⟨⟨2, ![N, c1]⟩, x1⟩] h p k 0 (by show 0 < 2; omega) c0 x0 rfl (0) rfl ⟨k.val, h0⟩ (by show 0 + (k.val) = k.val; omega)
  rw [rcons_ge _ _ (Nat.le_of_not_lt h0)]
  by_cases h1 : k.val - c0 < c1
  · rw [rcons_lt _ _ h1]
    exact cat_cols_piece [⟨⟨2, ![N, c0]⟩, x0⟩, ⟨⟨2, ![N, c1]⟩, x1⟩] h p k 1 (by show 1 < 2; omega) c1 x1 rfl (c0 + 0) rfl ⟨k.val - c0, h1⟩ (by show c0 + 0 + (k.val - c0) = k.val; omega)
  rw [rcons_ge _ _ (Nat.le_of_not_lt h1)]
  exfalso; omega

/-- Four matrices with the same rows laid side by side, read at (p, k): the pieces' rows laid end to end, at k. What follows the
    last piece is never read. -/
theorem cat4_row {N c0 c1 c2 c3 c : Nat} (x0 : (⟨2, ![N, c0]⟩ : Shape).Idx → α) (x1 : (⟨2, ![N, c1]⟩ : Shape).Idx → α) (x2 : (⟨2, ![N, c2]⟩ : Shape).Idx → α) (x3 : (⟨2, ![N, c3]⟩ : Shape).Idx → α)
    (h : Shape.Concatenates [⟨2, ![N, c0]⟩, ⟨2, ![N, c1]⟩, ⟨2, ![N, c2]⟩, ⟨2, ![N, c3]⟩] ⟨2, ![N, c]⟩ (1 : Fin 2)) (rest : Nat → α) (p : Fin N) (k : Fin c) :
    concatenate ⟨2, ![N, c]⟩ (1 : Fin 2) [⟨⟨2, ![N, c0]⟩, x0⟩, ⟨⟨2, ![N, c1]⟩, x1⟩, ⟨⟨2, ![N, c2]⟩, x2⟩, ⟨⟨2, ![N, c3]⟩, x3⟩] h (ix2 p k)
      = rcons c0 (fun j => x0 (ix2 p j)) (rcons c1 (fun j => x1 (ix2 p j)) (rcons c2 (fun j => x2 (ix2 p j)) (rcons c3 (fun j => x3 (ix2 p j)) rest))) k.val := by
  have hc : c0 + (c1 + (c2 + (c3 + 0))) = c := h.2.2
  have hk := k.isLt
  by_cases h0 : k.val < c0
  · rw [rcons_lt _ _ h0]
    exact cat_cols_piece [⟨⟨2, ![N, c0]⟩, x0⟩, ⟨⟨2, ![N, c1]⟩, x1⟩, ⟨⟨2, ![N, c2]⟩, x2⟩, ⟨⟨2, ![N, c3]⟩, x3⟩] h p k 0 (by show 0 < 4; omega) c0 x0 rfl (0) rfl ⟨k.val, h0⟩ (by show 0 + (k.val) = k.val; omega)
  rw [rcons_ge _ _ (Nat.le_of_not_lt h0)]
  by_cases h1 : k.val - c0 < c1
  · rw [rcons_lt _ _ h1]
    exact cat_cols_piece [⟨⟨2, ![N, c0]⟩, x0⟩, ⟨⟨2, ![N, c1]⟩, x1⟩, ⟨⟨2, ![N, c2]⟩, x2⟩, ⟨⟨2, ![N, c3]⟩, x3⟩] h p k 1 (by show 1 < 4; omega) c1 x1 rfl (c0 + 0) rfl ⟨k.val - c0, h1⟩ (by show c0 + 0 + (k.val - c0) = k.val; omega)
  rw [rcons_ge _ _ (Nat.le_of_not_lt h1)]
  by_cases h2 : k.val - c0 - c1 < c2
  · rw [rcons_lt _ _ h2]
    exact cat_cols_piece [⟨⟨2, ![N, c0]⟩, x0⟩, ⟨⟨2, ![N, c1]⟩, x1⟩, ⟨⟨2, ![N, c2]⟩, x2⟩, ⟨⟨2, ![N, c3]⟩, x3⟩] h p k 2 (by show 2 < 4; omega) c2 x2 rfl (c0 + (c1 + 0)) rfl ⟨k.val - c0 - c1, h2⟩ (by show c0 + (c1 + 0) + (k.val - c0 - c1) = k.val; omega)
  rw [rcons_ge _ _ (Nat.le_of_not_lt h2)]
  by_cases h3 : k.val - c0 - c1 - c2 < c3
  · rw [rcons_lt _ _ h3]
    exact cat_cols_piece [⟨⟨2, ![N, c0]⟩, x0⟩, ⟨⟨2, ![N, c1]⟩, x1⟩, ⟨⟨2, ![N, c2]⟩, x2⟩, ⟨⟨2, ![N, c3]⟩, x3⟩] h p k 3 (by show 3 < 4; omega) c3 x3 rfl (c0 + (c1 + (c2 + 0))) rfl ⟨k.val - c0 - c1 - c2, h3⟩ (by show c0 + (c1 + (c2 + 0)) + (k.val - c0 - c1 - c2) = k.val; omega)
  rw [rcons_ge _ _ (Nat.le_of_not_lt h3)]
  exfalso; omega

/-- Eight matrices with the same rows laid side by side, read at (p, k): the pieces' rows laid end to end, at k. What follows the
    last piece is never read. -/
theorem cat8_row {N c0 c1 c2 c3 c4 c5 c6 c7 c : Nat} (x0 : (⟨2, ![N, c0]⟩ : Shape).Idx → α) (x1 : (⟨2, ![N, c1]⟩ : Shape).Idx → α) (x2 : (⟨2, ![N, c2]⟩ : Shape).Idx → α) (x3 : (⟨2, ![N, c3]⟩ : Shape).Idx → α) (x4 : (⟨2, ![N, c4]⟩ : Shape).Idx → α) (x5 : (⟨2, ![N, c5]⟩ : Shape).Idx → α) (x6 : (⟨2, ![N, c6]⟩ : Shape).Idx → α) (x7 : (⟨2, ![N, c7]⟩ : Shape).Idx → α)
    (h : Shape.Concatenates [⟨2, ![N, c0]⟩, ⟨2, ![N, c1]⟩, ⟨2, ![N, c2]⟩, ⟨2, ![N, c3]⟩, ⟨2, ![N, c4]⟩, ⟨2, ![N, c5]⟩, ⟨2, ![N, c6]⟩, ⟨2, ![N, c7]⟩] ⟨2, ![N, c]⟩ (1 : Fin 2)) (rest : Nat → α) (p : Fin N) (k : Fin c) :
    concatenate ⟨2, ![N, c]⟩ (1 : Fin 2) [⟨⟨2, ![N, c0]⟩, x0⟩, ⟨⟨2, ![N, c1]⟩, x1⟩, ⟨⟨2, ![N, c2]⟩, x2⟩, ⟨⟨2, ![N, c3]⟩, x3⟩, ⟨⟨2, ![N, c4]⟩, x4⟩, ⟨⟨2, ![N, c5]⟩, x5⟩, ⟨⟨2, ![N, c6]⟩, x6⟩, ⟨⟨2, ![N, c7]⟩, x7⟩] h (ix2 p k)
      = rcons c0 (fun j => x0 (ix2 p j)) (rcons c1 (fun j => x1 (ix2 p j)) (rcons c2 (fun j => x2 (ix2 p j)) (rcons c3 (fun j => x3 (ix2 p j)) (rcons c4 (fun j => x4 (ix2 p j)) (rcons c5 (fun j => x5 (ix2 p j)) (rcons c6 (fun j => x6 (ix2 p j)) (rcons c7 (fun j => x7 (ix2 p j)) rest))))))) k.val := by
  have hc : c0 + (c1 + (c2 + (c3 + (c4 + (c5 + (c6 + (c7 + 0))))))) = c := h.2.2
  have hk := k.isLt
  by_cases h0 : k.val < c0
  · rw [rcons_lt _ _ h0]
    exact cat_cols_piece [⟨⟨2, ![N, c0]⟩, x0⟩, ⟨⟨2, ![N, c1]⟩, x1⟩, ⟨⟨2, ![N, c2]⟩, x2⟩, ⟨⟨2, ![N, c3]⟩, x3⟩, ⟨⟨2, ![N, c4]⟩, x4⟩, ⟨⟨2, ![N, c5]⟩, x5⟩, ⟨⟨2, ![N, c6]⟩, x6⟩, ⟨⟨2, ![N, c7]⟩, x7⟩] h p k 0 (by show 0 < 8; omega) c0 x0 rfl (0) rfl ⟨k.val, h0⟩ (by show 0 + (k.val) = k.val; omega)
  rw [rcons_ge _ _ (Nat.le_of_not_lt h0)]
  by_cases h1 : k.val - c0 < c1
  · rw [rcons_lt _ _ h1]
    exact cat_cols_piece [⟨⟨2, ![N, c0]⟩, x0⟩, ⟨⟨2, ![N, c1]⟩, x1⟩, ⟨⟨2, ![N, c2]⟩, x2⟩, ⟨⟨2, ![N, c3]⟩, x3⟩, ⟨⟨2, ![N, c4]⟩, x4⟩, ⟨⟨2, ![N, c5]⟩, x5⟩, ⟨⟨2, ![N, c6]⟩, x6⟩, ⟨⟨2, ![N, c7]⟩, x7⟩] h p k 1 (by show 1 < 8; omega) c1 x1 rfl (c0 + 0) rfl ⟨k.val - c0, h1⟩ (by show c0 + 0 + (k.val - c0) = k.val; omega)
  rw [rcons_ge _ _ (Nat.le_of_not_lt h1)]
  by_cases h2 : k.val - c0 - c1 < c2
  · rw [rcons_lt _ _ h2]
    exact cat_cols_piece [⟨⟨2, ![N, c0]⟩, x0⟩, ⟨⟨2, ![N, c1]⟩, x1⟩, ⟨⟨2, ![N, c2]⟩, x2⟩, ⟨⟨2, ![N, c3]⟩, x3⟩, ⟨⟨2, ![N, c4]⟩, x4⟩, ⟨⟨2, ![N, c5]⟩, x5⟩, ⟨⟨2, ![N, c6]⟩, x6⟩, ⟨⟨2, ![N, c7]⟩, x7⟩] h p k 2 (by show 2 < 8; omega) c2 x2 rfl (c0 + (c1 + 0)) rfl ⟨k.val - c0 - c1, h2⟩ (by show c0 + (c1 + 0) + (k.val - c0 - c1) = k.val; omega)
  rw [rcons_ge _ _ (Nat.le_of_not_lt h2)]
  by_cases h3 : k.val - c0 - c1 - c2 < c3
  · rw [rcons_lt _ _ h3]
    exact cat_cols_piece [⟨⟨2, ![N, c0]⟩, x0⟩, ⟨⟨2, ![N, c1]⟩, x1⟩, ⟨⟨2, ![N, c2]⟩, x2⟩, ⟨⟨2, ![N, c3]⟩, x3⟩, ⟨⟨2, ![N, c4]⟩, x4⟩, ⟨⟨2, ![N, c5]⟩, x5⟩, ⟨⟨2, ![N, c6]⟩, x6⟩, ⟨⟨2, ![N, c7]⟩, x7⟩] h p k 3 (by show 3 < 8; omega) c3 x3 rfl (c0 + (c1 + (c2 + 0))) rfl ⟨k.val - c0 - c1 - c2, h3⟩ (by show c0 + (c1 + (c2 + 0)) + (k.val - c0 - c1 - c2) = k.val; omega)
  rw [rcons_ge _ _ (Nat.le_of_not_lt h3)]
  by_cases h4 : k.val - c0 - c1 - c2 - c3 < c4
  · rw [rcons_lt _ _ h4]
    exact cat_cols_piece [⟨⟨2, ![N, c0]⟩, x0⟩, ⟨⟨2, ![N, c1]⟩, x1⟩, ⟨⟨2, ![N, c2]⟩, x2⟩, ⟨⟨2, ![N, c3]⟩, x3⟩, ⟨⟨2, ![N, c4]⟩, x4⟩, ⟨⟨2, ![N, c5]⟩, x5⟩, ⟨⟨2, ![N, c6]⟩, x6⟩, ⟨⟨2, ![N, c7]⟩, x7⟩] h p k 4 (by show 4 < 8; omega) c4 x4 rfl (c0 + (c1 + (c2 + (c3 + 0)))) rfl ⟨k.val - c0 - c1 - c2 - c3, h4⟩ (by show c0 + (c1 + (c2 + (c3 + 0))) + (k.val - c0 - c1 - c2 - c3) = k.val; omega)
  rw [rcons_ge _ _ (Nat.le_of_not_lt h4)]
  by_cases h5 : k.val - c0 - c1 - c2 - c3 - c4 < c5
  · rw [rcons_lt _ _ h5]
    exact cat_cols_piece [⟨⟨2, ![N, c0]⟩, x0⟩, ⟨⟨2, ![N, c1]⟩, x1⟩, ⟨⟨2, ![N, c2]⟩, x2⟩, ⟨⟨2, ![N, c3]⟩, x3⟩, ⟨⟨2, ![N, c4]⟩, x4⟩, ⟨⟨2, ![N, c5]⟩, x5⟩, ⟨⟨2, ![N, c6]⟩, x6⟩, ⟨⟨2, ![N, c7]⟩, x7⟩] h p k 5 (by show 5 < 8; omega) c5 x5 rfl (c0 + (c1 + (c2 + (c3 + (c4 + 0))))) rfl ⟨k.val - c0 - c1 - c2 - c3 - c4, h5⟩ (by show c0 + (c1 + (c2 + (c3 + (c4 + 0)))) + (k.val - c0 - c1 - c2 - c3 - c4) = k.val; omega)
  rw [rcons_ge _ _ (Nat.le_of_not_lt h5)]
  by_cases h6 : k.val - c0 - c1 - c2 - c3 - c4 - c5 < c6
  · rw [rcons_lt _ _ h6]
    exact cat_cols_piece [⟨⟨2, ![N, c0]⟩, x0⟩, ⟨⟨2, ![N, c1]⟩, x1⟩, ⟨⟨2, ![N, c2]⟩, x2⟩, ⟨⟨2, ![N, c3]⟩, x3⟩, ⟨⟨2, ![N, c4]⟩, x4⟩, ⟨⟨2, ![N, c5]⟩, x5⟩, ⟨⟨2, ![N, c6]⟩, x6⟩, ⟨⟨2, ![N, c7]⟩, x7⟩] h p k 6 (by show 6 < 8; omega) c6 x6 rfl (c0 + (c1 + (c2 + (c3 + (c4 + (c5 + 0)))))) rfl ⟨k.val - c0 - c1 - c2 - c3 - c4 - c5, h6⟩ (by show c0 + (c1 + (c2 + (c3 + (c4 + (c5 + 0))))) + (k.val - c0 - c1 - c2 - c3 - c4 - c5) = k.val; omega)
  rw [rcons_ge _ _ (Nat.le_of_not_lt h6)]
  by_cases h7 : k.val - c0 - c1 - c2 - c3 - c4 - c5 - c6 < c7
  · rw [rcons_lt _ _ h7]
    exact cat_cols_piece [⟨⟨2, ![N, c0]⟩, x0⟩, ⟨⟨2, ![N, c1]⟩, x1⟩, ⟨⟨2, ![N, c2]⟩, x2⟩, ⟨⟨2, ![N, c3]⟩, x3⟩, ⟨⟨2, ![N, c4]⟩, x4⟩, ⟨⟨2, ![N, c5]⟩, x5⟩, ⟨⟨2, ![N, c6]⟩, x6⟩, ⟨⟨2, ![N, c7]⟩, x7⟩] h p k 7 (by show 7 < 8; omega) c7 x7 rfl (c0 + (c1 + (c2 + (c3 + (c4 + (c5 + (c6 + 0))))))) rfl ⟨k.val - c0 - c1 - c2 - c3 - c4 - c5 - c6, h7⟩ (by show c0 + (c1 + (c2 + (c3 + (c4 + (c5 + (c6 + 0)))))) + (k.val - c0 - c1 - c2 - c3 - c4 - c5 - c6) = k.val; omega)
  rw [rcons_ge _ _ (Nat.le_of_not_lt h7)]
  exfalso; omega

end Cert.LibCatCols
-- ==== Proof.KernelGroups.lean ====
/-
  The eight sibling groups of a block of rows, as the kernel's body computes them, read at an index.

  The body cuts the 65 columns of its block into the eight groups' column ranges (and into the two top nodes' ranges),
  takes each group's softmax and each range's mean. At row r these are the softmax and the mean of the matching
  segment of row r of the block.
-/
import proofs.«152243_j47253230191392_2_alg».proof.Proof.KernelSoft
import proofs.«152243_j47253230191392_2_alg».proof.Proof.Gen.KernelIdeal.Skeleton
import proofs.«152243_j47253230191392_2_alg».proof.Proof.LibCatCols

noncomputable section

open scoped BigOperators

namespace Cert.KernelRow

open Cert.KernelIdeal Cert.KernelIdeal.Gen Idealize.ShloMosaic Idealize.ShloMosaic.ValueIdx

variable (v0 : Vec Ideal S4096x65 .f32) (r : Fin 4096)

/-! ## The segments -/

theorem seg2 : (fun j : Fin 7 => k0_pay2 v0 (ix2 r j)) = Spec.seg 0 7 (by omega) (Spec.rowOf v0 r) :=
  funext fun j => Cert.LibCatCols.slice_cols_apply 0 v0 slices_S4096x65_o0_0_S4096x7 r j (by omega)
theorem seg5 : (fun j : Fin 23 => k0_pay5 v0 (ix2 r j)) = Spec.seg 7 23 (by omega) (Spec.rowOf v0 r) :=
  funext fun j => Cert.LibCatCols.slice_cols_apply 7 v0 slices_S4096x65_o0_7_S4096x23 r j (by omega)
theorem seg8 : (fun j : Fin 18 => k0_pay8 v0 (ix2 r j)) = Spec.seg 30 18 (by omega) (Spec.rowOf v0 r) :=
  funext fun j => Cert.LibCatCols.slice_cols_apply 30 v0 slices_S4096x65_o0_30_S4096x18 r j (by omega)
theorem seg13 : (fun j : Fin 5 => k0_pay13 v0 (ix2 r j)) = Spec.seg 48 5 (by omega) (Spec.rowOf v0 r) :=
  funext fun j => Cert.LibCatCols.slice_cols_apply 48 v0 slices_S4096x65_o0_48_S4096x5 r j (by omega)
theorem seg16 : (fun j : Fin 5 => k0_pay16 v0 (ix2 r j)) = Spec.seg 53 5 (by omega) (Spec.rowOf v0 r) :=
  funext fun j => Cert.LibCatCols.slice_cols_apply 53 v0 slices_S4096x65_o0_53_S4096x5 r j (by omega)
theorem seg19 : (fun j : Fin 1 => k0_pay19 v0 (ix2 r j)) = Spec.seg 58 1 (by omega) (Spec.rowOf v0 r) :=
  funext fun j => Cert.LibCatCols.slice_cols_apply 58 v0 slices_S4096x65_o0_58_S4096x1 r j (by omega)
theorem seg22 : (fun j : Fin 3 => k0_pay22 v0 (ix2 r j)) = Spec.seg 59 3 (by omega) (Spec.rowOf v0 r) :=
  funext fun j => Cert.LibCatCols.slice_cols_apply 59 v0 slices_S4096x65_o0_59_S4096x3 r j (by omega)
theorem seg23 : (fun j : Fin 3 => k0_pay23 v0 (ix2 r j)) = Spec.seg 62 3 (by omega) (Spec.rowOf v0 r) :=
  funext fun j => Cert.LibCatCols.slice_cols_apply 62 v0 slices_S4096x65_o0_62_S4096x3 r j (by omega)
theorem seg27 : (fun j : Fin 12 => k0_pay27 v0 (ix2 r j)) = Spec.seg 53 12 (by omega) (Spec.rowOf v0 r) :=
  funext fun j => Cert.LibCatCols.slice_cols_apply 53 v0 slices_S4096x65_o0_53_S4096x12 r j (by omega)
theorem seg129 : (fun j : Fin 53 => extractStridedSlice S4096x53 (![0, 0] : Fin 2 → Nat) v0 slices_S4096x65_o0_0_S4096x53 (ix2 r j))
    = Spec.seg 0 53 (by omega) (Spec.rowOf v0 r) :=
  funext fun j => Cert.LibCatCols.slice_cols_apply 0 v0 slices_S4096x65_o0_0_S4096x53 r j (by omega)

/-! ## The groups' softmaxes -/

theorem soft3 (k : Fin 7) : k0_pay3 v0 (ix2 r k) = Spec.soft (Spec.seg 0 7 (by omega) (Spec.rowOf v0 r)) k :=
  (kern_soft (k0_pay2 v0) reduces_S4096x7_S4096 (.inl rfl) rfl rfl shapeCasts_S4096_S4096x1 broadcasts_S4096x1_S4096x7 r k).trans
    (congrArg (fun f => Spec.soft f k) (seg2 v0 r))
theorem soft6 (k : Fin 23) : k0_pay6 v0 (ix2 r k) = Spec.soft (Spec.seg 7 23 (by omega) (Spec.rowOf v0 r)) k :=
  (kern_soft (k0_pay5 v0) reduces_S4096x23_S4096 (.inl rfl) rfl rfl shapeCasts_S4096_S4096x1 broadcasts_S4096x1_S4096x23 r k).trans
    (congrArg (fun f => Spec.soft f k) (seg5 v0 r))
theorem soft11 (k : Fin 18) :
    k0_pay11 (k0_pay9 v0) (k0_pay10 v0) (ix2 r k) = Spec.soft (Spec.seg 30 18 (by omega) (Spec.rowOf v0 r)) k :=
  (kern_soft (k0_pay8 v0) reduces_S4096x18_S4096 (.inl rfl) rfl rfl shapeCasts_S4096_S4096x1 broadcasts_S4096x1_S4096x18 r k).trans
    (congrArg (fun f => Spec.soft f k) (seg8 v0 r))
theorem soft14 (k : Fin 5) : k0_pay14 v0 (ix2 r k) = Spec.soft (Spec.seg 48 5 (by omega) (Spec.rowOf v0 r)) k :=
  (kern_soft (k0_pay13 v0) reduces_S4096x5_S4096 (.inl rfl) rfl rfl shapeCasts_S4096_S4096x1 broadcasts_S4096x1_S4096x5 r k).trans
    (congrArg (fun f => Spec.soft f k) (seg13 v0 r))
theorem soft17 (k : Fin 5) : k0_pay17 v0 (ix2 r k) = Spec.soft (Spec.seg 53 5 (by omega) (Spec.rowOf v0 r)) k :=
  (kern_soft (k0_pay16 v0) reduces_S4096x5_S4096 (.inl rfl) rfl rfl shapeCasts_S4096_S4096x1 broadcasts_S4096x1_S4096x5 r k).trans
    (congrArg (fun f => Spec.soft f k) (seg16 v0 r))
/-- The one-column group: its exponential over the column of its sum. -/
theorem soft90 (k : Fin 1) :
    divf (k0_pay20 v0) (shapeCast S4096x1 (k0_pay21 v0) shapeCasts_S4096_S4096x1) (ix2 r k)
      = Spec.soft (Spec.seg 58 1 (by omega) (Spec.rowOf v0 r)) k :=
  (kern_soft1 (k0_pay19 v0) reduces_S4096x1_S4096 (.inl rfl) rfl rfl shapeCasts_S4096_S4096x1 r k).trans
    (congrArg (fun f => Spec.soft f k) (seg19 v0 r))

/-! ## The means -/

theorem mean4 (u : Fin 1) : k0_pay4 v0 (ix2 r u) = Spec.mean 0x40E00000#32 (Spec.seg 0 7 (by omega) (Spec.rowOf v0 r)) :=
  (kern_mean 0x40E00000#32 (k0_pay2 v0) reduces_S4096x7_S4096 (.inl rfl) rfl shapeCasts_S4096_S4096x1 r u).trans
    (congrArg (Spec.mean 0x40E00000#32) (seg2 v0 r))
theorem mean7 (u : Fin 1) : k0_pay7 v0 (ix2 r u) = Spec.mean 0x41B80000#32 (Spec.seg 7 23 (by omega) (Spec.rowOf v0 r)) :=
  (kern_mean 0x41B80000#32 (k0_pay5 v0) reduces_S4096x23_S4096 (.inl rfl) rfl shapeCasts_S4096_S4096x1 r u).trans
    (congrArg (Spec.mean 0x41B80000#32) (seg5 v0 r))
theorem mean12 (u : Fin 1) :
    k0_pay12 (k0_pay8 v0) (ix2 r u) = Spec.mean 0x41900000#32 (Spec.seg 30 18 (by omega) (Spec.rowOf v0 r)) :=
  (kern_mean 0x41900000#32 (k0_pay8 v0) reduces_S4096x18_S4096 (.inl rfl) rfl shapeCasts_S4096_S4096x1 r u).trans
    (congrArg (Spec.mean 0x41900000#32) (seg8 v0 r))
theorem mean15 (u : Fin 1) : k0_pay15 v0 (ix2 r u) = Spec.mean 0x40A00000#32 (Spec.seg 48 5 (by omega) (Spec.rowOf v0 r)) :=
  (kern_mean 0x40A00000#32 (k0_pay13 v0) reduces_S4096x5_S4096 (.inl rfl) rfl shapeCasts_S4096_S4096x1 r u).trans
    (congrArg (Spec.mean 0x40A00000#32) (seg13 v0 r))
theorem mean18 (u : Fin 1) : k0_pay18 v0 (ix2 r u) = Spec.mean 0x40A00000#32 (Spec.seg 53 5 (by omega) (Spec.rowOf v0 r)) :=
  (kern_mean 0x40A00000#32 (k0_pay16 v0) reduces_S4096x5_S4096 (.inl rfl) rfl shapeCasts_S4096_S4096x1 r u).trans
    (congrArg (Spec.mean 0x40A00000#32) (seg16 v0 r))
theorem mean26 (u : Fin 1) : k0_pay26 v0 (ix2 r u) = Spec.mean 0x42540000#32 (Spec.seg 0 53 (by omega) (Spec.rowOf v0 r)) :=
  (kern_mean 0x42540000#32 _ reduces_S4096x53_S4096
      (.inl rfl) rfl shapeCasts_S4096_S4096x1 r u).trans
    (congrArg (Spec.mean 0x42540000#32) (seg129 v0 r))

end Cert.KernelRow

end
-- ==== Proof.KernelCats.lean ====
/-
  The body's concatenations, read at an index, over the values they join.

  The leaf table is the eight groups' softmaxes laid end to end; the eight group logits are eight one-column means laid
  end to end; the two top logits likewise, and their softmax; the group probabilities are the softmax of the first four
  and of the last four group logits; a node row is the leaves, the groups, the tops and a column of ones; and the path
  probability is the leaf's, times its group's column repeated over the group's span, times its top's column repeated
  over the top's span. Each is stated over the joined values as variables, the row of the result written by `Spec.rcons`.
-/
import proofs.«152243_j47253230191392_2_alg».proof.Proof.KernelGroups
import proofs.«152243_j47253230191392_2_alg».proof.Proof.LibCatCols

noncomputable section

open scoped BigOperators

namespace Cert.KernelRow

open Cert.KernelIdeal Cert.KernelIdeal.Gen Idealize.ShloMosaic Idealize.ShloMosaic.ValueIdx

/-- Rows laid end to end agree when their pieces agree. -/
theorem rcons_congr {α : Type} {c : Nat} {f g : Fin c → α} {r1 r2 : Nat → α} (hf : ∀ j, f j = g j)
    (hr : ∀ n, r1 n = r2 n) (n : Nat) : Spec.rcons c f r1 n = Spec.rcons c g r2 n := by
  unfold Spec.rcons
  split
  · exact hf _
  · exact hr _

/-- A matrix recast to its own shape is itself. -/
theorem cast_self_apply {α : Type} {N c : Nat} (x : (⟨2, ![N, c]⟩ : Shape).Idx → α)
    (h : (⟨2, ![N, c]⟩ : Shape).ShapeCasts ⟨2, ![N, c]⟩) (i : (⟨2, ![N, c]⟩ : Shape).Idx) :
    shapeCast ⟨2, ![N, c]⟩ x h i = x i :=
  shapeCast_apply x h i i rfl

/-- Column o of a matrix, recast and repeated over c' columns, at (p, j): the matrix at (p, o). -/
theorem col_rep_apply {α : Type} {N c c' : Nat} (o : Nat) (ho : o < c) (x : (⟨2, ![N, c]⟩ : Shape).Idx → α)
    (hs : (⟨2, ![N, c]⟩ : Shape).Slices ![0, o] ⟨2, ![N, 1]⟩)
    (hc : (⟨2, ![N, 1]⟩ : Shape).ShapeCasts ⟨2, ![N, 1]⟩) (hb : (⟨2, ![N, 1]⟩ : Shape).Broadcasts ⟨2, ![N, c']⟩)
    (p : Fin N) (j : Fin c') :
    broadcastTo ⟨2, ![N, c']⟩ (shapeCast ⟨2, ![N, 1]⟩ (extractStridedSlice ⟨2, ![N, 1]⟩ ![0, o] x hs) hc) hb (ix2 p j)
      = x (ix2 p ⟨o, ho⟩) :=
  (Cert.LibRows.bcast_col_apply _ hb p j).trans ((cast_self_apply _ hc _).trans
    (Cert.LibCatCols.slice_cols_apply o x hs p 0 (by show o + 0 < c; omega)))

/-- Column o of a matrix, recast, at (p, u): the matrix at (p, o). -/
theorem col_cut_apply {α : Type} {N c : Nat} (o : Nat) (ho : o < c) (x : (⟨2, ![N, c]⟩ : Shape).Idx → α)
    (hs : (⟨2, ![N, c]⟩ : Shape).Slices ![0, o] ⟨2, ![N, 1]⟩)
    (hc : (⟨2, ![N, 1]⟩ : Shape).ShapeCasts ⟨2, ![N, 1]⟩) (p : Fin N) (u : Fin 1) :
    shapeCast ⟨2, ![N, 1]⟩ (extractStridedSlice ⟨2, ![N, 1]⟩ ![0, o] x hs) hc (ix2 p u) = x (ix2 p ⟨o, ho⟩) :=
  (cast_self_apply _ hc _).trans
    ((Cert.LibCatCols.slice_cols_apply o x hs p u (by have := u.isLt; omega)).trans
      (congrArg x (congrArg (ix2 p) (Fin.ext (by show o + u.val = o; have := u.isLt; omega)))))

/-! ## The leaf table -/

theorem pay24_apply (v0 : Vec Ideal S4096x65 .f32) (v12 : FVec Ideal S4096x7 .f32) (v28 : FVec Ideal S4096x23 .f32)
    (v44 : FVec Ideal S4096x18 .f32) (v60 : FVec Ideal S4096x5 .f32) (v76 : FVec Ideal S4096x5 .f32)
    (v87 : FVec Ideal S4096x1 .f32) (v88 : FVec Ideal S4096 .f32) (r : Fin 4096) (k : Fin 65) :
    k0_pay24 v0 v12 v28 v44 v60 v76 v87 v88 (ix2 r k)
      = Spec.rcons 7 (fun j => v12 (ix2 r j)) (Spec.rcons 23 (fun j => v28 (ix2 r j)) (Spec.rcons 18 (fun j => v44 (ix2 r j))
          (Spec.rcons 5 (fun j => v60 (ix2 r j)) (Spec.rcons 5 (fun j => v76 (ix2 r j))
            (Spec.rcons 1 (fun j => divf v87 (shapeCast S4096x1 v88 shapeCasts_S4096_S4096x1) (ix2 r j))
              (Spec.rcons 3 (Spec.soft (Spec.seg 59 3 (by omega) (Spec.rowOf v0 r)))
                (Spec.rcons 3 (Spec.soft (Spec.seg 62 3 (by omega) (Spec.rowOf v0 r))) Spec.rnil))))))) k.val := by
  unfold k0_pay24
  refine (Cert.LibCatCols.cat8_row _ _ _ _ _ _ _ _
    concatenates_S4096x7_S4096x23_S4096x18_S4096x5_S4096x5_S4096x1_S4096x3_S4096x3_S4096x65_d1 Spec.rnil r k).trans ?_
  refine rcons_congr (fun _ => rfl) (fun _ => rcons_congr (fun _ => rfl) (fun _ => rcons_congr (fun _ => rfl) (fun _ =>
    rcons_congr (fun _ => rfl) (fun _ => rcons_congr (fun _ => rfl) (fun _ => rcons_congr (fun _ => rfl) (fun _ =>
      rcons_congr (fun j => ?_) (fun _ => rcons_congr (fun j => ?_) (fun _ => rfl) _) _) _) _) _) _) _) _
  · exact (kern_soft (k0_pay22 v0) reduces_S4096x3_S4096 (.inl rfl) rfl rfl shapeCasts_S4096_S4096x1 broadcasts_S4096x1_S4096x3 r j).trans
      (congrArg (fun f => Spec.soft f j) (seg22 v0 r))
  · exact (kern_soft (k0_pay23 v0) reduces_S4096x3_S4096 (.inl rfl) rfl rfl shapeCasts_S4096_S4096x1 broadcasts_S4096x1_S4096x3 r j).trans
      (congrArg (fun f => Spec.soft f j) (seg23 v0 r))

/-! ## The group logits -/

theorem pay25_apply (v0 : Vec Ideal S4096x65 .f32) (v16 v32 v48 v64 v80 v81 : FVec Ideal S4096x1 .f32) (r : Fin 4096) (k : Fin 8) :
    k0_pay25 v0 v16 v32 v48 v64 v80 v81 (ix2 r k)
      = Spec.rcons 1 (fun j => v16 (ix2 r j)) (Spec.rcons 1 (fun j => v32 (ix2 r j)) (Spec.rcons 1 (fun j => v48 (ix2 r j))
          (Spec.rcons 1 (fun j => v64 (ix2 r j)) (Spec.rcons 1 (fun j => v80 (ix2 r j))
            (Spec.rcons 1 (fun _ => Spec.mean 0x3F800000#32 (fun j => v81 (ix2 r j)))
              (Spec.rcons 1 (fun _ => Spec.mean 0x40400000#32 (Spec.seg 59 3 (by omega) (Spec.rowOf v0 r)))
                (Spec.rcons 1 (fun _ => Spec.mean 0x40400000#32 (Spec.seg 62 3 (by omega) (Spec.rowOf v0 r))) Spec.rnil))))))) k.val := by
  unfold k0_pay25
  refine (Cert.LibCatCols.cat8_row _ _ _ _ _ _ _ _
    concatenates_S4096x1_S4096x1_S4096x1_S4096x1_S4096x1_S4096x1_S4096x1_S4096x1_S4096x8_d1 Spec.rnil r k).trans ?_
  refine rcons_congr (fun _ => rfl) (fun _ => rcons_congr (fun _ => rfl) (fun _ => rcons_congr (fun _ => rfl) (fun _ =>
    rcons_congr (fun _ => rfl) (fun _ => rcons_congr (fun _ => rfl) (fun _ => rcons_congr (fun j => ?_) (fun _ =>
      rcons_congr (fun j => ?_) (fun _ => rcons_congr (fun j => ?_) (fun _ => rfl) _) _) _) _) _) _) _) _
  · exact kern_mean 0x3F800000#32 v81 reduces_S4096x1_S4096 (.inl rfl) rfl shapeCasts_S4096_S4096x1 r j
  · exact (kern_mean 0x40400000#32 (k0_pay22 v0) reduces_S4096x3_S4096 (.inl rfl) rfl shapeCasts_S4096_S4096x1 r j).trans
      (congrArg (Spec.mean 0x40400000#32) (seg22 v0 r))
  · exact (kern_mean 0x40400000#32 (k0_pay23 v0) reduces_S4096x3_S4096 (.inl rfl) rfl shapeCasts_S4096_S4096x1 r j).trans
      (congrArg (Spec.mean 0x40400000#32) (seg23 v0 r))

/-! ## The top probabilities -/

theorem pay28_apply (v133 : FVec Ideal S4096x1 .f32) (v134 : FVec Ideal S4096x12 .f32) (r : Fin 4096) (k : Fin 2) :
    k0_pay28 v133 v134 (ix2 r k)
      = Spec.soft (fun j : Fin 2 => Spec.rcons 1 (fun u => v133 (ix2 r u))
          (Spec.rcons 1 (fun _ => Spec.mean 0x41400000#32 (fun q => v134 (ix2 r q))) Spec.rnil) j.val) k := by
  unfold k0_pay28
  refine (kern_soft _ reduces_S4096x2_S4096 (.inl rfl) rfl rfl shapeCasts_S4096_S4096x1 broadcasts_S4096x1_S4096x2 r k).trans ?_
  refine congrArg (fun f => Spec.soft f k) (funext fun j => ?_)
  refine (Cert.LibCatCols.cat2_row _ _ concatenates_S4096x1_S4096x1_S4096x2_d1 Spec.rnil r j).trans ?_
  refine rcons_congr (fun _ => rfl) (fun _ => rcons_congr (fun u => ?_) (fun _ => rfl) _) _
  exact kern_mean 0x41400000#32 v134 reduces_S4096x12_S4096 (.inl rfl) rfl shapeCasts_S4096_S4096x1 r u

/-! ## The group probabilities -/

theorem pay29_apply (v128 : FVec Ideal S4096x8 .f32) (r : Fin 4096) (k : Fin 8) :
    k0_pay29 v128 (ix2 r k)
      = Spec.rcons 4 (Spec.soft fun j : Fin 4 => v128 (ix2 r ⟨0 + j.val, by omega⟩))
          (Spec.rcons 4 (Spec.soft fun j : Fin 4 => v128 (ix2 r ⟨4 + j.val, by omega⟩)) Spec.rnil) k.val := by
  unfold k0_pay29
  refine (Cert.LibCatCols.cat2_row _ _ concatenates_S4096x4_S4096x4_S4096x8_d1 Spec.rnil r k).trans ?_
  refine rcons_congr (fun j => ?_) (fun _ => rcons_congr (fun j => ?_) (fun _ => rfl) _) _
  · refine (kern_soft _ reduces_S4096x4_S4096 (.inl rfl) rfl rfl shapeCasts_S4096_S4096x1 broadcasts_S4096x1_S4096x4 r j).trans ?_
    exact congrArg (fun f => Spec.soft f j) (funext fun q =>
      Cert.LibCatCols.slice_cols_apply 0 v128 slices_S4096x8_o0_0_S4096x4 r q (by omega))
  · refine (kern_soft _ reduces_S4096x4_S4096 (.inl rfl) rfl rfl shapeCasts_S4096_S4096x1 broadcasts_S4096x1_S4096x4 r j).trans ?_
    exact congrArg (fun f => Spec.soft f j) (funext fun q =>
      Cert.LibCatCols.slice_cols_apply 4 v128 slices_S4096x8_o0_4_S4096x4 r q (by omega))

/-! ## A node row -/

theorem pay30_apply (v127 : FVec Ideal S4096x65 .f32) (v128 : FVec Ideal S4096x8 .f32) (v133 : FVec Ideal S4096x1 .f32)
    (v134 : FVec Ideal S4096x12 .f32) (r : Fin 4096) (k : Fin 76) :
    k0_pay30 v127 v128 v133 v134 (ix2 r k)
      = Spec.rcons 65 (fun j => v127 (ix2 r j)) (Spec.rcons 8 (fun j => k0_pay29 v128 (ix2 r j))
          (Spec.rcons 2 (fun j => k0_pay28 v133 v134 (ix2 r j))
            (Spec.rcons 1 (fun _ => Ideal.ofBits .f32 0x3F800000#32) Spec.rnil))) k.val := by
  unfold k0_pay30
  exact Cert.LibCatCols.cat4_row _ _ _ _ concatenates_S4096x65_S4096x8_S4096x2_S4096x1_S4096x76_d1 Spec.rnil r k

/-! ## The columns of the group probabilities the body keeps -/

theorem pay31_apply (v128 : FVec Ideal S4096x8 .f32) (r : Fin 4096) (j : Fin 7) :
    k0_pay31 v128 (ix2 r j) = k0_pay29 v128 (ix2 r ⟨0, by omega⟩) :=
  col_rep_apply 0 (by omega) (k0_pay29 v128) slices_S4096x8_o0_0_S4096x1 shapeCasts_S4096x1_S4096x1 broadcasts_S4096x1_S4096x7 r j

theorem pay32_apply (v128 : FVec Ideal S4096x8 .f32) (r : Fin 4096) (u : Fin 1) :
    k0_pay32 v128 (ix2 r u) = k0_pay29 v128 (ix2 r ⟨1, by omega⟩) :=
  col_cut_apply 1 (by omega) (k0_pay29 v128) slices_S4096x8_o0_1_S4096x1 shapeCasts_S4096x1_S4096x1 r u

/-! ## The path probabilities -/

theorem pay1_apply (v127 : FVec Ideal S4096x65 .f32) (v150 : FVec Ideal S4096x2 .f32) (v175 : FVec Ideal S4096x8 .f32)
    (v180 : FVec Ideal S4096x7 .f32) (v182 : FVec Ideal S4096x1 .f32) (r : Fin 4096) (k : Fin 65) :
    k0_pay1 v127 v150 v175 v180 v182 (ix2 r k)
      = v127 (ix2 r k)
        * Spec.rcons 7 (fun j => v180 (ix2 r j)) (Spec.rcons 23 (fun _ => v182 (ix2 r 0))
            (Spec.rcons 18 (fun _ => v175 (ix2 r ⟨2, by omega⟩)) (Spec.rcons 5 (fun _ => v175 (ix2 r ⟨3, by omega⟩))
              (Spec.rcons 5 (fun _ => v175 (ix2 r ⟨4, by omega⟩)) (Spec.rcons 1 (fun _ => v175 (ix2 r ⟨5, by omega⟩))
                (Spec.rcons 3 (fun _ => v175 (ix2 r ⟨6, by omega⟩)) (Spec.rcons 3 (fun _ => v175 (ix2 r ⟨7, by omega⟩)) Spec.rnil))))))) k.val
        * Spec.rcons 53 (fun _ => v150 (ix2 r ⟨0, by omega⟩)) (Spec.rcons 12 (fun _ => v150 (ix2 r ⟨1, by omega⟩)) Spec.rnil) k.val := by
  unfold k0_pay1
  refine (mulf_apply _ _ _).trans ?_
  refine congrArg₂ (· * ·) ((mulf_apply _ _ _).trans (congrArg (v127 (ix2 r k) * ·) ?_)) ?_
  · refine (Cert.LibCatCols.cat8_row _ _ _ _ _ _ _ _
      concatenates_S4096x7_S4096x23_S4096x18_S4096x5_S4096x5_S4096x1_S4096x3_S4096x3_S4096x65_d1 Spec.rnil r k).trans ?_
    refine rcons_congr (fun _ => rfl) (fun _ => rcons_congr (fun j => ?_) (fun _ => rcons_congr (fun j => ?_) (fun _ =>
      rcons_congr (fun j => ?_) (fun _ => rcons_congr (fun j => ?_) (fun _ => rcons_congr (fun j => ?_) (fun _ =>
        rcons_congr (fun j => ?_) (fun _ => rcons_congr (fun j => ?_) (fun _ => rfl) _) _) _) _) _) _) _) _
    · exact Cert.LibRows.bcast_col_apply v182 broadcasts_S4096x1_S4096x23 r j
    · exact col_rep_apply 2 (by omega) v175 slices_S4096x8_o0_2_S4096x1 shapeCasts_S4096x1_S4096x1 broadcasts_S4096x1_S4096x18 r j
    · exact col_rep_apply 3 (by omega) v175 slices_S4096x8_o0_3_S4096x1 shapeCasts_S4096x1_S4096x1 broadcasts_S4096x1_S4096x5 r j
    · exact col_rep_apply 4 (by omega) v175 slices_S4096x8_o0_4_S4096x1 shapeCasts_S4096x1_S4096x1 broadcasts_S4096x1_S4096x5 r j
    · exact (Cert.LibCatCols.slice_cols_apply 5 v175 slices_S4096x8_o0_5_S4096x1 r j (by have := j.isLt; omega)).trans
        (congrArg v175 (congrArg (ix2 r) (Fin.ext (by show 5 + j.val = 5; have := j.isLt; omega))))
    · exact col_rep_apply 6 (by omega) v175 slices_S4096x8_o0_6_S4096x1 shapeCasts_S4096x1_S4096x1 broadcasts_S4096x1_S4096x3 r j
    · exact col_rep_apply 7 (by omega) v175 slices_S4096x8_o0_7_S4096x1 shapeCasts_S4096x1_S4096x1 broadcasts_S4096x1_S4096x3 r j
  · refine (Cert.LibCatCols.cat2_row _ _ concatenates_S4096x53_S4096x12_S4096x65_d1 Spec.rnil r k).trans ?_
    refine rcons_congr (fun j => ?_) (fun _ => rcons_congr (fun j => ?_) (fun _ => rfl) _) _
    · exact col_rep_apply 0 (by omega) v150 slices_S4096x2_o0_0_S4096x1 shapeCasts_S4096x1_S4096x1 broadcasts_S4096x1_S4096x53 r j
    · exact col_rep_apply 1 (by omega) v150 slices_S4096x2_o0_1_S4096x1 shapeCasts_S4096x1_S4096x1 broadcasts_S4096x1_S4096x12 r j

end Cert.KernelRow

end
-- ==== Proof.KernelRow.lean ====
/-
  The kernel's body at one entry of its two output blocks.

  On a block of 4096 rows of 65 logits the body leaves, at row r, the row's table of path probabilities in the first
  output block and the row's node table in the second: entry (r, k) of the first is leaf k's path probability in row r,
  entry (r, k) of the second is node k's probability there. Both are the hierarchical softmax of Spec, a function of row
  r of the input block alone.
-/
import proofs.«152243_j47253230191392_2_alg».proof.Proof.KernelCats
import proofs.«152243_j47253230191392_2_alg».proof.Proof.Gen.KernelIdeal.Frame

noncomputable section

open scoped BigOperators

namespace Cert.KernelRow

open Cert.KernelIdeal Cert.KernelIdeal.Gen Idealize.ShloMosaic Idealize.ShloMosaic.ValueIdx

/-! ## The joined values at the body's own operands -/

section Operands
variable (v0 : Vec Ideal S4096x65 .f32) (r : Fin 4096)

/-- The leaf table at row r: each group's softmax, the groups end to end. -/
theorem leaf127 (k : Fin 65) :
    k0_pay24 v0 (k0_pay3 v0) (k0_pay6 v0) (k0_pay11 (k0_pay9 v0) (k0_pay10 v0)) (k0_pay14 v0) (k0_pay17 v0) (k0_pay20 v0)
        (k0_pay21 v0) (ix2 r k)
      = Spec.leafProbs (Spec.rowOf v0 r) k.val := by
  refine (pay24_apply v0 _ _ _ _ _ _ _ r k).trans ?_
  unfold Spec.leafProbs
  exact rcons_congr (soft3 v0 r) (fun _ => rcons_congr (soft6 v0 r) (fun _ => rcons_congr (soft11 v0 r) (fun _ =>
    rcons_congr (soft14 v0 r) (fun _ => rcons_congr (soft17 v0 r) (fun _ => rcons_congr (soft90 v0 r) (fun _ => rfl) _) _) _) _) _) _

/-- The eight group logits at row r. -/
theorem means128 (k : Fin 8) :
    k0_pay25 v0 (k0_pay4 v0) (k0_pay7 v0) (k0_pay12 (k0_pay8 v0)) (k0_pay15 v0) (k0_pay18 v0) (k0_pay19 v0) (ix2 r k)
      = Spec.means (Spec.rowOf v0 r) k.val := by
  refine (pay25_apply v0 _ _ _ _ _ _ r k).trans ?_
  unfold Spec.means
  exact rcons_congr (mean4 v0 r) (fun _ => rcons_congr (mean7 v0 r) (fun _ => rcons_congr (mean12 v0 r) (fun _ =>
    rcons_congr (mean15 v0 r) (fun _ => rcons_congr (mean18 v0 r) (fun _ =>
      rcons_congr (fun _ => congrArg (Spec.mean 0x3F800000#32) (seg19 v0 r)) (fun _ => rfl) _) _) _) _) _) _

/-- The two top probabilities at row r. -/
theorem ptop150 (k : Fin 2) :
    k0_pay28 (k0_pay26 v0) (k0_pay27 v0) (ix2 r k) = Spec.ptop (Spec.rowOf v0 r) k := by
  refine (pay28_apply _ _ r k).trans ?_
  unfold Spec.ptop Spec.tops
  refine congrArg (fun f => Spec.soft f k) (funext fun j => ?_)
  exact rcons_congr (mean26 v0 r) (fun _ =>
    rcons_congr (fun _ => congrArg (Spec.mean 0x41400000#32) (seg27 v0 r)) (fun _ => rfl) _) _

end Operands

/-- The eight group probabilities at row r, from group logits that are the row's. -/
theorem lvl2_175 (v128 : FVec Ideal S4096x8 .f32) (r : Fin 4096) (row : Fin 65 → EReal)
    (h : ∀ k : Fin 8, v128 (ix2 r k) = Spec.means row k.val) (k : Fin 8) :
    k0_pay29 v128 (ix2 r k) = Spec.lvl2 row k.val := by
  refine (pay29_apply v128 r k).trans ?_
  unfold Spec.lvl2
  refine rcons_congr (fun j => congrArg (fun f => Spec.soft f j) (funext fun q => ?_)) (fun _ =>
    rcons_congr (fun j => congrArg (fun f => Spec.soft f j) (funext fun q => ?_)) (fun _ => rfl) _) _
  · exact (h _).trans (congrArg (Spec.means row) (Nat.zero_add _))
  · exact h _

/-! ## The two stored values, over joined values that are the row's -/

/-- The path probabilities: the leaf's, its group's, its top's. -/
theorem leaf_of (row : Fin 65 → EReal) (v127 : FVec Ideal S4096x65 .f32) (v150 : FVec Ideal S4096x2 .f32)
    (v175 : FVec Ideal S4096x8 .f32) (v180 : FVec Ideal S4096x7 .f32) (v182 : FVec Ideal S4096x1 .f32)
    (r : Fin 4096) (k : Fin 65)
    (h127 : ∀ k : Fin 65, v127 (ix2 r k) = Spec.leafProbs row k.val)
    (h150 : ∀ k : Fin 2, v150 (ix2 r k) = Spec.ptop row k)
    (h175 : ∀ k : Fin 8, v175 (ix2 r k) = Spec.lvl2 row k.val)
    (h180 : ∀ j : Fin 7, v180 (ix2 r j) = Spec.lvl2 row 0)
    (h182 : ∀ u : Fin 1, v182 (ix2 r u) = Spec.lvl2 row 1) :
    k0_pay1 v127 v150 v175 v180 v182 (ix2 r k) = Spec.leaf row k.val := by
  refine (pay1_apply v127 v150 v175 v180 v182 r k).trans ?_
  unfold Spec.leaf
  refine congrArg₂ (· * ·) (congrArg₂ (· * ·) (h127 k) ?_) ?_
  · unfold Spec.lvl2Leaf
    exact rcons_congr h180 (fun _ => rcons_congr (fun _ => h182 0) (fun _ => rcons_congr (fun _ => h175 _) (fun _ =>
      rcons_congr (fun _ => h175 _) (fun _ => rcons_congr (fun _ => h175 _) (fun _ => rcons_congr (fun _ => h175 _) (fun _ =>
        rcons_congr (fun _ => h175 _) (fun _ => rcons_congr (fun _ => h175 _) (fun _ => rfl) _) _) _) _) _) _) _) _
  · unfold Spec.topLeaf
    exact rcons_congr (fun _ => h150 _) (fun _ => rcons_congr (fun _ => h150 _) (fun _ => rfl) _) _

/-- A node row: leaves, groups, tops, root. -/
theorem node_of (row : Fin 65 → EReal) (v127 : FVec Ideal S4096x65 .f32) (v128 : FVec Ideal S4096x8 .f32)
    (v133 : FVec Ideal S4096x1 .f32) (v134 : FVec Ideal S4096x12 .f32) (r : Fin 4096) (k : Fin 76)
    (h127 : ∀ k : Fin 65, v127 (ix2 r k) = Spec.leafProbs row k.val)
    (h128 : ∀ k : Fin 8, v128 (ix2 r k) = Spec.means row k.val)
    (h150 : ∀ k : Fin 2, k0_pay28 v133 v134 (ix2 r k) = Spec.ptop row k) :
    k0_pay30 v127 v128 v133 v134 (ix2 r k) = Spec.node row k.val := by
  refine (pay30_apply v127 v128 v133 v134 r k).trans ?_
  unfold Spec.node
  exact rcons_congr h127 (fun _ => rcons_congr (lvl2_175 v128 r row h128) (fun _ => rcons_congr h150 (fun _ => rfl) _) _) _

/-! ## The output blocks -/

/-- The whole-block rectangle's offsets are zero on both axes. -/
theorem hz : (![0, 0] : Fin 2 → Nat) = fun _ => 0 :=
  funext fun a => by
    match a with
    | ⟨0, _⟩ => rfl
    | ⟨1, _⟩ => rfl

/-- Entry (r, k) of the first output block is leaf k's path probability in row r of the input block. -/
theorem out1_apply (x0 : Vec Ideal S4096x65 .f32) (r : Fin 4096) (k : Fin 65) :
    out0_1 (F := Ideal) x0 (ix2 r k) = Cert.Spec.leaf (Cert.Spec.rowOf x0 r) k.val := by
  unfold out0_1
  rw [View.canon_unit_zero hz]
  simp only [View.ld_unit_zero (S := S4096x65) hz]
  refine leaf_of (Spec.rowOf x0 r) _ _ _ _ _ r k ?_ ?_ ?_ ?_ ?_
  · exact leaf127 x0 r
  · exact ptop150 x0 r
  · exact lvl2_175 _ r _ (means128 x0 r)
  · exact fun j => (pay31_apply _ r j).trans (lvl2_175 _ r _ (means128 x0 r) _)
  · exact fun u => (pay32_apply _ r u).trans (lvl2_175 _ r _ (means128 x0 r) _)

/-- Entry (r, k) of the second output block is node k's probability in row r of the input block. -/
theorem out2_apply (x0 : Vec Ideal S4096x65 .f32) (r : Fin 4096) (k : Fin 76) :
    out0_2 (F := Ideal) x0 (ix2 r k) = Cert.Spec.node (Cert.Spec.rowOf x0 r) k.val := by
  unfold out0_2
  rw [View.canon_unit_zero hz]
  simp only [View.ld_unit_zero (S := S4096x65) hz]
  refine node_of (Spec.rowOf x0 r) _ _ _ _ r k ?_ ?_ ?_
  · exact leaf127 x0 r
  · exact means128 x0 r
  · exact ptop150 x0 r

end Cert.KernelRow

end
-- ==== Proof.KernelValue.lean ====
/-
  From blocks to whole arrays: what the kernel's two result arrays hold after the run.

  The grid has 128 points; point t stages rows 4096·t … 4096·t + 4095 of the logits, and writes back the same rows of the
  table of path probabilities (all 65 columns) and of the node table (all 76 columns). The body computes every row of
  its block from the same row of its input block alone, so what point t writes back is block t of the whole-array
  functions `Spec.leafArr` and `Spec.nodeArr` of the logits. The 128 blocks cover both arrays (row r lies in block
  r / 4096), so after the run each array is that function of the logits, and the logits are unchanged.

  The two facts about the body (`Out1`, `Out2`: its results at an entry of the block) are taken as hypotheses here and
  proved where the body's arithmetic is read.
-/
import proofs.«152243_j47253230191392_2_alg».proof.Proof.Gen.KernelIdeal.Value
import proofs.«152243_j47253230191392_2_alg».proof.Proof.Spec
import Idealize.ShloMosaic.Lib.Pipeline.Value
import Idealize.ShloMosaic.Lib.ValueIdx

noncomputable section

namespace Cert.KernelValue

open Cert.KernelIdeal Cert.KernelIdeal.Gen Cert.KernelIdeal.Value Idealize.ShloMosaic Idealize.ShloMosaic.TcCoe Idealize.SL.Sem
open Idealize.ShloMosaic.ValueIdx Cert.Spec
open Idealize.ShloMosaic.Pipeline (Dat)

/-- The body's first result at an entry of the block: the path probabilities of that row of the input block. -/
def Out1 : Prop := ∀ (x0 : Vec Ideal S4096x65 .f32) (r : Fin 4096) (k : Fin 65),
  out0_1 (F := Ideal) x0 (ix2 r k) = leaf (rowOf x0 r) k.val

/-- The body's second result at an entry of the block: the node probabilities of that row of the input block. -/
def Out2 : Prop := ∀ (x0 : Vec Ideal S4096x65 .f32) (r : Fin 4096) (k : Fin 76),
  out0_2 (F := Ideal) x0 (ix2 r k) = node (rowOf x0 r) k.val

variable (m : (ℓ : Loc nD τ sig) → Buf (Elt Ideal) ℓ) (ρ : Dev nD → PrngReg)

/-- The printed index maps over the grid: all three windows move with the grid coordinate on the rows and stay at the
    first block on the columns; there are 128 row blocks. -/
theorem idx_facts : ∀ t : Fin cfg0.N,
    win0_0.index t (0 : Fin 2) = win0_1.index t (0 : Fin 2) ∧ win0_2.index t (0 : Fin 2) = win0_1.index t (0 : Fin 2)
    ∧ win0_0.index t (1 : Fin 2) = 0 ∧ win0_1.index t (1 : Fin 2) = 0 ∧ win0_2.index t (1 : Fin 2) = 0
    ∧ win0_1.index t (0 : Fin 2) ≤ 127 :=
  (by decide +kernel : ∀ t : Fin grid0.N, _)

/-- Every row block is some point's. -/
theorem idx_onto : ∀ q : Fin 128, ∃ t : Fin cfg0.N, win0_1.index t (0 : Fin 2) = q.val :=
  (by decide +kernel : ∀ q : Fin 128, ∃ t : Fin grid0.N, win0_1.index t (0 : Fin 2) = q.val)

/-- A block of 4096 rows whose rows are rows b·4096 … of an array X: the body's first result at an entry is the path
    probability table of X at the same row of X. -/
theorem block_leaf (h1 : Out1) (X : S524288x65.Idx → EReal) (x0 : Vec Ideal S4096x65 .f32) (b : Nat) (hb : b ≤ 127)
    (hx : ∀ (r : Fin 4096) (j : Fin 65), x0 (ix2 r j) = X (ix2 (⟨b * 4096 + r.val, by have := r.isLt; omega⟩ : Fin 524288) j))
    (y : S4096x65.Idx) :
    out0_1 (F := Ideal) x0 y = leafArr X (ix2 (⟨b * 4096 + (y 0).val, by have hy0 : (y 0).val < 4096 := (y 0).isLt; omega⟩ : Fin 524288) (y 1)) := by
  obtain ⟨r, k, rfl⟩ : ∃ (r : Fin 4096) (k : Fin 65), y = ix2 r k := ⟨y 0, y 1, eq_ix2 y⟩
  rw [h1 x0 r k, leafArr_apply]
  exact congrArg (fun v => leaf v k.val) (funext fun j => hx r j)

/-- The same for the node table. -/
theorem block_node (h2 : Out2) (X : S524288x65.Idx → EReal) (x0 : Vec Ideal S4096x65 .f32) (b : Nat) (hb : b ≤ 127)
    (hx : ∀ (r : Fin 4096) (j : Fin 65), x0 (ix2 r j) = X (ix2 (⟨b * 4096 + r.val, by have := r.isLt; omega⟩ : Fin 524288) j))
    (y : S4096x76.Idx) :
    out0_2 (F := Ideal) x0 y = nodeArr X (ix2 (⟨b * 4096 + (y 0).val, by have hy0 : (y 0).val < 4096 := (y 0).isLt; omega⟩ : Fin 524288) (y 1)) := by
  obtain ⟨r, k, rfl⟩ : ∃ (r : Fin 4096) (k : Fin 76), y = ix2 r k := ⟨y 0, y 1, eq_ix2 y⟩
  rw [h2 x0 r k, nodeArr_apply]
  exact congrArg (fun v => node v k.val) (funext fun j => hx r j)

/-- The input block at point t holds rows index·4096 … of the logits. -/
theorem iblk_row (c : Dev nD) (t : Fin cfg0.N) (r : Fin 4096) (j : Fin 65) :
    iblk m c 0 t (ix2 r j)
      = V m c main_arg0 (ix2 (⟨win0_1.index t (0 : Fin 2) * 4096 + r.val, by
          have := (idx_facts t).2.2.2.2.2; have := r.isLt; omega⟩ : Fin 524288) j) := by
  obtain ⟨e0, e1, e2, e3, e4, e5⟩ := idx_facts t
  show V m c main_arg0 (((cfg0.win 0).blk t).view.emb (ix2 r j)) = _
  refine congrArg (V m c main_arg0) (funext fun a => Fin.ext ?_)
  match a with
  | ⟨0, _⟩ =>
    show win0_0.index t (0 : Fin 2) * 4096 + 1 * r.val = win0_1.index t (0 : Fin 2) * 4096 + r.val
    omega
  | ⟨1, _⟩ =>
    show win0_0.index t (1 : Fin 2) * 65 + 1 * j.val = j.val
    omega

/-- WHAT POINT t WRITES BACK to the first result is block t of the path probability table of the logits. -/
theorem flushed1_eq (h1 : Out1) (c : Dev nD) (t : Fin cfg0.N) :
    (dats m 0 c).flushed 1 t = ((cfg0.win 1).blk t).view.read (Elt Ideal) (leafArr (V m c main_arg0)) := by
  rw [flushed1]
  obtain ⟨e0, e1, e2, e3, e4, e5⟩ := idx_facts t
  funext y
  show out0_1 (iblk m c 0 t) y = leafArr (V m c main_arg0) (((cfg0.win 1).blk t).view.emb y)
  have hemb : ((cfg0.win 1).blk t).view.emb y
      = ix2 (⟨win0_1.index t (0 : Fin 2) * 4096 + (y 0).val, by have hy0 : (y 0).val < 4096 := (y 0).isLt; omega⟩ : Fin 524288) (y 1) := by
    funext a; apply Fin.ext
    match a with
    | ⟨0, _⟩ =>
      show win0_1.index t (0 : Fin 2) * 4096 + 1 * (y 0).val = win0_1.index t (0 : Fin 2) * 4096 + (y 0).val
      omega
    | ⟨1, _⟩ =>
      show win0_1.index t (1 : Fin 2) * 65 + 1 * (y 1).val = (y 1).val
      omega
  rw [hemb]
  exact block_leaf h1 (V m c main_arg0) (iblk m c 0 t) (win0_1.index t (0 : Fin 2)) e5 (fun r j => iblk_row m c t r j) y

/-- WHAT POINT t WRITES BACK to the second result is block t of the node table of the logits. -/
theorem flushed2_eq (h2 : Out2) (c : Dev nD) (t : Fin cfg0.N) :
    (dats m 0 c).flushed 2 t = ((cfg0.win 2).blk t).view.read (Elt Ideal) (nodeArr (V m c main_arg0)) := by
  rw [flushed2]
  obtain ⟨e0, e1, e2, e3, e4, e5⟩ := idx_facts t
  funext y
  show out0_2 (iblk m c 0 t) y = nodeArr (V m c main_arg0) (((cfg0.win 2).blk t).view.emb y)
  have hemb : ((cfg0.win 2).blk t).view.emb y
      = ix2 (⟨win0_1.index t (0 : Fin 2) * 4096 + (y 0).val, by have hy0 : (y 0).val < 4096 := (y 0).isLt; omega⟩ : Fin 524288) (y 1) := by
    funext a; apply Fin.ext
    match a with
    | ⟨0, _⟩ =>
      show win0_2.index t (0 : Fin 2) * 4096 + 1 * (y 0).val = win0_1.index t (0 : Fin 2) * 4096 + (y 0).val
      omega
    | ⟨1, _⟩ =>
      show win0_2.index t (1 : Fin 2) * 76 + 1 * (y 1).val = (y 1).val
      omega
  rw [hemb]
  exact block_node h2 (V m c main_arg0) (iblk m c 0 t) (win0_1.index t (0 : Fin 2)) e5 (fun r j => iblk_row m c t r j) y

/-- An index of the first result lies in point t's block iff each coordinate is in the block's range on its axis. -/
theorem mem_blk1 (t : Fin cfg0.N) (i : S524288x65.Idx) :
    i ∈ ((cfg0.win 1).blk t).view.set ↔ ∀ a : Fin 2, win0_1.index t a * S4096x65.size a ≤ (i a).val ∧ (i a).val < win0_1.index t a * S4096x65.size a + S4096x65.size a := by
  show i ∈ ((View.whole main_v0_0).slice (win0_1.rect t)).set ↔ _
  rw [View.set_slice_whole, Rect.mem_set_unit]
  exact Iff.rfl

theorem mem_blk2 (t : Fin cfg0.N) (i : S524288x76.Idx) :
    i ∈ ((cfg0.win 2).blk t).view.set ↔ ∀ a : Fin 2, win0_2.index t a * S4096x76.size a ≤ (i a).val ∧ (i a).val < win0_2.index t a * S4096x76.size a + S4096x76.size a := by
  show i ∈ ((View.whole main_v0_1).slice (win0_2.rect t)).set ↔ _
  rw [View.set_slice_whole, Rect.mem_set_unit]
  exact Iff.rfl

/-- Every entry of the first result lies in some point's block: row r in block r / 4096. -/
theorem cover1 (i : S524288x65.Idx) : ∃ t : Fin cfg0.N, (cfg0.win 1).flush t = true ∧ i ∈ ((cfg0.win 1).blk t).view.set := by
  have hi0 : (i 0).val < 524288 := (i 0).isLt
  have hi1 : (i 1).val < 65 := (i 1).isLt
  obtain ⟨t, ht⟩ := idx_onto ⟨(i 0).val / 4096, by omega⟩
  have q0 : win0_1.index t (0 : Fin 2) = (i 0).val / 4096 := ht
  obtain ⟨e0, e1, e2, e3, e4, e5⟩ := idx_facts t
  refine ⟨t, flush0_1 t, ?_⟩
  rw [mem_blk1]
  intro a
  match a with
  | ⟨0, _⟩ => show win0_1.index t (0 : Fin 2) * 4096 ≤ (i 0).val ∧ (i 0).val < win0_1.index t (0 : Fin 2) * 4096 + 4096; omega
  | ⟨1, _⟩ => show win0_1.index t (1 : Fin 2) * 65 ≤ (i 1).val ∧ (i 1).val < win0_1.index t (1 : Fin 2) * 65 + 65; omega

/-- Every entry of the second result lies in some point's block. -/
theorem cover2 (i : S524288x76.Idx) : ∃ t : Fin cfg0.N, (cfg0.win 2).flush t = true ∧ i ∈ ((cfg0.win 2).blk t).view.set := by
  have hi0 : (i 0).val < 524288 := (i 0).isLt
  have hi1 : (i 1).val < 76 := (i 1).isLt
  obtain ⟨t, ht⟩ := idx_onto ⟨(i 0).val / 4096, by omega⟩
  have q0 : win0_1.index t (0 : Fin 2) = (i 0).val / 4096 := ht
  obtain ⟨e0, e1, e2, e3, e4, e5⟩ := idx_facts t
  refine ⟨t, flush0_2 t, ?_⟩
  rw [mem_blk2]
  intro a
  match a with
  | ⟨0, _⟩ => show win0_2.index t (0 : Fin 2) * 4096 ≤ (i 0).val ∧ (i 0).val < win0_2.index t (0 : Fin 2) * 4096 + 4096; omega
  | ⟨1, _⟩ => show win0_2.index t (1 : Fin 2) * 76 ≤ (i 1).val ∧ (i 1).val < win0_2.index t (1 : Fin 2) * 76 + 76; omega

/-- After the run the first result is the path probability table of the logits as launched. -/
theorem final1 (h1 : Out1) (c : Dev nD) :
    (dats m 0 c).arrAt 1 cfg0.N = leafArr (m ((c : Thread nD τ).loc main_arg0)) :=
  (dats m 0 c).arrAt_eq_of_cover 1 (leafArr (V m c main_arg0)) (fun t _ => flushed1_eq m h1 c t) cover1

/-- After the run the second result is the node table of the logits as launched. -/
theorem final2 (h2 : Out2) (c : Dev nD) :
    (dats m 0 c).arrAt 2 cfg0.N = nodeArr (m ((c : Thread nD τ).loc main_arg0)) :=
  (dats m 0 c).arrAt_eq_of_cover 2 (nodeArr (V m c main_arg0)) (fun t _ => flushed2_eq m h2 c t) cover2

/-- THE RUN, READ: every weakly fair execution of the kernel's program terminates with the two results at the two tables
    of the logits, the logits unchanged. -/
theorem run (h1 : Out1) (h2 : Out2) :
    θ_run defs (onTc (τ := τ) (main (F := Ideal))) ⟨m, fun _ => 0, ρ⟩ fun r => ∀ c : Dev nD,
      r.2.mem ((c : Thread nD τ).loc main_v0_0) = leafArr (m ((c : Thread nD τ).loc main_arg0))
      ∧ r.2.mem ((c : Thread nD τ).loc main_v0_1) = nodeArr (m ((c : Thread nD τ).loc main_arg0))
      ∧ r.2.mem ((c : Thread nD τ).loc main_arg0) = m ((c : Thread nD τ).loc main_arg0) :=
  (θ_run defs _ _).mono (fun r h c => ⟨(h c).1.trans (final1 m h1 c), (h c).2.1.trans (final2 m h2 c), (h c).2.2⟩)
    (run_blocks m ρ)

end Cert.KernelValue

end
-- ==== Proof.LibLocalEq.lean ====
/- A straight line of host operations in single-assignment form, read one operation at a time.

   `StableHlo.after l V` is what the buffers hold once the operations `l` have run in order from contents `V`. When operation
   `n` of the line writes exactly the reference `W[n]`, and the references `W` carry strictly increasing numbers
   (`key`: a reference's index in its space), the final contents satisfy each operation's own equation: an operation
   `y := f x` whose operand has a smaller number than its result (so it is written earlier, or never) ends with
   `after l V y = f (after l V x)` — the operand is not written again after it is read, and the result is not written
   again after it is made. With one such equation per operation, what a buffer holds at the end is read back through
   exactly the operations that lead to it, by rewriting, without unfolding the rest of the line. Nothing here depends on a
   particular program, topology or signature. -/
import Idealize.ShloMosaic.Lib.StableHlo.Run

noncomputable section

namespace Cert.LibLocalEq

open Idealize.ShloMosaic Idealize.ShloMosaic.StableHlo Idealize.SL.Sem

variable {τ : Topo} {sig : RefSig} {Val : EltTy → Type}

/-- The fold over joined lists is the folds in turn. -/
theorem after_join (l₁ l₂ : List (HloOp τ sig Val)) (V : Valuation τ sig Val) :
    after (l₁ ++ l₂) V = after l₂ (after l₁ V) := by
  induction l₁ generalizing V with
  | nil => rfl
  | cons op l ih => rw [List.cons_append, after_cons, after_cons, ih]

/-- The operation writes exactly the reference `y`. -/
def WritesRef (op : HloOp τ sig Val) (y : Ref sig .tc) : Prop := op.writes = {Proc.devRef (τ := τ) .tc y}

/-- A line whose operations write, one each and in order, the references `W` leaves every other reference alone. -/
theorem after_keep {l : List (HloOp τ sig Val)} {W : List (Ref sig .tc)} (h : List.Forall₂ WritesRef l W) {r : Ref sig .tc}
    (hr : r ∉ W) (V : Valuation τ sig Val) : after l V (Proc.devRef .tc r) = V (Proc.devRef .tc r) := by
  induction h generalizing V with
  | nil => rfl
  | @cons op y l W hop _ ih =>
    rw [after_cons, ih (fun hm => hr (List.mem_cons_of_mem _ hm)),
      op.result_of_not_mem V (by
        rw [hop, Finset.mem_singleton]
        exact devRef_ne_of_ne fun e => hr (e ▸ List.mem_cons_self))]

/-- A reference's number: its index in its memory space. -/
def key (r : Ref sig .tc) : Nat := r.idx.val

/-- A line in single-assignment form: operation `n` writes exactly the reference `W[n]`, and the references' numbers
    increase strictly along `W`. -/
structure Numbered (l : List (HloOp τ sig Val)) (W : List (Ref sig .tc)) : Prop where
  writes : List.Forall₂ WritesRef l W
  keys : (W.map key).Pairwise (· < ·)

/-- The numbers `base, base + 1, …` in order are strictly increasing: the usual way to give `Numbered.keys` for a literal
    list (the equation by `decide`). -/
theorem Numbered.of_range {l : List (HloOp τ sig Val)} {W : List (Ref sig .tc)} (hw : List.Forall₂ WritesRef l W) (base : Nat)
    (hk : W.map key = List.range' base W.length) : Numbered l W :=
  ⟨hw, hk ▸ List.pairwise_lt_range'⟩

/-- A reference numbered no higher than the `n`-th written one is not written after it. -/
theorem not_mem_drop {W : List (Ref sig .tc)} (hk : (W.map key).Pairwise (· < ·)) {n : Nat} {y : Ref sig .tc} (hy : W[n]? = some y)
    {r : Ref sig .tc} (hr : key r ≤ key y) : r ∉ W.drop (n + 1) := by
  intro hm
  obtain ⟨i, hi⟩ := List.mem_iff_getElem?.mp hm
  rw [List.getElem?_drop] at hi
  obtain ⟨hn, rfl⟩ := List.getElem?_eq_some_iff.mp hy
  obtain ⟨hj, rfl⟩ := List.getElem?_eq_some_iff.mp hi
  have h := List.pairwise_iff_getElem.mp hk n (n + 1 + i) (by simpa using hn) (by simpa using hj) (by omega)
  simp only [List.getElem_map] at h
  omega

variable {l : List (HloOp τ sig Val)} {W : List (Ref sig .tc)}

/-- The contents of a lower-numbered reference when operation `n` runs are its final contents. -/
theorem after_take (hN : Numbered l W) {n : Nat} {y : Ref sig .tc} (hy : W[n]? = some y) {x : Ref sig .tc} (hx : key x < key y)
    (V : Valuation τ sig Val) : after (l.take n) V (Proc.devRef .tc x) = after l V (Proc.devRef .tc x) := by
  conv_rhs => rw [← List.take_append_drop n l, after_join]
  refine (after_keep (List.forall₂_drop n hN.writes) ?_ _).symm
  obtain ⟨hn, e⟩ := List.getElem?_eq_some_iff.mp hy
  rw [List.drop_eq_getElem_cons hn, e, List.mem_cons, not_or]
  exact ⟨fun h => by rw [h] at hx; exact Nat.lt_irrefl _ hx, not_mem_drop hN.keys hy (Nat.le_of_lt hx)⟩

/-- What operation `n` leaves at the reference it writes is that reference's final contents. -/
theorem after_at (hN : Numbered l W) {n : Nat} {op : HloOp τ sig Val} (hn : l[n]? = some op) {y : Ref sig .tc} (hy : W[n]? = some y)
    (V : Valuation τ sig Val) :
    after l V (Proc.devRef .tc y) = op.result (after (l.take n) V) (Proc.devRef .tc y) := by
  obtain ⟨hlt, rfl⟩ := List.getElem?_eq_some_iff.mp hn
  conv_lhs => rw [← List.take_append_drop n l, after_join, List.drop_eq_getElem_cons hlt, after_cons]
  exact after_keep (List.forall₂_drop (n + 1) hN.writes) (not_mem_drop hN.keys hy (Nat.le_refl _)) _

/-! ## One equation per operation, by the builder's arity

For operation `n` of a numbered line, given as a literal builder: `hn` and `hy` by `rfl` (the `n`-th operation and
the `n`-th written reference), each operand's `key x < key y` by `decide`. -/

theorem eq_nullary (hN : Numbered l W) {n : Nat} {y : Ref sig .tc} {v : y.ty.Contents Val} {hy'}
    (hn : l[n]? = some (nullary (τ := τ) y v hy')) (hy : W[n]? = some y) (V : Valuation τ sig Val) :
    after l V (Proc.devRef .tc y) = v := by
  rw [after_at hN hn hy, nullary_result]

theorem eq_unary (hN : Numbered l W) {n : Nat} {x y : Ref sig .tc} {f : x.ty.Contents Val → y.ty.Contents Val} {hx' hy'}
    (hn : l[n]? = some (unary (τ := τ) x y f hx' hy')) (hy : W[n]? = some y) (hx : key x < key y) (V : Valuation τ sig Val) :
    after l V (Proc.devRef .tc y) = f (after l V (Proc.devRef .tc x)) := by
  rw [after_at hN hn hy, unary_result, after_take hN hy hx]

theorem eq_binary (hN : Numbered l W) {n : Nat} {a b y : Ref sig .tc}
    {f : a.ty.Contents Val → b.ty.Contents Val → y.ty.Contents Val} {ha' hb' hy'}
    (hn : l[n]? = some (binary (τ := τ) a b y f ha' hb' hy')) (hy : W[n]? = some y) (ha : key a < key y) (hb : key b < key y)
    (V : Valuation τ sig Val) :
    after l V (Proc.devRef .tc y) = f (after l V (Proc.devRef .tc a)) (after l V (Proc.devRef .tc b)) := by
  rw [after_at hN hn hy, binary_result, after_take hN hy ha, after_take hN hy hb]

theorem eq_ternary (hN : Numbered l W) {n : Nat} {c a b y : Ref sig .tc}
    {f : c.ty.Contents Val → a.ty.Contents Val → b.ty.Contents Val → y.ty.Contents Val} {hc' ha' hb' hy'}
    (hn : l[n]? = some (ternary (τ := τ) c a b y f hc' ha' hb' hy')) (hy : W[n]? = some y) (hc : key c < key y) (ha : key a < key y)
    (hb : key b < key y) (V : Valuation τ sig Val) :
    after l V (Proc.devRef .tc y)
      = f (after l V (Proc.devRef .tc c)) (after l V (Proc.devRef .tc a)) (after l V (Proc.devRef .tc b)) := by
  rw [after_at hN hn hy, ternary_result, after_take hN hy hc, after_take hN hy ha, after_take hN hy hb]

theorem eq_quaternary (hN : Numbered l W) {n : Nat} {a b c e y : Ref sig .tc}
    {f : a.ty.Contents Val → b.ty.Contents Val → c.ty.Contents Val → e.ty.Contents Val → y.ty.Contents Val} {ha' hb' hc' he' hy'}
    (hn : l[n]? = some (quaternary (τ := τ) a b c e y f ha' hb' hc' he' hy')) (hy : W[n]? = some y) (ha : key a < key y)
    (hb : key b < key y) (hc : key c < key y) (he : key e < key y) (V : Valuation τ sig Val) :
    after l V (Proc.devRef .tc y)
      = f (after l V (Proc.devRef .tc a)) (after l V (Proc.devRef .tc b)) (after l V (Proc.devRef .tc c))
          (after l V (Proc.devRef .tc e)) := by
  rw [after_at hN hn hy, quaternary_result, after_take hN hy ha, after_take hN hy hb, after_take hN hy hc, after_take hN hy he]

theorem eq_reshape (hN : Numbered l W) {n : Nat} {x y : Ref sig .tc} {he : x.ty.elt = y.ty.elt}
    {hs : x.ty.shape.ShapeCasts y.ty.shape} {hx' hy'}
    (hn : l[n]? = some (reshape (τ := τ) (Val := Val) x y he hs hx' hy')) (hy : W[n]? = some y) (hx : key x < key y)
    (V : Valuation τ sig Val) :
    after l V (Proc.devRef .tc y) = fun i => he ▸ shapeCast y.ty.shape (after l V (Proc.devRef .tc x)) hs i := by
  rw [after_at hN hn hy, reshape_result, after_take hN hy hx]

end Cert.LibLocalEq

end
-- ==== Proof.LibLocalNary.lean ====
/-
  A straight line of host operations in single-assignment form, read at an operation of several operands.

  For a line whose operations write references of strictly increasing numbers, an operation y := f (x₀, …, xₖ₋₁) over a
  family of operand references, each numbered below its result, ends with the result holding f of the operands' final
  contents: none of the operands is written again after it is read, nor the result after it is made. This is the
  several-operand companion of the one-, two- and three-operand equations.
-/
import proofs.«152243_j47253230191392_2_alg».proof.Proof.LibLocalEq

noncomputable section

namespace Cert.LibLocalNary

open Idealize.ShloMosaic Idealize.ShloMosaic.StableHlo Idealize.SL.Sem Cert.LibLocalEq

variable {τ : Topo} {sig : RefSig} {Val : EltTy → Type} {l : List (HloOp τ sig Val)} {W : List (Ref sig .tc)}

theorem eq_nary (hN : Numbered l W) {n k : Nat} {xs : Fin k → Ref sig .tc} {y : Ref sig .tc}
    {f : ((j : Fin k) → (xs j).ty.Contents Val) → y.ty.Contents Val} {hxs hy'}
    (hn : l[n]? = some (nary (τ := τ) xs y f hxs hy')) (hy : W[n]? = some y) (hx : ∀ j, key (xs j) < key y)
    (V : Valuation τ sig Val) :
    after l V (Proc.devRef .tc y) = f (fun j => after l V (Proc.devRef .tc (xs j))) := by
  rw [after_at hN hn hy, nary_result]
  exact congrArg f (funext fun j => after_take hN hy (hx j) V)

end Cert.LibLocalNary

end
-- ==== Proof.LibHostRowSum.lean ====
/-
  The host's sum over each row of a matrix, read at a row.

  The host sums the last axis of an [a, c] matrix by a reduce whose body is an addition, from an initial value held in a
  rank-0 array. Over the extended reals that is, at row p, the initial value plus the sum of the c entries (p, q) of the row.
  Generic in a and c; the witness that names the inserted coordinate is an argument.
-/
import Idealize.ShloMosaic.PureOps.Ideal.Laws
import Idealize.ShloMosaic.Lib.ValueIdx

noncomputable section

open scoped BigOperators

namespace Cert.LibHostRowSum

open Idealize.ShloMosaic Idealize.ShloMosaic.ValueIdx

/-- The host's add-reduce over the last axis of [a, c], from the initial value `init`, at row `p`. -/
theorem host_sum_last_apply {a c : Nat} {u : Shape} (x : FVec Ideal ⟨2, ![a, c]⟩ .f32) (init : u.Idx → Ideal .f32)
    (h' : (⟨2, ![a, c]⟩ : Shape).ReducesTo [1] ⟨1, ![a]⟩) (h : (⟨2, ![a, c]⟩ : Shape).Reduces [1] ⟨1, ![a]⟩)
    (hu : 0 < u.numel) (p : Fin a) :
    Host.reduceAdd x init h' hu (ix1 p) = init (Shape.Idx.first hu) + ∑ q : Fin c, x (ix2 p q) := by
  simp only [Host.reduceAdd, Ideal.hostReduceAdd_def]
  rw [Ideal.hostReduceAdd_single h' h]
  refine congrArg (_ + ·) (Finset.sum_congr rfl fun q _ => ?_)
  exact congrArg x (funext fun ax => Fin.ext (by
    match ax with
    | ⟨0, _⟩ => rfl
    | ⟨1, _⟩ => rfl))

end Cert.LibHostRowSum

end
-- ==== Proof.LibHostBroadcast.lean ====
/-
  Host broadcasts of a column, of a row and of a scalar, read at an index given by coordinates.

  `broadcast_in_dim` moves no data. A column [a, 1] broadcast over b columns has, at (p, c), the column's entry (p, 0);
  a row [1, b] broadcast over a rows has, at (p, c), the row's entry (0, c); a vector [b] placed as the row [1, b] has,
  at (u, c), the vector's entry c; a scalar broadcast to any shape has the scalar everywhere. Composed: a vector [a]
  kept as a column and spread over the columns reads its entry p at (p, c), a vector [b] placed as a row and spread
  over the rows reads its entry c. Generic in the extents; the axis maps are passed with their values.
-/
import Idealize.ShloMosaic.Lib.Pipeline.Value
import Idealize.ShloMosaic.Lib.ValueIdx

namespace Cert.LibHostBroadcast

open Idealize.ShloMosaic Idealize.ShloMosaic.ValueIdx

variable {α : Type}

/-- An [a, 1] column broadcast (axes kept in place) over b columns reads, at (p, c), the column at (p, 0). -/
theorem bcast_a1_ab_apply {a b : ℕ} (dims : Fin (⟨2, ![a, 1]⟩ : Shape).rank → Fin (⟨2, ![a, b]⟩ : Shape).rank)
    (hd0 : dims ⟨0, Nat.succ_pos 1⟩ = ⟨0, Nat.succ_pos 1⟩)
    (h : (⟨2, ![a, 1]⟩ : Shape).BroadcastsInDim ⟨2, ![a, b]⟩ dims) (x : (⟨2, ![a, 1]⟩ : Shape).Idx → α)
    (p : Fin a) (c : Fin b) : broadcastInDim ⟨2, ![a, b]⟩ dims h x (ix2 p c) = x (ix2 p (0 : Fin 1)) := by
  refine broadcastInDim_apply dims h x (ix2 p c) (ix2 p (0 : Fin 1)) fun ax => ?_
  match ax with
  | ⟨0, _⟩ =>
    show p.val = if a = 1 then 0 else (ix2 p c (dims ⟨0, Nat.succ_pos 1⟩)).val
    rw [hd0]
    show p.val = if a = 1 then 0 else p.val
    split
    · have := p.isLt; omega
    · rfl
  | ⟨1, _⟩ => rfl

/-- A [1, b] row broadcast (axes kept in place) over a rows reads, at (p, c), the row at (0, c). -/
theorem bcast_1b_ab_apply {a b : ℕ} (dims : Fin (⟨2, ![1, b]⟩ : Shape).rank → Fin (⟨2, ![a, b]⟩ : Shape).rank)
    (hd1 : dims ⟨1, Nat.lt_succ_self 1⟩ = ⟨1, Nat.lt_succ_self 1⟩)
    (h : (⟨2, ![1, b]⟩ : Shape).BroadcastsInDim ⟨2, ![a, b]⟩ dims) (x : (⟨2, ![1, b]⟩ : Shape).Idx → α)
    (p : Fin a) (c : Fin b) : broadcastInDim ⟨2, ![a, b]⟩ dims h x (ix2 p c) = x (ix2 (0 : Fin 1) c) := by
  refine broadcastInDim_apply dims h x (ix2 p c) (ix2 (0 : Fin 1) c) fun ax => ?_
  match ax with
  | ⟨0, _⟩ => rfl
  | ⟨1, _⟩ =>
    show c.val = if b = 1 then 0 else (ix2 p c (dims ⟨1, Nat.lt_succ_self 1⟩)).val
    rw [hd1]
    show c.val = if b = 1 then 0 else c.val
    split
    · have := c.isLt; omega
    · rfl

/-- A vector [b] placed along axis 1 of a [1, b] row reads, at (u, c), the vector at c. -/
theorem bcast_b_1b_apply {b : ℕ} (dims : Fin (⟨1, ![b]⟩ : Shape).rank → Fin (⟨2, ![1, b]⟩ : Shape).rank)
    (hd : dims ⟨0, Nat.one_pos⟩ = ⟨1, Nat.lt_succ_self 1⟩)
    (h : (⟨1, ![b]⟩ : Shape).BroadcastsInDim ⟨2, ![1, b]⟩ dims) (x : (⟨1, ![b]⟩ : Shape).Idx → α)
    (u : Fin 1) (c : Fin b) : broadcastInDim ⟨2, ![1, b]⟩ dims h x (ix2 u c) = x (ix1 c) := by
  refine broadcastInDim_apply dims h x (ix2 u c) (ix1 c) fun ax => ?_
  match ax with
  | ⟨0, _⟩ =>
    show c.val = if b = 1 then 0 else (ix2 u c (dims ⟨0, Nat.one_pos⟩)).val
    rw [hd]
    show c.val = if b = 1 then 0 else c.val
    split
    · have := c.isLt; omega
    · rfl

/-- A vector [a] placed along axis 0 of an [a, 1] column reads, at (p, u), the vector at p. -/
theorem bcast_a_a1_apply {a : ℕ} (dims : Fin (⟨1, ![a]⟩ : Shape).rank → Fin (⟨2, ![a, 1]⟩ : Shape).rank)
    (hd : dims ⟨0, Nat.one_pos⟩ = ⟨0, Nat.succ_pos 1⟩)
    (h : (⟨1, ![a]⟩ : Shape).BroadcastsInDim ⟨2, ![a, 1]⟩ dims) (x : (⟨1, ![a]⟩ : Shape).Idx → α)
    (p : Fin a) (u : Fin 1) : broadcastInDim ⟨2, ![a, 1]⟩ dims h x (ix2 p u) = x (ix1 p) := by
  refine broadcastInDim_apply dims h x (ix2 p u) (ix1 p) fun ax => ?_
  match ax with
  | ⟨0, _⟩ =>
    show p.val = if a = 1 then 0 else (ix2 p u (dims ⟨0, Nat.one_pos⟩)).val
    rw [hd]
    show p.val = if a = 1 then 0 else p.val
    split
    · have := p.isLt; omega
    · rfl

/-- A scalar broadcast to any shape is the scalar at every index. -/
theorem bcast_scalar_apply {t : Shape} (dims : Fin (⟨0, ![]⟩ : Shape).rank → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 fun ax => ax.elim0

end Cert.LibHostBroadcast
-- ==== Proof.RefHost.lean ====
/-
  The host's softmax and mean of the rows of a matrix, read at an entry.

  A reference spells the softmax of each row of an [N, c] matrix s in eleven steps: the row's largest entry, folded
  from the word of minus infinity; that vector met once more with a vector of minus infinities; kept as a column and
  spread over the c columns; subtracted from s; exponentiated; summed along each row from the zero word; the sums kept
  as a column and spread over the columns; the exponentials divided by them. Over the extended reals entry (p, k) of
  the result is the softmax of row p of s at k, exactly as the specification spells it. The mean of each row is the
  row's sum from the zero word divided by a vector holding the word of the row's length.

  Each statement takes every intermediate array as a variable together with the equation that defines it, so it applies
  to a program whose steps are known one equation at a time. Generic in N and c.
-/
import Idealize.ShloMosaic.Lib.Pipeline.Value
import Idealize.ShloMosaic.Lib.ValueIdx
import Idealize.ShloMosaic.PureOps.Ideal.Laws
import proofs.«152243_j47253230191392_2_alg».proof.Proof.Spec
import proofs.«152243_j47253230191392_2_alg».proof.Proof.LibRowMax
import proofs.«152243_j47253230191392_2_alg».proof.Proof.LibHostRowSum
import proofs.«152243_j47253230191392_2_alg».proof.Proof.LibHostBroadcast
import proofs.«152243_j47253230191392_2_alg».proof.Proof.LibCatCols

noncomputable section

open scoped BigOperators

namespace Cert.RefHost

open Idealize.ShloMosaic Idealize.ShloMosaic.ValueIdx
open Cert.LibRowMax Cert.LibHostRowSum Cert.LibHostBroadcast

/-- A reduction that leaves at least one axis is a reduction in the stricter sense as well. -/
theorem reduces_of_reducesTo {s t : Shape} {axes : List (Fin s.rank)} (h : s.ReducesTo axes t) (ht : 0 < t.rank) :
    s.Reduces axes t := ⟨h.1, ht, h.2⟩

/-- Row p of a matrix. -/
abbrev row {N c : Nat} (s : FVec Ideal ⟨2, ![N, c]⟩ .f32) (p : Fin N) : Fin c → EReal := fun j => s (ix2 p j)

section
variable {N c : Nat}

/-- The row maximum as the host takes it: folded from minus infinity, then met with a vector of minus infinities. -/
theorem host_rmax {s : FVec Ideal ⟨2, ![N, c]⟩ .f32} {cst cst' : FVec Ideal ⟨0, ![]⟩ .f32}
    {v1 v2 v3 : FVec Ideal ⟨1, ![N]⟩ .f32}
    {hr : (⟨2, ![N, c]⟩ : Shape).ReducesTo [1] ⟨1, ![N]⟩} {hu : 0 < (⟨0, ![]⟩ : Shape).numel}
    {d0 : Fin (⟨0, ![]⟩ : Shape).rank → Fin (⟨1, ![N]⟩ : Shape).rank}
    {hb0 : (⟨0, ![]⟩ : Shape).BroadcastsInDim ⟨1, ![N]⟩ d0}
    (ecst : cst = constant ⟨0, ![]⟩ .f32 0xFF800000#32)
    (e1 : v1 = Host.reduce (FloatOps.maximumf (F := Ideal) (φ := .f32)) s cst hr hu)
    (ecst' : cst' = constant ⟨0, ![]⟩ .f32 0xFF800000#32)
    (e2 : v2 = broadcastInDim ⟨1, ![N]⟩ d0 hb0 cst')
    (e3 : v3 = maximumf v2 v1) (p : Fin N) :
    v3 (ix1 p) = Spec.rmax (row s p) := by
  subst ecst e1 ecst' e2 e3
  show max (broadcastInDim ⟨1, ![N]⟩ d0 hb0 (constant (F := Ideal) ⟨0, ![]⟩ .f32 0xFF800000#32) (ix1 p))
      (Host.reduce (FloatOps.maximumf (F := Ideal) (φ := .f32)) s (constant ⟨0, ![]⟩ .f32 0xFF800000#32) hr hu (ix1 p))
    = Spec.rmax (row s p)
  rw [bcast_scalar_apply d0 hb0 _ (ix1 p),
    host_max_last_apply s _ hr (reduces_of_reducesTo hr Nat.one_pos) hu p]
  rfl

/-- THE HOST'S SOFTMAX AT (p, k): with the row maximum's vector v3 known at every row, the eight remaining steps give
    the specification's softmax of row p at k. -/
theorem host_soft_of_max {s : FVec Ideal ⟨2, ![N, c]⟩ .f32} {cst4 : FVec Ideal ⟨0, ![]⟩ .f32}
    {v3 v8 : FVec Ideal ⟨1, ![N]⟩ .f32} {v4 v9 : FVec Ideal ⟨2, ![N, 1]⟩ .f32}
    {v5 v6 v7 v10 v11 : FVec Ideal ⟨2, ![N, c]⟩ .f32}
    {hr : (⟨2, ![N, c]⟩ : Shape).ReducesTo [1] ⟨1, ![N]⟩} {hu : 0 < (⟨0, ![]⟩ : Shape).numel}
    {d1 : Fin (⟨1, ![N]⟩ : Shape).rank → Fin (⟨2, ![N, 1]⟩ : Shape).rank}
    {hb1 : (⟨1, ![N]⟩ : Shape).BroadcastsInDim ⟨2, ![N, 1]⟩ d1}
    {d2 : Fin (⟨2, ![N, 1]⟩ : Shape).rank → Fin (⟨2, ![N, c]⟩ : Shape).rank}
    {hb2 : (⟨2, ![N, 1]⟩ : Shape).BroadcastsInDim ⟨2, ![N, c]⟩ d2}
    (h3 : ∀ p : Fin N, v3 (ix1 p) = Spec.rmax (row s p))
    (e4 : v4 = broadcastInDim ⟨2, ![N, 1]⟩ d1 hb1 v3)
    (e5 : v5 = broadcastInDim ⟨2, ![N, c]⟩ d2 hb2 v4)
    (e6 : v6 = subf s v5) (e7 : v7 = Host.exp v6)
    (ecst4 : cst4 = constant ⟨0, ![]⟩ .f32 0x00000000#32)
    (e8 : v8 = Host.reduceAdd v7 cst4 hr hu)
    (e9 : v9 = broadcastInDim ⟨2, ![N, 1]⟩ d1 hb1 v8)
    (e10 : v10 = broadcastInDim ⟨2, ![N, c]⟩ d2 hb2 v9)
    (e11 : v11 = Host.divf v7 v10)
    (hd1 : d1 ⟨0, Nat.one_pos⟩ = ⟨0, Nat.succ_pos 1⟩) (hd2 : d2 ⟨0, Nat.succ_pos 1⟩ = ⟨0, Nat.succ_pos 1⟩)
    (p : Fin N) (k : Fin c) :
    v11 (ix2 p k) = Spec.soft (row s p) k := by
  have h5 : ∀ q : Fin c, v5 (ix2 p q) = Spec.rmax (row s p) := fun q => by
    rw [e5, bcast_a1_ab_apply d2 hd2 hb2 v4 p q, e4, bcast_a_a1_apply d1 hd1 hb1 v3 p 0]
    exact h3 p
  have h7 : ∀ q : Fin c, v7 (ix2 p q) = Ideal.exp (row s p q - Spec.rmax (row s p)) := fun q => by
    rw [e7, e6]
    show Ideal.exp (s (ix2 p q) - v5 (ix2 p q)) = _
    rw [h5 q]
  have h10 : v10 (ix2 p k) = Spec.rsum fun q => Ideal.exp (row s p q - Spec.rmax (row s p)) := by
    rw [e10, bcast_a1_ab_apply d2 hd2 hb2 v9 p k, e9, bcast_a_a1_apply d1 hd1 hb1 v8 p 0, e8,
      host_sum_last_apply v7 cst4 hr (reduces_of_reducesTo hr Nat.one_pos) hu p, ecst4]
    show Ideal.ofBits .f32 0x00000000#32 + ∑ q : Fin c, v7 (ix2 p q) = _
    rw [Ideal.ofBits_zero_f32, zero_add]
    exact Finset.sum_congr rfl fun q _ => h7 q
  rw [e11]
  show Ideal.div (v7 (ix2 p k)) (v10 (ix2 p k)) = _
  rw [h7 k, h10]
  rfl

/-- THE HOST'S SOFTMAX AT (p, k), all eleven steps. -/
theorem host_soft {s : FVec Ideal ⟨2, ![N, c]⟩ .f32} {cst cst' cst4 : FVec Ideal ⟨0, ![]⟩ .f32}
    {v1 v2 v3 v8 : FVec Ideal ⟨1, ![N]⟩ .f32} {v4 v9 : FVec Ideal ⟨2, ![N, 1]⟩ .f32}
    {v5 v6 v7 v10 v11 : FVec Ideal ⟨2, ![N, c]⟩ .f32}
    {hr : (⟨2, ![N, c]⟩ : Shape).ReducesTo [1] ⟨1, ![N]⟩} {hu : 0 < (⟨0, ![]⟩ : Shape).numel}
    {d0 : Fin (⟨0, ![]⟩ : Shape).rank → Fin (⟨1, ![N]⟩ : Shape).rank}
    {hb0 : (⟨0, ![]⟩ : Shape).BroadcastsInDim ⟨1, ![N]⟩ d0}
    {d1 : Fin (⟨1, ![N]⟩ : Shape).rank → Fin (⟨2, ![N, 1]⟩ : Shape).rank}
    {hb1 : (⟨1, ![N]⟩ : Shape).BroadcastsInDim ⟨2, ![N, 1]⟩ d1}
    {d2 : Fin (⟨2, ![N, 1]⟩ : Shape).rank → Fin (⟨2, ![N, c]⟩ : Shape).rank}
    {hb2 : (⟨2, ![N, 1]⟩ : Shape).BroadcastsInDim ⟨2, ![N, c]⟩ d2}
    (ecst : cst = constant ⟨0, ![]⟩ .f32 0xFF800000#32)
    (e1 : v1 = Host.reduce (FloatOps.maximumf (F := Ideal) (φ := .f32)) s cst hr hu)
    (ecst' : cst' = constant ⟨0, ![]⟩ .f32 0xFF800000#32)
    (e2 : v2 = broadcastInDim ⟨1, ![N]⟩ d0 hb0 cst')
    (e3 : v3 = maximumf v2 v1)
    (e4 : v4 = broadcastInDim ⟨2, ![N, 1]⟩ d1 hb1 v3)
    (e5 : v5 = broadcastInDim ⟨2, ![N, c]⟩ d2 hb2 v4)
    (e6 : v6 = subf s v5) (e7 : v7 = Host.exp v6)
    (ecst4 : cst4 = constant ⟨0, ![]⟩ .f32 0x00000000#32)
    (e8 : v8 = Host.reduceAdd v7 cst4 hr hu)
    (e9 : v9 = broadcastInDim ⟨2, ![N, 1]⟩ d1 hb1 v8)
    (e10 : v10 = broadcastInDim ⟨2, ![N, c]⟩ d2 hb2 v9)
    (e11 : v11 = Host.divf v7 v10)
    (hd1 : d1 ⟨0, Nat.one_pos⟩ = ⟨0, Nat.succ_pos 1⟩) (hd2 : d2 ⟨0, Nat.succ_pos 1⟩ = ⟨0, Nat.succ_pos 1⟩)
    (p : Fin N) (k : Fin c) :
    v11 (ix2 p k) = Spec.soft (row s p) k :=
  host_soft_of_max (fun p => host_rmax ecst e1 ecst' e2 e3 p) e4 e5 e6 e7 ecst4 e8 e9 e10 e11 hd1 hd2 p k

/-- THE HOST'S SOFTMAX OF A ONE-COLUMN MATRIX AT (p, k): the same steps, the column of maxima and the column of sums
    used as they are, with no second spreading. -/
theorem host_soft_col {s : FVec Ideal ⟨2, ![N, 1]⟩ .f32} {cst cst' cst4 : FVec Ideal ⟨0, ![]⟩ .f32}
    {v1 v2 v3 v8 : FVec Ideal ⟨1, ![N]⟩ .f32} {v4 v6 v7 v9 v11 : FVec Ideal ⟨2, ![N, 1]⟩ .f32}
    {hr : (⟨2, ![N, 1]⟩ : Shape).ReducesTo [1] ⟨1, ![N]⟩} {hu : 0 < (⟨0, ![]⟩ : Shape).numel}
    {d0 : Fin (⟨0, ![]⟩ : Shape).rank → Fin (⟨1, ![N]⟩ : Shape).rank}
    {hb0 : (⟨0, ![]⟩ : Shape).BroadcastsInDim ⟨1, ![N]⟩ d0}
    {d1 : Fin (⟨1, ![N]⟩ : Shape).rank → Fin (⟨2, ![N, 1]⟩ : Shape).rank}
    {hb1 : (⟨1, ![N]⟩ : Shape).BroadcastsInDim ⟨2, ![N, 1]⟩ d1}
    (ecst : cst = constant ⟨0, ![]⟩ .f32 0xFF800000#32)
    (e1 : v1 = Host.reduce (FloatOps.maximumf (F := Ideal) (φ := .f32)) s cst hr hu)
    (ecst' : cst' = constant ⟨0, ![]⟩ .f32 0xFF800000#32)
    (e2 : v2 = broadcastInDim ⟨1, ![N]⟩ d0 hb0 cst')
    (e3 : v3 = maximumf v2 v1)
    (e4 : v4 = broadcastInDim ⟨2, ![N, 1]⟩ d1 hb1 v3)
    (e6 : v6 = subf s v4) (e7 : v7 = Host.exp v6)
    (ecst4 : cst4 = constant ⟨0, ![]⟩ .f32 0x00000000#32)
    (e8 : v8 = Host.reduceAdd v7 cst4 hr hu)
    (e9 : v9 = broadcastInDim ⟨2, ![N, 1]⟩ d1 hb1 v8)
    (e11 : v11 = Host.divf v7 v9) (hd1 : d1 ⟨0, Nat.one_pos⟩ = ⟨0, Nat.succ_pos 1⟩) (p : Fin N) (k : Fin 1) :
    v11 (ix2 p k) = Spec.soft (row s p) k := by
  have h4 : ∀ q : Fin 1, v4 (ix2 p q) = Spec.rmax (row s p) := fun q => by
    rw [e4, bcast_a_a1_apply d1 hd1 hb1 v3 p q]
    exact host_rmax ecst e1 ecst' e2 e3 p
  have h7 : ∀ q : Fin 1, v7 (ix2 p q) = Ideal.exp (row s p q - Spec.rmax (row s p)) := fun q => by
    rw [e7, e6]
    show Ideal.exp (s (ix2 p q) - v4 (ix2 p q)) = _
    rw [h4 q]
  have h9 : v9 (ix2 p k) = Spec.rsum fun q => Ideal.exp (row s p q - Spec.rmax (row s p)) := by
    rw [e9, bcast_a_a1_apply d1 hd1 hb1 v8 p k, e8,
      host_sum_last_apply v7 cst4 hr (reduces_of_reducesTo hr Nat.one_pos) hu p, ecst4]
    show Ideal.ofBits .f32 0x00000000#32 + ∑ q : Fin 1, v7 (ix2 p q) = _
    rw [Ideal.ofBits_zero_f32, zero_add]
    exact Finset.sum_congr rfl fun q _ => h7 q
  rw [e11]
  show Ideal.div (v7 (ix2 p k)) (v9 (ix2 p k)) = _
  rw [h7 k, h9]
  rfl

/-- THE HOST'S MEAN OF EACH ROW AT p: the row's sum from the zero word over the word w of the row's length. -/
theorem host_mean {w : BitVec 32} {s : FVec Ideal ⟨2, ![N, c]⟩ .f32} {cst0 cstw : FVec Ideal ⟨0, ![]⟩ .f32}
    {v1 v2 v3 : FVec Ideal ⟨1, ![N]⟩ .f32}
    {hr : (⟨2, ![N, c]⟩ : Shape).ReducesTo [1] ⟨1, ![N]⟩} {hu : 0 < (⟨0, ![]⟩ : Shape).numel}
    {d0 : Fin (⟨0, ![]⟩ : Shape).rank → Fin (⟨1, ![N]⟩ : Shape).rank}
    {hb0 : (⟨0, ![]⟩ : Shape).BroadcastsInDim ⟨1, ![N]⟩ d0}
    (ecst0 : cst0 = constant ⟨0, ![]⟩ .f32 0x00000000#32)
    (e1 : v1 = Host.reduceAdd s cst0 hr hu)
    (ecstw : cstw = constant ⟨0, ![]⟩ .f32 w)
    (e2 : v2 = broadcastInDim ⟨1, ![N]⟩ d0 hb0 cstw)
    (e3 : v3 = Host.divf v1 v2) (p : Fin N) :
    v3 (ix1 p) = Spec.mean w (row s p) := by
  rw [e3]
  show Ideal.div (v1 (ix1 p)) (v2 (ix1 p)) = _
  rw [e1, host_sum_last_apply s cst0 hr (reduces_of_reducesTo hr Nat.one_pos) hu p, ecst0, e2,
    bcast_scalar_apply d0 hb0 cstw (ix1 p), ecstw]
  show Ideal.div (Ideal.ofBits .f32 0x00000000#32 + ∑ q : Fin c, s (ix2 p q)) (Ideal.ofBits .f32 w) = _
  rw [Ideal.ofBits_zero_f32, zero_add]
  rfl

/-- A vector kept as a column, at (p, u). -/
theorem host_col {v : FVec Ideal ⟨1, ![N]⟩ .f32} {m : FVec Ideal ⟨2, ![N, 1]⟩ .f32}
    {d1 : Fin (⟨1, ![N]⟩ : Shape).rank → Fin (⟨2, ![N, 1]⟩ : Shape).rank}
    {hb1 : (⟨1, ![N]⟩ : Shape).BroadcastsInDim ⟨2, ![N, 1]⟩ d1}
    (e : m = broadcastInDim ⟨2, ![N, 1]⟩ d1 hb1 v)
    (hd1 : d1 ⟨0, Nat.one_pos⟩ = ⟨0, Nat.succ_pos 1⟩) (p : Fin N) (u : Fin 1) : m (ix2 p u) = v (ix1 p) := by
  rw [e, bcast_a_a1_apply d1 hd1 hb1 v p u]

/-- A product of two arrays at an index, with the factors' entries known. -/
theorem host_mul {t : Shape} {a b m : FVec Ideal t .f32} (e : m = mulf a b) (i : t.Idx) {x y : EReal}
    (ha : a i = x) (hb : b i = y) : m i = x * y := by
  subst e
  show a i * b i = _
  rw [ha, hb]

/-- A band of columns of a matrix, at (p, j): the matrix at (p, o + j). -/
theorem host_slice {c' o : Nat} {x : FVec Ideal ⟨2, ![N, c]⟩ .f32} {s : FVec Ideal ⟨2, ![N, c']⟩ .f32}
    {h : (⟨2, ![N, c]⟩ : Shape).Slices ![0, o] ⟨2, ![N, c']⟩}
    (e : s = extractStridedSlice ⟨2, ![N, c']⟩ ![0, o] x h) (p : Fin N) (j : Fin c') (hj : o + j.val < c) :
    s (ix2 p j) = x (ix2 p ⟨o + j.val, hj⟩) := by
  rw [e]
  exact Cert.LibCatCols.slice_cols_apply o x h p j hj

/-- Row p of a band of columns of a 65-column matrix is that segment of the matrix's row p. -/
theorem host_slice_seg {c' o : Nat} {x : FVec Ideal ⟨2, ![N, 65]⟩ .f32} {s : FVec Ideal ⟨2, ![N, c']⟩ .f32}
    {h : (⟨2, ![N, 65]⟩ : Shape).Slices ![0, o] ⟨2, ![N, c']⟩}
    (e : s = extractStridedSlice ⟨2, ![N, c']⟩ ![0, o] x h) (hoc : o + c' ≤ 65) (p : Fin N) :
    row s p = Spec.seg o c' hoc (Spec.rowOf x p) :=
  funext fun j => host_slice e p j (by have := j.isLt; omega)

end

end Cert.RefHost

end
-- ==== Proof.RefTab.lean ====
/-
  The two index tables of the reference's column gathers, read at a leaf.

  The reference takes each leaf's group probability and top probability by gathering columns of the [N, 8] and [N, 2]
  tables through constant index vectors: the group number of each of the 65 leaves (seven 0s, twenty-three 1s, eighteen
  2s, five 3s, five 4s, one 5, three 6s, three 7s) and the top node of each (fifty-three 0s, twelve 1s). The index
  vector passes through a select on an all-false mask (the wrap of negative indices, which never applies) and is kept
  as a column. Read through these tables, a row of eight values L becomes L 0 seven times, L 1 twenty-three times and so
  on, laid end to end; a row of two values T becomes T 0 fifty-three times and T 1 twelve times. The index is clamped into
  the table's range as the gather clamps it.
-/
import Idealize.ShloMosaic.Lib.Pipeline.Value
import Idealize.ShloMosaic.Lib.ValueIdx
import proofs.«152243_j47253230191392_2_alg».proof.ReferenceIdeal
import proofs.«152243_j47253230191392_2_alg».proof.Proof.Spec
import proofs.«152243_j47253230191392_2_alg».proof.Proof.LibHostBroadcast

noncomputable section

namespace Cert.RefTab

open Idealize.ShloMosaic Idealize.ShloMosaic.ValueIdx
open Cert.ReferenceIdeal Cert.Spec Cert.LibHostBroadcast

/-- A row of eight values read through the leaves' group numbers: each group's value over the group's columns. -/
theorem group_table (L : Nat → EReal) (k : Fin 65) :
    L (min (lit0 k).toInt.toNat (8 - 1))
      = rcons 7 (fun _ => L 0) (rcons 23 (fun _ => L 1) (rcons 18 (fun _ => L 2) (rcons 5 (fun _ => L 3)
          (rcons 5 (fun _ => L 4) (rcons 1 (fun _ => L 5) (rcons 3 (fun _ => L 6) (rcons 3 (fun _ => L 7) rnil))))))) k.val := by
  fin_cases k <;> rfl

/-- A row of two values read through the leaves' top-node numbers: the first over columns 0 to 52, the second over 53 to 64. -/
theorem top_table (T : Fin 2 → EReal) (k : Fin 65) (h : min (lit1 k).toInt.toNat (2 - 1) < 2) :
    T ⟨min (lit1 k).toInt.toNat (2 - 1), h⟩
      = rcons 53 (fun _ => T 0) (rcons 12 (fun _ => T 1) rnil) k.val := by
  fin_cases k <;> rfl

/-- The same with the index word given by an equation. -/
theorem group_table_of (L : Nat → EReal) (k : Fin 65) (w : BitVec 32) (hw : w = lit0 k) :
    L (min w.toInt.toNat (8 - 1))
      = rcons 7 (fun _ => L 0) (rcons 23 (fun _ => L 1) (rcons 18 (fun _ => L 2) (rcons 5 (fun _ => L 3)
          (rcons 5 (fun _ => L 4) (rcons 1 (fun _ => L 5) (rcons 3 (fun _ => L 6) (rcons 3 (fun _ => L 7) rnil))))))) k.val := by
  subst hw
  exact group_table L k

/-- The same with the index word given by an equation. -/
theorem top_table_of (T : Fin 2 → EReal) (k : Fin 65) (w : BitVec 32) (hw : w = lit1 k) (h : min w.toInt.toNat (2 - 1) < 2) :
    T ⟨min w.toInt.toNat (2 - 1), h⟩ = rcons 53 (fun _ => T 0) (rcons 12 (fun _ => T 1) rnil) k.val := by
  subst hw
  exact top_table T k h

/-- Rows laid end to end agree when their pieces agree. -/
theorem rcons_congr {α : Type} {c : Nat} {f f' : Fin c → α} {r r' : Nat → α} (hf : ∀ j, f j = f' j) (hr : r = r') :
    rcons c f r = rcons c f' r' := by
  rw [funext hf, hr]

/-- A dense table of 65 words, written as a function of the row-major position, at entry e. -/
theorem dense_at (lit : Fin 65 → BitVec 32) (tab : IVec ⟨1, ![65]⟩ 32)
    (e0 : tab = fun i => lit ((⟨1, ![65]⟩ : Shape).rowMajor i)) (e : Fin 65) : tab (ix1 e) = lit e := by
  rw [e0]
  exact congrArg lit (Fin.ext (Shape.rowMajor_val_one (ix1 e)))

/-- The index column a gather reads: the table selected against its wrapped copy on an all-false mask, kept as a
    column. Its entry (e, 0) is the table's entry e. -/
theorem index_col {E : Nat} {tab alt sel : IVec ⟨1, ![E]⟩ 32} {mask : IVec ⟨1, ![E]⟩ 1} {col : IVec ⟨2, ![E, 1]⟩ 32}
    {d1 : Fin (⟨1, ![E]⟩ : Shape).rank → Fin (⟨2, ![E, 1]⟩ : Shape).rank}
    {hb1 : (⟨1, ![E]⟩ : Shape).BroadcastsInDim ⟨2, ![E, 1]⟩ d1}
    (emask : mask = constantI ⟨1, ![E]⟩ 1 0#1) (esel : sel = select mask alt tab)
    (ecol : col = broadcastInDim ⟨2, ![E, 1]⟩ d1 hb1 sel) (hd1 : d1 ⟨0, Nat.one_pos⟩ = ⟨0, Nat.succ_pos 1⟩) (e : Fin E) :
    col (ix2 e (0 : Fin 1)) = tab (ix1 e) := by
  rw [ecol, bcast_a_a1_apply d1 hd1 hb1 sel e 0, esel, emask]
  exact select_zero _ _

end Cert.RefTab

end
-- ==== Proof.LibHostGatherCols.lean ====
/-
  A column gather of a matrix read at an entry.

  `x[:, idx]` of an A×C matrix at E column numbers lowers to `stablehlo.gather` with the whole first axis as the
  slice (offset axis 0), the second axis collapsed and addressed by the start index (start index map [1]), the start
  indices an [E, 1] array whose second axis holds the one-component index vector. Result entry (p, e) is the operand at
  row p and at the column the e-th start index names, read as a signed integer and clamped into [0, C − 1] as
  StableHLO clamps every start index. Generic in A, C, E and in the index width.
-/
import Idealize.ShloMosaic.Lib.Pipeline.Value
import Idealize.ShloMosaic.Lib.ValueIdx

namespace Cert.LibHostGatherCols

open Idealize.ShloMosaic Idealize.ShloMosaic.ValueIdx

variable {α : Type}

/-- Those dimension numbers for an operand [A, C], start indices [E, 1] and result [A, E]; their conditions `wf` are
    decided on a program's literal shapes. A printed record with the same seven fields is this one by `rfl`. -/
abbrev colDims (A C E : Nat)
    (wf : GatherDims.WF ⟨2, ![A, C]⟩ ⟨2, ![E, 1]⟩ ⟨2, ![A, E]⟩ [0] [1] [] [1] [] 1 ![A, 1]) :
    GatherDims ⟨2, ![A, C]⟩ ⟨2, ![E, 1]⟩ ⟨2, ![A, E]⟩ where
  offsetDims := [0]
  collapsedSliceDims := [1]
  operandBatchingDims := []
  startIndicesBatchingDims := []
  startIndexMap := [1]
  indexVectorDim := 1
  sliceSizes := ![A, 1]
  wf := wf

/-- THE GATHER READ AT (p, e): the operand at row p and at the column `idx[e, 0]`, read signed and clamped into
    [0, C − 1]. On axis 0 the start is zero and the offset coordinate is the result's row; on axis 1 the offset is zero
    and the start is the clamped index. -/
theorem gather_cols_apply {A C E w : Nat} (hC : 0 < C)
    (wf : GatherDims.WF ⟨2, ![A, C]⟩ ⟨2, ![E, 1]⟩ ⟨2, ![A, E]⟩ [0] [1] [] [1] [] 1 ![A, 1])
    (x : (⟨2, ![A, C]⟩ : Shape).Idx → α) (idx : IVec ⟨2, ![E, 1]⟩ w) (p : Fin A) (e : Fin E) :
    Host.gather (colDims A C E wf) x idx (ix2 p e)
      = x (ix2 p ⟨min (idx (ix2 e (0 : Fin 1))).toInt.toNat (C - 1), by omega⟩) := by
  unfold Host.gather
  congr 1
  funext a
  refine Fin.ext ?_
  match a with
  | ⟨0, _⟩ =>
    show (colDims A C E wf).start (ix2 p e) idx 0 + (colDims A C E wf).batchCoord (ix2 p e) 0
      + (colDims A C E wf).offCoord (ix2 p e) 0 = p.val
    rw [GatherDims.batchCoord_eq_zero _ _ _ List.not_mem_nil]
    unfold GatherDims.start
    rw [dif_neg (show ¬ (0 : Fin 2) ∈ ([1] : List (Fin 2)) by decide)]
    unfold GatherDims.offCoord
    rw [dif_pos ((GatherDims.mem_sKept _ _).mpr
      ⟨(show ¬ (0 : Fin 2) ∈ ([1] : List (Fin 2)) by decide), List.not_mem_nil⟩)]
    simp only [Nat.zero_add, Nat.add_zero]
    rfl
  | ⟨1, _⟩ =>
    show (colDims A C E wf).start (ix2 p e) idx 1 + (colDims A C E wf).batchCoord (ix2 p e) 1
      + (colDims A C E wf).offCoord (ix2 p e) 1 = min (idx (ix2 e (0 : Fin 1))).toInt.toNat (C - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (colDims A C E wf).startIndexMap from List.mem_singleton.mpr rfl)]
    have hsi : (colDims A C E wf).siIdx (ix2 p e) ⟨List.idxOf (1 : Fin 2) (colDims A C E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl

end Cert.LibHostGatherCols
-- ==== Proof.RefRow.lean ====
/-
  The reference's two results read at an entry.

  With the input's row p written x, the reference's buffers are, entry by entry, the specification's functions of x:
  each group's band of columns is a segment of x and its eleven-step chain the segment's softmax; the eight softmaxes laid
  side by side are the leaf probabilities; each group's sum over the word of its size is the group's mean, the eight
  means kept as columns and laid side by side are the group logits, and likewise the two top logits; the softmax of the
  two tops, and of the first and the last four group logits, are the top and the group probabilities; the node table is
  the four tables and a column of ones side by side. The two column gathers read the group and the top probabilities
  through the constant tables of each leaf's group and top node, which spreads them over the leaves as the
  specification does; the product of the three tables is the path probability.
-/
import proofs.«152243_j47253230191392_2_alg».proof.Proof.RefEq
import proofs.«152243_j47253230191392_2_alg».proof.Proof.RefHost
import proofs.«152243_j47253230191392_2_alg».proof.Proof.RefTab
import proofs.«152243_j47253230191392_2_alg».proof.Proof.LibCatCols
import proofs.«152243_j47253230191392_2_alg».proof.Proof.LibHostGatherCols
import proofs.«152243_j47253230191392_2_alg».proof.Proof.LibHostBroadcast
import proofs.«152243_j47253230191392_2_alg».proof.Proof.Spec

noncomputable section

namespace Cert.RefRow

open Idealize.ShloMosaic Idealize.ShloMosaic.ValueIdx
open Cert.ReferenceIdeal Cert.ReferenceIdeal.Gen Cert.RefEq
open Cert.Spec Cert.RefHost Cert.RefTab Cert.LibCatCols Cert.LibHostGatherCols Cert.LibHostBroadcast

variable (V : Valuation τ sig (Elt Ideal))

/-- Row p of the input. -/
abbrev xr (p : Fin 524288) : Fin 65 → EReal := rowOf (N := 524288) (c := 65) (A V main_arg0) p

/-! ## The leaf probabilities: each group's softmax -/

/-- Group 0 (columns 0 to 6): the softmax of the segment. -/
theorem soft_g0 (p : Fin 524288) (j : Fin 7) :
    A V main_v11 (ix2 p j) = soft (seg 0 7 (by omega) (xr V p)) j :=
  (host_soft (e_main_cst V) (e_main_v1 V) (e_main_cst_3 V) (e_main_v2 V) (e_main_v3 V) (e_main_v4 V) (e_main_v5 V) (e_main_v6 V) (e_main_v7 V) (e_main_cst_4 V) (e_main_v8 V) (e_main_v9 V) (e_main_v10 V) (e_main_v11 V) rfl rfl p j).trans
    (congrArg (fun v => soft v j) (host_slice_seg (e_main_v0 V) (by omega) p))

/-- Group 1 (columns 7 to 29): the softmax of the segment. -/
theorem soft_g1 (p : Fin 524288) (j : Fin 23) :
    A V main_v23 (ix2 p j) = soft (seg 7 23 (by omega) (xr V p)) j :=
  (host_soft (e_main_cst_5 V) (e_main_v13 V) (e_main_cst_6 V) (e_main_v14 V) (e_main_v15 V) (e_main_v16 V) (e_main_v17 V) (e_main_v18 V) (e_main_v19 V) (e_main_cst_7 V) (e_main_v20 V) (e_main_v21 V) (e_main_v22 V) (e_main_v23 V) rfl rfl p j).trans
    (congrArg (fun v => soft v j) (host_slice_seg (e_main_v12 V) (by omega) p))

/-- Group 2 (columns 30 to 47): the softmax of the segment. -/
theorem soft_g2 (p : Fin 524288) (j : Fin 18) :
    A V main_v35 (ix2 p j) = soft (seg 30 18 (by omega) (xr V p)) j :=
  (host_soft (e_main_cst_8 V) (e_main_v25 V) (e_main_cst_9 V) (e_main_v26 V) (e_main_v27 V) (e_main_v28 V) (e_main_v29 V) (e_main_v30 V) (e_main_v31 V) (e_main_cst_10 V) (e_main_v32 V) (e_main_v33 V) (e_main_v34 V) (e_main_v35 V) rfl rfl p j).trans
    (congrArg (fun v => soft v j) (host_slice_seg (e_main_v24 V) (by omega) p))

/-- Group 3 (columns 48 to 52): the softmax of the segment. -/
theorem soft_g3 (p : Fin 524288) (j : Fin 5) :
    A V main_v47 (ix2 p j) = soft (seg 48 5 (by omega) (xr V p)) j :=
  (host_soft (e_main_cst_11 V) (e_main_v37 V) (e_main_cst_12 V) (e_main_v38 V) (e_main_v39 V) (e_main_v40 V) (e_main_v41 V) (e_main_v42 V) (e_main_v43 V) (e_main_cst_13 V) (e_main_v44 V) (e_main_v45 V) (e_main_v46 V) (e_main_v47 V) rfl rfl p j).trans
    (congrArg (fun v => soft v j) (host_slice_seg (e_main_v36 V) (by omega) p))

/-- Group 4 (columns 53 to 57): the softmax of the segment. -/
theorem soft_g4 (p : Fin 524288) (j : Fin 5) :
    A V main_v59 (ix2 p j) = soft (seg 53 5 (by omega) (xr V p)) j :=
  (host_soft (e_main_cst_14 V) (e_main_v49 V) (e_main_cst_15 V) (e_main_v50 V) (e_main_v51 V) (e_main_v52 V) (e_main_v53 V) (e_main_v54 V) (e_main_v55 V) (e_main_cst_16 V) (e_main_v56 V) (e_main_v57 V) (e_main_v58 V) (e_main_v59 V) rfl rfl p j).trans
    (congrArg (fun v => soft v j) (host_slice_seg (e_main_v48 V) (by omega) p))

/-- Group 5 (columns 58 to 58): the softmax of the segment. -/
theorem soft_g5 (p : Fin 524288) (j : Fin 1) :
    A V main_v69 (ix2 p j) = soft (seg 58 1 (by omega) (xr V p)) j :=
  (host_soft_col (e_main_cst_17 V) (e_main_v61 V) (e_main_cst_18 V) (e_main_v62 V) (e_main_v63 V) (e_main_v64 V) (e_main_v65 V) (e_main_v66 V) (e_main_cst_19 V) (e_main_v67 V) (e_main_v68 V) (e_main_v69 V) rfl p j).trans
    (congrArg (fun v => soft v j) (host_slice_seg (e_main_v60 V) (by omega) p))

/-- Group 6 (columns 59 to 61): the softmax of the segment. -/
theorem soft_g6 (p : Fin 524288) (j : Fin 3) :
    A V main_v81 (ix2 p j) = soft (seg 59 3 (by omega) (xr V p)) j :=
  (host_soft (e_main_cst_20 V) (e_main_v71 V) (e_main_cst_21 V) (e_main_v72 V) (e_main_v73 V) (e_main_v74 V) (e_main_v75 V) (e_main_v76 V) (e_main_v77 V) (e_main_cst_22 V) (e_main_v78 V) (e_main_v79 V) (e_main_v80 V) (e_main_v81 V) rfl rfl p j).trans
    (congrArg (fun v => soft v j) (host_slice_seg (e_main_v70 V) (by omega) p))

/-- Group 7 (columns 62 to 64): the softmax of the segment. -/
theorem soft_g7 (p : Fin 524288) (j : Fin 3) :
    A V main_v93 (ix2 p j) = soft (seg 62 3 (by omega) (xr V p)) j :=
  (host_soft (e_main_cst_23 V) (e_main_v83 V) (e_main_cst_24 V) (e_main_v84 V) (e_main_v85 V) (e_main_v86 V) (e_main_v87 V) (e_main_v88 V) (e_main_v89 V) (e_main_cst_25 V) (e_main_v90 V) (e_main_v91 V) (e_main_v92 V) (e_main_v93 V) rfl rfl p j).trans
    (congrArg (fun v => soft v j) (host_slice_seg (e_main_v82 V) (by omega) p))

/-- The eight softmaxes side by side. -/
theorem leafProbs_at (p : Fin 524288) (j : Fin 65) : A V main_v94 (ix2 p j) = leafProbs (xr V p) j.val := by
  refine (congrFun (e_main_v94 V) (ix2 p j)).trans ?_
  refine (cat8_row _ _ _ _ _ _ _ _ _ rnil p j).trans ?_
  exact congrFun (rcons_congr (soft_g0 V p) (rcons_congr (soft_g1 V p) (rcons_congr (soft_g2 V p) (rcons_congr (soft_g3 V p)
    (rcons_congr (soft_g4 V p) (rcons_congr (soft_g5 V p) (rcons_congr (soft_g6 V p) (rcons_congr (soft_g7 V p) rfl)))))))) j.val

/-! ## The group logits: each group's mean, kept as a column -/

/-- Group 0's mean. -/
theorem mean_g0 (p : Fin 524288) (u : Fin 1) :
    A V main_v127 (ix2 p u) = mean 0x40E00000#32 (seg 0 7 (by omega) (xr V p)) :=
  (host_col (e_main_v127 V) rfl p u).trans
    ((host_mean (e_main_cst_26 V) (e_main_v96 V) (e_main_cst_27 V) (e_main_v97 V) (e_main_v98 V) p).trans
      (congrArg (mean 0x40E00000#32) (host_slice_seg (e_main_v95 V) (by omega) p)))

/-- Group 1's mean. -/
theorem mean_g1 (p : Fin 524288) (u : Fin 1) :
    A V main_v128 (ix2 p u) = mean 0x41B80000#32 (seg 7 23 (by omega) (xr V p)) :=
  (host_col (e_main_v128 V) rfl p u).trans
    ((host_mean (e_main_cst_28 V) (e_main_v100 V) (e_main_cst_29 V) (e_main_v101 V) (e_main_v102 V) p).trans
      (congrArg (mean 0x41B80000#32) (host_slice_seg (e_main_v99 V) (by omega) p)))

/-- Group 2's mean. -/
theorem mean_g2 (p : Fin 524288) (u : Fin 1) :
    A V main_v129 (ix2 p u) = mean 0x41900000#32 (seg 30 18 (by omega) (xr V p)) :=
  (host_col (e_main_v129 V) rfl p u).trans
    ((host_mean (e_main_cst_30 V) (e_main_v104 V) (e_main_cst_31 V) (e_main_v105 V) (e_main_v106 V) p).trans
      (congrArg (mean 0x41900000#32) (host_slice_seg (e_main_v103 V) (by omega) p)))

/-- Group 3's mean. -/
theorem mean_g3 (p : Fin 524288) (u : Fin 1) :
    A V main_v130 (ix2 p u) = mean 0x40A00000#32 (seg 48 5 (by omega) (xr V p)) :=
  (host_col (e_main_v130 V) rfl p u).trans
    ((host_mean (e_main_cst_32 V) (e_main_v108 V) (e_main_cst_33 V) (e_main_v109 V) (e_main_v110 V) p).trans
      (congrArg (mean 0x40A00000#32) (host_slice_seg (e_main_v107 V) (by omega) p)))

/-- Group 4's mean. -/
theorem mean_g4 (p : Fin 524288) (u : Fin 1) :
    A V main_v131 (ix2 p u) = mean 0x40A00000#32 (seg 53 5 (by omega) (xr V p)) :=
  (host_col (e_main_v131 V) rfl p u).trans
    ((host_mean (e_main_cst_34 V) (e_main_v112 V) (e_main_cst_35 V) (e_main_v113 V) (e_main_v114 V) p).trans
      (congrArg (mean 0x40A00000#32) (host_slice_seg (e_main_v111 V) (by omega) p)))

/-- Group 5's mean. -/
theorem mean_g5 (p : Fin 524288) (u : Fin 1) :
    A V main_v132 (ix2 p u) = mean 0x3F800000#32 (seg 58 1 (by omega) (xr V p)) :=
  (host_col (e_main_v132 V) rfl p u).trans
    ((host_mean (e_main_cst_36 V) (e_main_v116 V) (e_main_cst_37 V) (e_main_v117 V) (e_main_v118 V) p).trans
      (congrArg (mean 0x3F800000#32) (host_slice_seg (e_main_v115 V) (by omega) p)))

/-- Group 6's mean. -/
theorem mean_g6 (p : Fin 524288) (u : Fin 1) :
    A V main_v133 (ix2 p u) = mean 0x40400000#32 (seg 59 3 (by omega) (xr V p)) :=
  (host_col (e_main_v133 V) rfl p u).trans
    ((host_mean (e_main_cst_38 V) (e_main_v120 V) (e_main_cst_39 V) (e_main_v121 V) (e_main_v122 V) p).trans
      (congrArg (mean 0x40400000#32) (host_slice_seg (e_main_v119 V) (by omega) p)))

/-- Group 7's mean. -/
theorem mean_g7 (p : Fin 524288) (u : Fin 1) :
    A V main_v134 (ix2 p u) = mean 0x40400000#32 (seg 62 3 (by omega) (xr V p)) :=
  (host_col (e_main_v134 V) rfl p u).trans
    ((host_mean (e_main_cst_40 V) (e_main_v124 V) (e_main_cst_41 V) (e_main_v125 V) (e_main_v126 V) p).trans
      (congrArg (mean 0x40400000#32) (host_slice_seg (e_main_v123 V) (by omega) p)))

/-- The eight means side by side. -/
theorem means_at (p : Fin 524288) (j : Fin 8) : A V main_v135 (ix2 p j) = means (xr V p) j.val := by
  refine (congrFun (e_main_v135 V) (ix2 p j)).trans ?_
  refine (cat8_row _ _ _ _ _ _ _ _ _ rnil p j).trans ?_
  exact congrFun (rcons_congr (mean_g0 V p) (rcons_congr (mean_g1 V p) (rcons_congr (mean_g2 V p) (rcons_congr (mean_g3 V p)
    (rcons_congr (mean_g4 V p) (rcons_congr (mean_g5 V p) (rcons_congr (mean_g6 V p) (rcons_congr (mean_g7 V p) rfl)))))))) j.val

/-! ## The two top logits and their softmax -/

/-- The mean of the first 53 leaves. -/
theorem top_g0 (p : Fin 524288) (u : Fin 1) :
    A V main_v144 (ix2 p u) = mean 0x42540000#32 (seg 0 53 (by omega) (xr V p)) :=
  (host_col (e_main_v144 V) rfl p u).trans
    ((host_mean (e_main_cst_42 V) (e_main_v137 V) (e_main_cst_43 V) (e_main_v138 V) (e_main_v139 V) p).trans
      (congrArg (mean 0x42540000#32) (host_slice_seg (e_main_v136 V) (by omega) p)))

/-- The mean of the last 12 leaves. -/
theorem top_g1 (p : Fin 524288) (u : Fin 1) :
    A V main_v145 (ix2 p u) = mean 0x41400000#32 (seg 53 12 (by omega) (xr V p)) :=
  (host_col (e_main_v145 V) rfl p u).trans
    ((host_mean (e_main_cst_44 V) (e_main_v141 V) (e_main_cst_45 V) (e_main_v142 V) (e_main_v143 V) p).trans
      (congrArg (mean 0x41400000#32) (host_slice_seg (e_main_v140 V) (by omega) p)))

/-- The two top logits side by side. -/
theorem tops_at (p : Fin 524288) (j : Fin 2) : A V main_v146 (ix2 p j) = tops (xr V p) j.val := by
  refine (congrFun (e_main_v146 V) (ix2 p j)).trans ?_
  refine (cat2_row _ _ _ rnil p j).trans ?_
  exact congrFun (rcons_congr (top_g0 V p) (rcons_congr (top_g1 V p) rfl)) j.val

/-- The two top probabilities. -/
theorem ptop_at (p : Fin 524288) (j : Fin 2) : A V main_v157 (ix2 p j) = ptop (xr V p) j :=
  (host_soft (e_main_cst_46 V) (e_main_v147 V) (e_main_cst_47 V) (e_main_v148 V) (e_main_v149 V) (e_main_v150 V) (e_main_v151 V) (e_main_v152 V) (e_main_v153 V) (e_main_cst_48 V) (e_main_v154 V) (e_main_v155 V) (e_main_v156 V) (e_main_v157 V) rfl rfl p j).trans
    (congrArg (fun v => soft v j) (funext (tops_at V p)))

/-! ## The group probabilities: the softmax of the first four and of the last four group logits -/

theorem lvl2a_at (p : Fin 524288) (j : Fin 4) :
    A V main_v169 (ix2 p j) = soft (fun q : Fin 4 => means (xr V p) q.val) j :=
  (host_soft (e_main_cst_49 V) (e_main_v159 V) (e_main_cst_50 V) (e_main_v160 V) (e_main_v161 V) (e_main_v162 V) (e_main_v163 V) (e_main_v164 V) (e_main_v165 V) (e_main_cst_51 V) (e_main_v166 V) (e_main_v167 V) (e_main_v168 V) (e_main_v169 V) rfl rfl p j).trans
    (congrArg (fun v => soft v j) (funext fun q : Fin 4 =>
      (host_slice (e_main_v158 V) p q (by have := q.isLt; omega)).trans
        ((means_at V p ⟨0 + q.val, by have := q.isLt; omega⟩).trans (congrArg (means (xr V p)) (Nat.zero_add q.val)))))

theorem lvl2b_at (p : Fin 524288) (j : Fin 4) :
    A V main_v181 (ix2 p j) = soft (fun q : Fin 4 => means (xr V p) (4 + q.val)) j :=
  (host_soft (e_main_cst_52 V) (e_main_v171 V) (e_main_cst_53 V) (e_main_v172 V) (e_main_v173 V) (e_main_v174 V) (e_main_v175 V) (e_main_v176 V) (e_main_v177 V) (e_main_cst_54 V) (e_main_v178 V) (e_main_v179 V) (e_main_v180 V) (e_main_v181 V) rfl rfl p j).trans
    (congrArg (fun v => soft v j) (funext fun q : Fin 4 =>
      (host_slice (e_main_v170 V) p q (by have := q.isLt; omega)).trans
        (means_at V p ⟨4 + q.val, by have := q.isLt; omega⟩)))

/-- The eight group probabilities. -/
theorem lvl2_at (p : Fin 524288) (j : Fin 8) : A V main_v182 (ix2 p j) = lvl2 (xr V p) j.val := by
  refine (congrFun (e_main_v182 V) (ix2 p j)).trans ?_
  refine (cat2_row _ _ _ rnil p j).trans ?_
  exact congrFun (rcons_congr (lvl2a_at V p) (rcons_congr (lvl2b_at V p) rfl)) j.val

/-! ## The node table -/

/-- The root's column of ones. -/
theorem one_at (p : Fin 524288) (u : Fin 1) : A V main_v183 (ix2 p u) = Ideal.ofBits .f32 0x3F800000#32 := by
  refine (congrFun (e_main_v183 V) (ix2 p u)).trans ?_
  refine (bcast_scalar_apply _ _ _ (ix2 p u)).trans ?_
  exact congrFun (e_main_cst_55 V) ix0

theorem node_eq : A V main_v184 = Cert.Spec.nodeArr (A V main_arg0) := by
  funext i
  obtain ⟨p, k, rfl⟩ : ∃ (p : Fin 524288) (k : Fin 76), i = ix2 p k := ⟨i 0, i 1, eq_ix2 i⟩
  refine (congrFun (e_main_v184 V) (ix2 p k)).trans ?_
  refine (cat4_row _ _ _ _ _ rnil p k).trans ?_
  exact congrFun (rcons_congr (leafProbs_at V p) (rcons_congr (lvl2_at V p) (rcons_congr (ptop_at V p)
    (rcons_congr (one_at V p) rfl)))) k.val

/-! ## The two gathers and the path probabilities -/

/-- The first gather's index column holds each leaf's group number. -/
theorem idx0_at (e : Fin 65) : A V main_v188 (ix2 e (0 : Fin 1)) = lit0 e :=
  (index_col (e_main_c_0 V) (e_main_v187 V) (e_main_v188 V) rfl e).trans (dense_at lit0 _ (e_main_c V) e)

/-- The second gather's index column holds each leaf's top node. -/
theorem idx1_at (e : Fin 65) : A V main_v194 (ix2 e (0 : Fin 1)) = lit1 e :=
  (index_col (e_main_c_2 V) (e_main_v193 V) (e_main_v194 V) rfl e).trans (dense_at lit1 _ (e_main_c_1 V) e)

/-- Each leaf's group probability. -/
theorem lvl2Leaf_at (p : Fin 524288) (k : Fin 65) : A V main_v189 (ix2 p k) = lvl2Leaf (xr V p) k.val := by
  refine (congrFun (e_main_v189 V) (ix2 p k)).trans ?_
  refine (gather_cols_apply (by decide) gather_S524288x8_S65x1_S524288x65_0_1_n_n_1_1_5242881_wf
    (A V main_v182) (A V main_v188) p k).trans ?_
  refine (lvl2_at V p _).trans ?_
  exact group_table_of (lvl2 (xr V p)) k _ (idx0_at V k)

/-- Each leaf's top probability. -/
theorem topLeaf_at (p : Fin 524288) (k : Fin 65) : A V main_v195 (ix2 p k) = topLeaf (xr V p) k.val := by
  refine (congrFun (e_main_v195 V) (ix2 p k)).trans ?_
  refine (gather_cols_apply (by decide) gather_S524288x2_S65x1_S524288x65_0_1_n_n_1_1_5242881_wf
    (A V main_v157) (A V main_v194) p k).trans ?_
  refine (ptop_at V p _).trans ?_
  exact top_table_of (ptop (xr V p)) k _ (idx1_at V k) _

theorem leaf_eq : A V main_v196 = Cert.Spec.leafArr (A V main_arg0) := by
  funext i
  obtain ⟨p, k, rfl⟩ : ∃ (p : Fin 524288) (k : Fin 65), i = ix2 p k := ⟨i 0, i 1, eq_ix2 i⟩
  exact host_mul (e_main_v196 V) (ix2 p k)
    (host_mul (e_main_v190 V) (ix2 p k) (leafProbs_at V p k) (lvl2Leaf_at V p k)) (topLeaf_at V p k)

end Cert.RefRow

end
-- ==== Proof.RefRun.lean ====
/-
  The reference's run, read: every weakly fair execution of its @main terminates with the two result buffers at the path
  probability table and the node table of the logits, the logits unchanged.

  The run leaves every buffer at the fold of the 257 host operations over the launch contents. The logits' buffer is
  written by none of them, so it ends as launched; that the two result buffers are the two tables of the logits' final
  contents (`LeafEq`, `NodeEq`) is taken as a hypothesis here and proved where the operations are read.
-/
import proofs.«152243_j47253230191392_2_alg».proof.Proof.RefEq
import proofs.«152243_j47253230191392_2_alg».proof.Proof.Spec

set_option maxRecDepth 16384

noncomputable section

namespace Cert.RefRun

open Cert.ReferenceIdeal Cert.ReferenceIdeal.Gen Cert.RefOps Cert.RefEq Cert.LibLocalEq Cert.Spec
open Idealize.ShloMosaic Idealize.ShloMosaic.TcCoe Idealize.SL.Sem Idealize.ShloMosaic.StableHlo

/-- The first result buffer ends at the path probability table of what the logits' buffer ends at. -/
def LeafEq : Prop := ∀ V : Valuation τ sig (Elt Ideal), A V main_v196 = leafArr (A V main_arg0)

/-- The second result buffer ends at the node table of what the logits' buffer ends at. -/
def NodeEq : Prop := ∀ V : Valuation τ sig (Elt Ideal), A V main_v184 = nodeArr (A V main_arg0)

/-- No operation writes the logits' buffer: it ends as it started. -/
theorem arg_kept (V : Valuation τ sig (Elt Ideal)) : A V main_arg0 = V (Proc.devRef .tc main_arg0) :=
  after_keep numbered.writes (by decide) V

theorem run (hl : LeafEq) (hn : NodeEq) (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v196) = leafArr (m ((c.tc : Thread nD τ).loc main_arg0))
      ∧ r.2.mem ((c.tc : Thread nD τ).loc main_v184) = nodeArr (m ((c.tc : Thread nD τ).loc main_arg0))
      ∧ r.2.mem ((c.tc : Thread nD τ).loc main_arg0) = m ((c.tc : Thread nD τ).loc main_arg0) :=
  (θ_run defs _ _).mono (fun r h c =>
      ⟨(h c main_v196).trans ((hl _).trans (congrArg leafArr (arg_kept _))),
       (h c main_v184).trans ((hn _).trans (congrArg nodeArr (arg_kept _))),
       (h c main_arg0).trans (arg_kept _)⟩)
    (run_seq scopedRefs_eq scopedSems_eq defs main (fun _ => ops) main_eq (fun _ => ops_sub) m ρ (fun _ => ops_fresh))

end Cert.RefRun

end
-- ==== Proof.lean ====
/-
  The certificate of the hierarchical softmax kernel against its jnp reference, over the extended reals.

  Both programs take f32[524288, 65] leaf logits and return the table of root-to-leaf path probabilities [524288, 65] and
  the node table [524288, 76] (65 leaves, 8 groups, 2 top nodes, the root). Row by row both compute the same thing: each
  sibling group's softmax of its leaves' logits, each group's and each top node's logit as the mean of the leaves beneath
  it, the softmax of those logits among siblings, and for each leaf the product of its own, its group's and its top node's
  probability (Proof/Spec.lean). The kernel does it on 128 blocks of 4096 rows, spreading a group's probability over the
  group's columns by broadcasting and laying columns side by side; the reference does it on the whole array, picking
  each leaf's group and top node by a gather through two constant index tables. The operations correspond one for one,
  so the two results are the same function of the logits with no appeal to the inputs being finite.

  * Proof/KernelRow.lean: the kernel's body at an entry of its block is the specification's row function of that row.
  * Proof/KernelValue.lean: so after the run the kernel's two arrays are the two tables of the logits.
  * Proof/RefOps.lean, Proof/RefEq.lean: the reference's 257 host operations, each with its own equation.
  * Proof/RefRow.lean: read through them, the reference's two result buffers are the same two tables.
  * Proof/RefRun.lean: the reference's run.
  The kernel's idealization rewrote nothing, so it is the kernel's own text read over the extended reals.
-/
import proofs.«152243_j47253230191392_2_alg».proof.Defs
import proofs.«152243_j47253230191392_2_alg».proof.Proof.Gen.Kernel
import proofs.«152243_j47253230191392_2_alg».proof.Proof.Gen.Kernel.Skeleton
import proofs.«152243_j47253230191392_2_alg».proof.Proof.Gen.Kernel.Launch
import proofs.«152243_j47253230191392_2_alg».proof.Proof.Gen.Kernel.Points
import proofs.«152243_j47253230191392_2_alg».proof.Proof.Gen.Kernel.Frame
import proofs.«152243_j47253230191392_2_alg».proof.Proof.Gen.KernelIdeal
import proofs.«152243_j47253230191392_2_alg».proof.Proof.Gen.KernelIdeal.Skeleton
import proofs.«152243_j47253230191392_2_alg».proof.Proof.Gen.KernelIdeal.Launch
import proofs.«152243_j47253230191392_2_alg».proof.Proof.Gen.KernelIdeal.Points
import proofs.«152243_j47253230191392_2_alg».proof.Proof.Gen.KernelIdeal.Frame
import proofs.«152243_j47253230191392_2_alg».proof.Proof.Gen.KernelIdeal.Value
import proofs.«152243_j47253230191392_2_alg».proof.Proof.Gen.ReferenceIdeal
import proofs.«152243_j47253230191392_2_alg».proof.Proof.Gen.Pre_finite_inputs
import proofs.«152243_j47253230191392_2_alg».proof.Proof.KernelRow
import proofs.«152243_j47253230191392_2_alg».proof.Proof.KernelValue
import proofs.«152243_j47253230191392_2_alg».proof.Proof.RefRow
import proofs.«152243_j47253230191392_2_alg».proof.Proof.RefRun
import Idealize.ShloMosaic.Adequacy
import Idealize.ShloMosaic.Init

noncomputable section

namespace Cert.Proof

open Idealize.ShloMosaic Idealize.SL.Sem

/-- The kernel as printed runs, and its logits end unchanged. -/
theorem frame_kernel : Cert.frame_Kernel := fun m ρ _ => Cert.Kernel.Gen.frame m ρ

/-- The kernel read over the extended reals runs, and its logits end unchanged. -/
theorem frame_kernelIdeal : Cert.frame_KernelIdeal := fun m ρ _ => Cert.KernelIdeal.Gen.frame m ρ

/-- The reference runs, and its logits end unchanged: its run with the two results dropped. -/
theorem frame_referenceIdeal : Cert.frame_ReferenceIdeal := fun m ρ _ =>
  (θ_run Cert.ReferenceIdeal.defs _ _).mono (fun _ h c => (h c).2.2)
    (Cert.RefRun.run Cert.RefRow.leaf_eq Cert.RefRow.node_eq m ρ)

/-- The idealization rewrote no operation. -/
theorem preserves : Cert.preserves_Kernel_KernelIdeal := trivial

/-- From memories that agree on the logits both programs end with the path probability table and the node table of
    those logits. -/
theorem algebraic : Cert.algebraic_KernelIdeal_ReferenceIdeal := by
  intro m ρ m' ρ' _ hagree
  refine ⟨fun c => Cert.Spec.leafArr (m ((c.tc : Thread Cert.KernelIdeal.nD Cert.KernelIdeal.τ).loc Cert.KernelIdeal.main_arg0)),
    fun c => Cert.Spec.nodeArr (m ((c.tc : Thread Cert.KernelIdeal.nD Cert.KernelIdeal.τ).loc Cert.KernelIdeal.main_arg0)),
    Cert.KernelValue.run m ρ Cert.KernelRow.out1_apply Cert.KernelRow.out2_apply, ?_⟩
  refine (θ_run Cert.ReferenceIdeal.defs _ _).mono (fun _ h c => ⟨(h c).1.trans ?_, (h c).2.1.trans ?_, (h c).2.2⟩)
    (Cert.RefRun.run Cert.RefRow.leaf_eq Cert.RefRow.node_eq m' ρ')
  · rw [hagree c]
  · rw [hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
